-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_v33 : IVec S_ 1) : IVec S_ 1 :=
  let main_c_12 : IVec S_ 32 := constantI S_ 32 0#32
  let main_v34 : IVec S2x640000 32 := broadcastInDim S2x640000 ![] bcast_S_S2x640000 main_c_12
  let main_v35 : IVec S2x640000 1 := cmpi .sge main_arg1 main_v34
  let main_c_13 : IVec S_ 32 := constantI S_ 32 10000#32
  let main_v36 : IVec S2x640000 32 := broadcastInDim S2x640000 ![] bcast_S_S2x640000 main_c_13
  let main_v37 : IVec S2x640000 1 := cmpi .slt main_arg1 main_v36
  let main_v38 : IVec S2x640000 1 := andi main_v35 main_v37
  let main_c_14 : IVec S_ 1 := constantI S_ 1 1#1
  let main_v39 : IVec S_ 1 := (fun x v => Host.reduce IntOp.andi x v reducesTo_S2x640000_S_d0_1 h_S_) main_v38 main_c_14
  let main_v40 : IVec S_ 1 := andi main_v33 main_v39
  main_v40

def fn_part1 {F : FTy → Type} [FloatOps F] (main_arg1 : IVec S2x640000 32) (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S10240x10240 : Shape := ⟨2, ![10240, 10240]⟩
abbrev S650000x2 : Shape := ⟨2, ![650000, 2]⟩
abbrev S10240x128 : Shape := ⟨2, ![10240, 128]⟩
abbrev S1x128 : Shape := ⟨2, ![1, 128]⟩
abbrev S512x10240 : Shape := ⟨2, ![512, 10240]⟩
abbrev S512x128 : Shape := ⟨2, ![512, 128]⟩
abbrev S10000x64 : Shape := ⟨2, ![10000, 64]⟩
abbrev S10240x64 : Shape := ⟨2, ![10240, 64]⟩
abbrev S1x64 : Shape := ⟨2, ![1, 64]⟩
abbrev S512x64 : Shape := ⟨2, ![512, 64]⟩

abbrev nBuf : Space → Nat
  | .hbm => 102
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S10000, .i32⟩
  | .hbm, ⟨13, _⟩ => ⟨S650000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S10000, .f32⟩
  | .hbm, ⟨19, _⟩ => ⟨S650000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000, .f32⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S_, .i32⟩
  | .hbm, ⟨42, _⟩ => ⟨S650000, .i32⟩
  | .hbm, ⟨43, _⟩ => ⟨S650000, .i1⟩
  | .hbm, ⟨44, _⟩ => ⟨S_, .i32⟩
  | .hbm, ⟨45, _⟩ => ⟨S650000, .i32⟩
  | .hbm, ⟨46, _⟩ => ⟨S650000, .i32⟩
  | .hbm, ⟨47, _⟩ => ⟨S650000, .i32⟩
  | .hbm, ⟨48, _⟩ => ⟨S650000x1, .i32⟩
  | .hbm, ⟨49, _⟩ => ⟨S650000, .f32⟩
  | .hbm, ⟨50, _⟩ => ⟨S650000, .f32⟩
  | .hbm, ⟨51, _⟩ => ⟨S_, .f32⟩
  | .hbm, ⟨52, _⟩ => ⟨S10240x10240, .f32⟩
  | .hbm, ⟨53, _⟩ => ⟨S_, .i32⟩
  | .hbm, ⟨54, _⟩ => ⟨S650000, .i32⟩
  | .hbm, ⟨55, _⟩ => ⟨S650000, .i1⟩
  | .hbm, ⟨56, _⟩ => ⟨S_, .i32⟩
  | .hbm, ⟨57, _⟩ => ⟨S650000, .i32⟩
  | .hbm, ⟨58, _⟩ => ⟨S650000, .i32⟩
  | .hbm, ⟨59, _⟩ => ⟨S650000, .i32⟩
  | .hbm, ⟨60, _⟩ => ⟨S_, .i32⟩
  | .hbm, ⟨61, _⟩ => ⟨S650000, .i32⟩
  | .hbm, ⟨62, _⟩ => ⟨S650000, .i1⟩
  | .hbm, ⟨63, _⟩ => ⟨S_, .i32⟩
  | .hbm, ⟨64, _⟩ => ⟨S650000, .i32⟩
  | .hbm, ⟨65, _⟩ => ⟨S650000, .i32⟩
  | .hbm, ⟨66, _⟩ => ⟨S650000, .i32⟩
  | .hbm, ⟨67, _⟩ => ⟨S650000x1, .i32⟩
  | .hbm, ⟨68, _⟩ => ⟨S650000x1, .i32⟩
  | .hbm, ⟨69, _⟩ => ⟨S650000x2, .i32⟩
  | .hbm, ⟨70, _⟩ => ⟨S10240x10240, .f32⟩
  | .hbm, ⟨71, _⟩ => ⟨S10240x10240, .bf16⟩
  | .hbm, ⟨72, _⟩ => ⟨S10000x128, .bf16⟩
  | .hbm, ⟨73, _⟩ => ⟨S128x128, .bf16⟩
  | .hbm, ⟨74, _⟩ => ⟨S10000x128, .f32⟩
  | .hbm, ⟨75, _⟩ => ⟨S10000x128, .bf16⟩
  | .hbm, ⟨76, _⟩ => ⟨S_, .i32⟩
  | .hbm, ⟨77, _⟩ => ⟨S_, .bf16⟩
  | .hbm, ⟨78, _⟩ => ⟨S10240x128, .bf16⟩
  | .hbm, ⟨79, _⟩ => ⟨S1x128, .f32⟩
  | .hbm, ⟨80, _⟩ => ⟨S10240x128, .f32⟩
  | .hbm, ⟨81, _⟩ => ⟨S10000x128, .f32⟩
  | .hbm, ⟨82, _⟩ => ⟨S10000x128, .bf16⟩
  | .hbm, ⟨83, _⟩ => ⟨S128x128, .bf16⟩
  | .hbm, ⟨84, _⟩ => ⟨S10000x128, .f32⟩
  | .hbm, ⟨85, _⟩ => ⟨S10000x128, .bf16⟩
  | .hbm, ⟨86, _⟩ => ⟨S_, .i32⟩
  | .hbm, ⟨87, _⟩ => ⟨S_, .bf16⟩
  | .hbm, ⟨88, _⟩ => ⟨S10240x128, .bf16⟩
  | .hbm, ⟨89, _⟩ => ⟨S1x128, .f32⟩
  | .hbm, ⟨90, _⟩ => ⟨S10240x128, .f32⟩
  | .hbm, ⟨91, _⟩ => ⟨S10000x128, .f32⟩
  | .hbm, ⟨92, _⟩ => ⟨S10000x128, .bf16⟩
  | .hbm, ⟨93, _⟩ => ⟨S128x64, .bf16⟩
  | .hbm, ⟨94, _⟩ => ⟨S10000x64, .f32⟩
  | .hbm, ⟨95, _⟩ => ⟨S10000x64, .bf16⟩
  | .hbm, ⟨96, _⟩ => ⟨S_, .i32⟩
  | .hbm, ⟨97, _⟩ => ⟨S_, .bf16⟩
  | .hbm, ⟨98, _⟩ => ⟨S10240x64, .bf16⟩
  | .hbm, ⟨99, _⟩ => ⟨S1x64, .f32⟩
  | .hbm, ⟨100, _⟩ => ⟨S10240x64, .f32⟩
  | .hbm, ⟨101, _⟩ => ⟨S10000x64, .f32⟩
  | .local _ .vmem, ⟨0, _⟩ => ⟨S512x10240, .bf16⟩
  | .local _ .vmem, ⟨1, _⟩ => ⟨S512x10240, .bf16⟩
  | .local _ .vmem, ⟨2, _⟩ => ⟨S10240x128, .bf16⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S512x10240, .bf16⟩
  | .local _ .vmem, ⟨7, _⟩ => ⟨S512x10240, .bf16⟩
  | .local _ .vmem, ⟨8, _⟩ => ⟨S10240x128, .bf16⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x10240, .bf16⟩
  | .local _ .vmem, ⟨13, _⟩ => ⟨S512x10240, .bf16⟩
  | .local _ .vmem, ⟨14, _⟩ => ⟨S10240x64, .bf16⟩
  | .local _ .vmem, ⟨15, _⟩ => ⟨S1x64, .f32⟩
  | .local _ .vmem, ⟨16, _⟩ => ⟨S512x64, .f32⟩
  | .local _ .vmem, ⟨17, _⟩ => ⟨S512x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_call2_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_call3_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x10240 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10240x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S10240x10240 : S_.BroadcastsInDim S10240x10240 (![] : Fin 0 → Fin S10240x10240.rank)
  concatenates_S650000x1_S650000x1_S650000x2_d1 : Shape.Concatenates [S650000x1, S650000x1] S650000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  shapeCasts_S128_S1x128 : S128.ShapeCasts S1x128
  inb_S512x10240_S512x10240_0_0 : ∀ a, (![0, 0] : Fin 2 → Nat) a + S512x10240.size a ≤ S512x10240.size a
  h_S512x10240 : 0 < S512x10240.numel
  shapeCasts_S512x10240_S512x10240 : S512x10240.ShapeCasts S512x10240
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S10240x128_S10000x128_0_0 : S10240x128.Slices ![0, 0] S10000x128
  pads_S10000x64_S10240x64_02400_000 : S10000x64.Pads (![0, 0] : Fin 2 → Nat) ![240, 0] ![0, 0] S10240x64
  shapeCasts_S64_S1x64 : S64.ShapeCasts S1x64
  inb_S10240x64_S10240x64_0_0 : ∀ a, (![0, 0] : Fin 2 → Nat) a + S10240x64.size a ≤ S10240x64.size a
  h_S10240x64 : 0 < S10240x64.numel
  shapeCasts_S10240x64_S10240x64 : S10240x64.ShapeCasts S10240x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  slices_S10240x64_S10000x64_0_0 : S10240x64.Slices ![0, 0] S10000x64
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S10240x10240_S650000x2_S650000_n_01_01_1_wf : ScatterDims.WF S10240x10240 S650000x2 S650000 [] [0, 1] [0, 1] 1
  dot_S10000x128_S128x128_S10000x128_1_0_0_1_n_n_wf : DotDims.WF S10000x128 S128x128 S10000x128 [1] [0] [0] [1] [] []
  dot_S512x10240_S10240x128_S512x128_1_0_0_1_n_n_wf : DotDims.WF S512x10240 S10240x128 S512x128 [1] [0] [0] [1] [] []
  dot_S10000x128_S128x64_S10000x64_1_0_0_1_n_n_wf : DotDims.WF S10000x128 S128x64 S10000x64 [1] [0] [0] [1] [] []
  dot_S512x10240_S10240x64_S512x64_1_0_0_1_n_n_wf : DotDims.WF S512x10240 S10240x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x10240.size a ≤ S10240x10240.size a
  hwx0_0 : ∀ i : grid0.Coords, EltTy.bits .bf16 = 32 ∨ (Rect.block (s := S10240x10240) S512x10240.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S10240x128.size a
  hwx0_3 : ∀ i : grid0.Coords, EltTy.bits .f32 = 32 ∨ (Rect.block (s := S10240x128) S512x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x10240.size a ≤ S10240x10240.size a
  hwx1_0 : ∀ i : grid1.Coords, EltTy.bits .bf16 = 32 ∨ (Rect.block (s := S10240x10240) S512x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x128.size a ≤ S10240x128.size a
  hwx1_1 : ∀ i : grid1.Coords, EltTy.bits .bf16 = 32 ∨ (Rect.block (s := S10240x128) S10240x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S10240x128.size a
  hwx1_3 : ∀ i : grid1.Coords, EltTy.bits .f32 = 32 ∨ (Rect.block (s := S10240x128) S512x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x10240.size a ≤ S10240x10240.size a
  hwx2_0 : ∀ i : grid2.Coords, EltTy.bits .bf16 = 32 ∨ (Rect.block (s := S10240x10240) S512x10240.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x64.size a ≤ S10240x64.size a
  hwx2_1 : ∀ i : grid2.Coords, EltTy.bits .bf16 = 32 ∨ (Rect.block (s := S10240x64) S10240x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S10240x64.size a
  hwx2_3 : ∀ i : grid2.Coords, EltTy.bits .f32 = 32 ∨ (Rect.block (s := S10240x64) S512x64.size (cc2_transform_3 i) (hinb2_3 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S10240x10240_S650000x2_S650000_n_01_01_1 : ScatterDims S10240x10240 S650000x2 S650000 where
  updateWindowDims := []
  insertedWindowDims := [0, 1]
  scatterDimsToOperandDims := [0, 1]
  indexVectorDim := 1
  wf := scatter_S10240x10240_S650000x2_S650000_n_01_01_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S512x10240_S10240x128_S512x128_1_0_0_1_n_n : DotDims S512x10240 S10240x128 S512x128 where
  lhsContracting := [1]
  rhsContracting := [0]
  lhsNonContracting := [0]
  rhsNonContracting := [1]
  lhsBatch := []
  rhsBatch := []
  wf := dot_S512x10240_S10240x128_S512x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S512x10240_S10240x64_S512x64_1_0_0_1_n_n : DotDims S512x10240 S10240x64 S512x64 where
  lhsContracting := [1]
  rhsContracting := [0]
  lhsNonContracting := [0]
  rhsNonContracting := [1]
  lhsBatch := []
  rhsBatch := []
  wf := dot_S512x10240_S10240x64_S512x64_1_0_0_1_n_n_wf

abbrev win0_0 : Pipeline.Window sig grid0 :=
  Pipeline.Window.ofSpec (Memref.whole main_v47) S512x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S512x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S10240x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S512x10240.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S10240x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S10000x64 : Shape := ⟨2, ![10000, 64]⟩
abbrev S650000x64 : Shape := ⟨2, ![650000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S10000, .i32⟩
  | .hbm, ⟨13, _⟩ => ⟨S650000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S10000, .f32⟩
  | .hbm, ⟨19, _⟩ => ⟨S650000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000, .f32⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S_, .i32⟩
  | .hbm, ⟨42, _⟩ => ⟨S650000, .i32⟩
  | .hbm, ⟨43, _⟩ => ⟨S650000, .i1⟩
  | .hbm, ⟨44, _⟩ => ⟨S_, .i32⟩
  | .hbm, ⟨45, _⟩ => ⟨S650000, .i32⟩
  | .hbm, ⟨46, _⟩ => ⟨S650000, .i32⟩
  | .hbm, ⟨47, _⟩ => ⟨S650000, .i32⟩
  | .hbm, ⟨48, _⟩ => ⟨S650000x1, .i32⟩
  | .hbm, ⟨49, _⟩ => ⟨S650000, .f32⟩
  | .hbm, ⟨50, _⟩ => ⟨S650000, .f32⟩
  | .hbm, ⟨51, _⟩ => ⟨S10000x128, .f32⟩
  | .hbm, ⟨52, _⟩ => ⟨S_, .i32⟩
  | .hbm, ⟨53, _⟩ => ⟨S650000, .i32⟩
  | .hbm, ⟨54, _⟩ => ⟨S650000, .i1⟩
  | .hbm, ⟨55, _⟩ => ⟨S_, .i32⟩
  | .hbm, ⟨56, _⟩ => ⟨S650000, .i32⟩
  | .hbm, ⟨57, _⟩ => ⟨S650000, .i32⟩
  | .hbm, ⟨58, _⟩ => ⟨S650000, .i32⟩
  | .hbm, ⟨59, _⟩ => ⟨S650000x1, .i32⟩
  | .hbm, ⟨60, _⟩ => ⟨S650000x128, .f32⟩
  | .hbm, ⟨61, _⟩ => ⟨S650000x1, .f32⟩
  | .hbm, ⟨62, _⟩ => ⟨S650000x128, .f32⟩
  | .hbm, ⟨63, _⟩ => ⟨S650000x128, .f32⟩
  | .hbm, ⟨64, _⟩ => ⟨S_, .f32⟩
  | .hbm, ⟨65, _⟩ => ⟨S10000x128, .f32⟩
  | .hbm, ⟨66, _⟩ => ⟨S650000x1, .i32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S10000x128, .f32⟩
  | .hbm, ⟨73, _⟩ => ⟨S10000x128, .f32⟩
  | .hbm, ⟨74, _⟩ => ⟨S10000x128, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000x128, .f32⟩
  | .hbm, ⟨84, _⟩ => ⟨S650000x1, .f32⟩
  | .hbm, ⟨85, _⟩ => ⟨S650000x128, .f32⟩
  | .hbm, ⟨86, _⟩ => ⟨S650000x128, .f32⟩
  | .hbm, ⟨87, _⟩ => ⟨S_, .f32⟩
  | .hbm, ⟨88, _⟩ => ⟨S10000x128, .f32⟩
  | .hbm, ⟨89, _⟩ => ⟨S650000x1, .i32⟩
  | .hbm, ⟨90, _⟩ => ⟨S10000x128, .f32⟩
  | .hbm, ⟨91, _⟩ => ⟨S1x128, .f32⟩
  | .hbm, ⟨92, _⟩ => ⟨S10000x128, .f32⟩
  | .hbm, ⟨93, _⟩ => ⟨S10000x128, .f32⟩
  | .hbm, ⟨94, _⟩ => ⟨S_, .f32⟩
  | .hbm, ⟨95, _⟩ => ⟨S10000x128, .f32⟩
  | .hbm, ⟨96, _⟩ => ⟨S10000x128, .f32⟩
  | .hbm, ⟨97, _⟩ => ⟨S10000x64, .f32⟩
  | .hbm, ⟨98, _⟩ => ⟨S_, .i32⟩
  | .hbm, ⟨99, _⟩ => ⟨S650000, .i32⟩
  | .hbm, ⟨100, _⟩ => ⟨S650000, .i1⟩
  | .hbm, ⟨101, _⟩ => ⟨S_, .i32⟩
  | .hbm, ⟨102, _⟩ => ⟨S650000, .i32⟩
  | .hbm, ⟨103, _⟩ => ⟨S650000, .i32⟩
  | .hbm, ⟨104, _⟩ => ⟨S650000, .i32⟩
  | .hbm, ⟨105, _⟩ => ⟨S650000x1, .i32⟩
  | .hbm, ⟨106, _⟩ => ⟨S650000x64, .f32⟩
  | .hbm, ⟨107, _⟩ => ⟨S650000x1, .f32⟩
  | .hbm, ⟨108, _⟩ => ⟨S650000x64, .f32⟩
  | .hbm, ⟨109, _⟩ => ⟨S650000x64, .f32⟩
  | .hbm, ⟨110, _⟩ => ⟨S_, .f32⟩
  | .hbm, ⟨111, _⟩ => ⟨S10000x64, .f32⟩
  | .hbm, ⟨112, _⟩ => ⟨S650000x1, .i32⟩
  | .hbm, ⟨113, _⟩ => ⟨S10000x64, .f32⟩
  | .hbm, ⟨114, _⟩ => ⟨S1x64, .f32⟩
  | .hbm, ⟨115, _⟩ => ⟨S10000x64, .f32⟩
  | .hbm, ⟨116, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S650000x1_S650000x64_0_1 : S650000x1.BroadcastsInDim S650000x64 (![0, 1] : Fin 2 → Fin S650000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  dot_S10000x128_S128x64_S10000x64_1_0_0_1_n_n_wf : DotDims.WF S10000x128 S128x64 S10000x64 [1] [0] [0] [1] [] []
  gather_S10000x64_S650000x1_S650000x64_1_0_n_n_0_1_164_wf : GatherDims.WF S10000x64 S650000x1 S650000x64 [1] [0] [] [0] [] 1 ![1, 64]
  scatter_S10000x64_S650000x1_S650000x64_1_0_0_1_wf : ScatterDims.WF S10000x64 S650000x1 S650000x64 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S650000x1_S650000x64_1_0_n_n_0_1_164 : GatherDims S10000x64 S650000x1 S650000x64 where
  offsetDims := [1]
  collapsedSliceDims := [0]
  operandBatchingDims := []
  startIndicesBatchingDims := []
  startIndexMap := [0]
  indexVectorDim := 1
  sliceSizes := ![1, 64]
  wf := gather_S10000x64_S650000x1_S650000x64_1_0_n_n_0_1_164_wf
def scatter_S10000x64_S650000x1_S650000x64_1_0_0_1 : ScatterDims S10000x64 S650000x1 S650000x64 where
  updateWindowDims := [1]
  insertedWindowDims := [0]
  scatterDimsToOperandDims := [0]
  indexVectorDim := 1
  wf := scatter_S10000x64_S650000x1_S650000x64_1_0_0_1_wf

class Facts : Prop extends Facts₀ where

variable [Facts]
-- ==== Proof.KernelResultRun.lean ====
/-
  The idealized kernel's run with its RESULT kept. @main is fifteen segments: stretches of host operations around three
  launches of the aggregation kernel. The contents of every buffer at each segment boundary are a fold from the launch
  memory (`W0` … `W15`): a stretch applies its operations, a launch replaces its output array by what its grid points
  wrote back. Every weakly fair execution terminates, nothing faulting, with every unscoped buffer at the last fold `W15`;
  here that is read at the result buffer (the last slice) as well as at the eight argument arrays, which end as launched.
-/
import proofs.«129397_j61830349193499_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W15` and the argument arrays as launched: the segments' launch, whose final thread state holds every
    unscoped buffer at `W15`, read at the result buffer and at each argument. -/
theorem run_result : θ_run defs (onTc (τ := τ) (main (F := F))) ⟨m, fun _ => 0, ρ⟩ (fun r => ∀ c : Dev nD,
      r.2.mem ((c.tc : Thread nD τ).loc main_v71) = W15 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v71 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c)⟩)

end Cert.KernelIdeal.ResultRun

end
-- ==== Proof.ReferenceSpec.lean ====
/-
  The reference's computation, named piece by piece. A graph convolution layer over edges `e` (the 640000 given edges followed
  by one self loop per node): with `src e`, `dst e` the edge's ends, `deg` the in-degree (a scatter-add of ones at `dst`),
  `inv d = 1/sqrt(max(deg d, ε))` where `deg d > 0` and `0` elsewhere, and the edge weight `norm e = inv(src e) · inv(dst e)`,
  a layer sends features `H` (already multiplied by the layer's weights) to
      out[d, c] = (0 + Σ over the (e, c') landing on (d, c) of H[src e, c'] · norm e) + bias[c],
  a gather of rows of `H` at `src`, a product with the broadcast weight, a scatter-add at `dst`, and the bias. Three layers, the
  first two followed by a maximum with 0. Every definition is the composition of the printed operations, in their order.
-/
import proofs.«129397_j61830349193499_1_alg».proof.Proof.Gen.ReferenceIdeal

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

/-- The source node of every edge: row 0 of the edge list, then the self loops `0, 1, …, 9999`. -/
def srcIdx (ei : IVec S2x640000 32) : IVec S650000 32 :=
  (concatenate S650000 0 [⟨S640000, (shapeCast _ (extractStridedSlice S1x640000 ![0, 0] ei slices_S2x640000_S1x640000_0_0) shapeCasts_S1x640000_S640000)⟩, ⟨S10000, (iotaInDim S10000 32 0)⟩] concatenates_S640000_S10000_S650000_d0)

/-- The destination node of every edge: row 1 of the edge list, then the self loops. -/
def dstIdx (ei : IVec S2x640000 32) : IVec S650000 32 :=
  (concatenate S650000 0 [⟨S640000, (shapeCast _ (extractStridedSlice S1x640000 ![1, 0] ei slices_S2x640000_S1x640000_1_0) shapeCasts_S1x640000_S640000)⟩, ⟨S10000, (iotaInDim S10000 32 0)⟩] concatenates_S640000_S10000_S650000_d0)

/-- A node index with negative values shifted up by the number of nodes (the indexing convention for a gather). -/
def wrap (v : IVec S650000 32) : IVec S650000 32 :=
  (select (cmpi .slt v (broadcastInDim S650000 ![] bcast_S_S650000 (constantI S_ 32 0#32))) (addi v (broadcastInDim S650000 ![] bcast_S_S650000 (constantI S_ 32 10000#32))) v)

/-- The in-degree of every node, self loop included: ones scattered and added at the destinations. -/
def deg (ei : IVec S2x640000 32) : FVec F S10000 .f32 :=
  (Host.scatterAdd scatter_S10000_S650000x1_S650000_n_0_0_1 (broadcastInDim S10000 ![] bcast_S_S10000 (constant S_ .f32 0x00000000#32)) (broadcastInDim S650000x1 ![0] bcast_S650000_S650000x1_0 (dstIdx ei)) (broadcastInDim S650000 ![] bcast_S_S650000 (constant S_ .f32 0x3F800000#32)))

/-- `1 / sqrt(max(deg, ε))` where the degree is positive, `0` elsewhere. -/
def invSqrt (ei : IVec S2x640000 32) : FVec F S10000 .f32 :=
  (select (cmpf (F := F) .ogt (deg (F := F) ei) (broadcastInDim S10000 ![] bcast_S_S10000 (constant S_ .f32 0x00000000#32))) (Host.rsqrt (maximumf (deg (F := F) ei) (broadcastInDim S10000 ![] bcast_S_S10000 (constant S_ .f32 0x2B8CBCCC#32)))) (broadcastInDim S10000 ![] bcast_S_S10000 (id (constant S_ .f32 0x00000000#32))))

/-- The weight of every edge: the product of the two ends' inverse square-root degrees. -/
def norm (ei : IVec S2x640000 32) : FVec F S650000 .f32 :=
  (mulf (Host.gather gather_S10000_S650000x1_S650000_n_0_n_n_0_1_1 (invSqrt (F := F) ei) (broadcastInDim S650000x1 ![0] bcast_S650000_S650000x1_0 (wrap (srcIdx ei)))) (Host.gather gather_S10000_S650000x1_S650000_n_0_n_n_0_1_1 (invSqrt (F := F) ei) (broadcastInDim S650000x1 ![0] bcast_S650000_S650000x1_0 (wrap (dstIdx ei)))))

/-- One aggregation over 128 feature columns: gather the rows of `H` at the sources, scale by the edge weights, add up at the
    destinations from zero, add the bias. -/
def agg128 (ei : IVec S2x640000 32) (H : FVec F S10000x128 .f32) (bias : FVec F S128 .f32) : FVec F S10000x128 .f32 :=
  addf (Host.scatterAdd scatter_S10000x128_S650000x1_S650000x128_1_0_0_1 (broadcastInDim S10000x128 ![] bcast_S_S10000x128 (constant S_ .f32 0x00000000#32)) (broadcastInDim S650000x1 ![0] bcast_S650000_S650000x1_0 (dstIdx ei)) (mulf (Host.gather gather_S10000x128_S650000x1_S650000x128_1_0_n_n_0_1_1128 H (broadcastInDim S650000x1 ![0] bcast_S650000_S650000x1_0 (wrap (srcIdx ei)))) (broadcastInDim S650000x128 ![0, 1] bcast_S650000x1_S650000x128_0_1 (broadcastInDim S650000x1 ![0] bcast_S650000_S650000x1_0 (norm (F := F) ei))))) (broadcastInDim S10000x128 ![0, 1] bcast_S1x128_S10000x128_0_1 (broadcastInDim S1x128 ![1] bcast_S128_S1x128_1 bias))

/-- The same aggregation over 64 feature columns. -/
def agg64 (ei : IVec S2x640000 32) (H : FVec F S10000x64 .f32) (bias : FVec F S64 .f32) : FVec F S10000x64 .f32 :=
  addf (Host.scatterAdd scatter_S10000x64_S650000x1_S650000x64_1_0_0_1 (broadcastInDim S10000x64 ![] bcast_S_S10000x64 (constant S_ .f32 0x00000000#32)) (broadcastInDim S650000x1 ![0] bcast_S650000_S650000x1_0 (dstIdx ei)) (mulf (Host.gather gather_S10000x64_S650000x1_S650000x64_1_0_n_n_0_1_164 H (broadcastInDim S650000x1 ![0] bcast_S650000_S650000x1_0 (wrap (srcIdx ei)))) (broadcastInDim S650000x64 ![0, 1] bcast_S650000x1_S650000x64_0_1 (broadcastInDim S650000x1 ![0] bcast_S650000_S650000x1_0 (norm (F := F) ei))))) (broadcastInDim S10000x64 ![0, 1] bcast_S1x64_S10000x64_0_1 (broadcastInDim S1x64 ![1] bcast_S64_S1x64_1 bias))

/-- The maximum with zero, entry by entry. -/
def relu128 (x : FVec F S10000x128 .f32) : FVec F S10000x128 .f32 :=
  maximumf x (broadcastInDim S10000x128 ![] bcast_S_S10000x128 (constant S_ .f32 0x00000000#32))

/-- Features times a 128 × 128 weight matrix. -/
def lin128 (x : FVec F S10000x128 .f32) (W : FVec F S128x128 .f32) : FVec F S10000x128 .f32 :=
  Host.dotGeneral dot_S10000x128_S128x128_S10000x128_1_0_0_1_n_n none x W

/-- Features times a 128 × 64 weight matrix. -/
def lin64 (x : FVec F S10000x128 .f32) (W : FVec F S128x64 .f32) : FVec F S10000x64 .f32 :=
  Host.dotGeneral dot_S10000x128_S128x64_S10000x64_1_0_0_1_n_n none x W

/-- The three layers. -/
def out (x : FVec F S10000x128 .f32) (ei : IVec S2x640000 32) (W1 : FVec F S128x128 .f32) (b1 : FVec F S128 .f32)
    (W2 : FVec F S128x128 .f32) (b2 : FVec F S128 .f32) (W3 : FVec F S128x64 .f32) (b3 : FVec F S64 .f32) : FVec F S10000x64 .f32 :=
  agg64 ei (lin64 (relu128 (agg128 ei (lin128 (relu128 (agg128 ei (lin128 x W1) b1)) W2) b2)) W3) b3

end Cert.ReferenceIdeal.Spec

end
-- ==== Proof.ReferenceRunSpec.lean ====
/-
  The reference's run, with its result named by the layers: every weakly fair execution of the reference terminates with its
  result buffer at the three graph convolution layers of the argument arrays, the arguments unchanged.
-/
import proofs.«129397_j61830349193499_1_alg».proof.Proof.ReferenceRunPatched
import proofs.«129397_j61830349193499_1_alg».proof.Proof.ReferenceSpec

noncomputable section

namespace Cert.ReferenceIdeal.RunSpec

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- The run's composed term of the arguments is the three layers: the same operations, grouped by what they compute. -/
theorem res_eq (m : (ℓ : Loc nD τ sig) → Buf (Elt F) ℓ) (c : Dev nD) :
    ValueP.res_main_v84 (F := F) m c
      = Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold ValueP.res_main_v84 Spec.out Spec.agg64 Spec.agg128 Spec.relu128 Spec.lin64 Spec.lin128 Spec.norm Spec.invSqrt Spec.deg Spec.wrap Spec.srcIdx Spec.dstIdx
  rfl

end Cert.ReferenceIdeal.RunSpec

end
-- ==== Proof.KernelSpec.lean ====
/-
  The idealized kernel's host computation, named piece by piece. The edge arrays (`src`, `dst`, the in-degree, the edge weights
  `norm`) are computed by the same operations as in the reference. The kernel then builds the DENSE weighted adjacency matrix over
  10240 padded nodes, `A[d, s] = 0 + Σ over the edges e from s to d of norm e` (a scatter-add at the pairs `(dst e, src e)`), pads
  the layer's features with 240 zero rows, and each launch computes `A · features + bias` by blocks of 512 rows; the first 10000
  rows of a launch's result feed the next layer. Every definition is the composition of the printed operations, in their order.
-/
import proofs.«129397_j61830349193499_1_alg».proof.Proof.Gen.KernelIdeal

noncomputable section

namespace Cert.KernelIdeal.Spec

open Cert.KernelIdeal Cert.KernelIdeal.Gen Idealize.ShloMosaic Idealize.ShloMosaic.TcCoe Idealize.SL.Sem Idealize.ShloMosaic.StableHlo

variable {F : FTy → Type} [FloatOps F]

/-- The source node of every edge: row 0 of the edge list, then the self loops `0, 1, …, 9999`. -/
def srcIdx (ei : IVec S2x640000 32) : IVec S650000 32 :=
  (concatenate S650000 0 [⟨S640000, (shapeCast _ (extractStridedSlice S1x640000 ![0, 0] ei slices_S2x640000_S1x640000_0_0) shapeCasts_S1x640000_S640000)⟩, ⟨S10000, (iotaInDim S10000 32 0)⟩] concatenates_S640000_S10000_S650000_d0)

/-- The destination node of every edge: row 1 of the edge list, then the self loops. -/
def dstIdx (ei : IVec S2x640000 32) : IVec S650000 32 :=
  (concatenate S650000 0 [⟨S640000, (shapeCast _ (extractStridedSlice S1x640000 ![1, 0] ei slices_S2x640000_S1x640000_1_0) shapeCasts_S1x640000_S640000)⟩, ⟨S10000, (iotaInDim S10000 32 0)⟩] concatenates_S640000_S10000_S650000_d0)

/-- A node index with negative values shifted up by the number of nodes (the indexing convention for a gather). -/
def wrap (v : IVec S650000 32) : IVec S650000 32 :=
  (select (cmpi .slt v (broadcastInDim S650000 ![] bcast_S_S650000 (constantI S_ 32 0#32))) (addi v (broadcastInDim S650000 ![] bcast_S_S650000 (constantI S_ 32 10000#32))) v)

/-- A node index with negative values shifted up by the PADDED number of nodes (the convention for the dense matrix). -/
def wrapPad (v : IVec S650000 32) : IVec S650000 32 :=
  (select (cmpi .slt v (broadcastInDim S650000 ![] bcast_S_S650000 (constantI S_ 32 0#32))) (addi v (broadcastInDim S650000 ![] bcast_S_S650000 (constantI S_ 32 10240#32))) v)

/-- The in-degree of every node, self loop included: ones scattered and added at the destinations. -/
def deg (ei : IVec S2x640000 32) : FVec F S10000 .f32 :=
  (Host.scatterAdd scatter_S10000_S650000x1_S650000_n_0_0_1 (broadcastInDim S10000 ![] bcast_S_S10000 (constant S_ .f32 0x00000000#32)) (broadcastInDim S650000x1 ![0] bcast_S650000_S650000x1_0 (dstIdx ei)) (broadcastInDim S650000 ![] bcast_S_S650000 (constant S_ .f32 0x3F800000#32)))

/-- `1 / sqrt(max(deg, ε))` where the degree is positive, `0` elsewhere. -/
def invSqrt (ei : IVec S2x640000 32) : FVec F S10000 .f32 :=
  (select (cmpf (F := F) .ogt (deg (F := F) ei) (broadcastInDim S10000 ![] bcast_S_S10000 (constant S_ .f32 0x00000000#32))) (Host.rsqrt (maximumf (deg (F := F) ei) (broadcastInDim S10000 ![] bcast_S_S10000 (constant S_ .f32 0x2B8CBCCC#32)))) (broadcastInDim S10000 ![] bcast_S_S10000 (id (constant S_ .f32 0x00000000#32))))

/-- The weight of every edge: the product of the two ends' inverse square-root degrees. -/
def norm (ei : IVec S2x640000 32) : FVec F S650000 .f32 :=
  (mulf (Host.gather gather_S10000_S650000x1_S650000_n_0_n_n_0_1_1 (invSqrt (F := F) ei) (broadcastInDim S650000x1 ![0] bcast_S650000_S650000x1_0 (wrap (srcIdx ei)))) (Host.gather gather_S10000_S650000x1_S650000_n_0_n_n_0_1_1 (invSqrt (F := F) ei) (broadcastInDim S650000x1 ![0] bcast_S650000_S650000x1_0 (wrap (dstIdx ei)))))

/-- The pairs `(dst e, src e)`, one row per edge: where each edge's weight lands in the dense matrix. -/
def pairs (ei : IVec S2x640000 32) : IVec S650000x2 32 :=
  concatenate S650000x2 1 [⟨S650000x1, (broadcastInDim S650000x1 ![0] bcast_S650000_S650000x1_0 (wrapPad (dstIdx ei)))⟩, ⟨S650000x1, (broadcastInDim S650000x1 ![0] bcast_S650000_S650000x1_0 (wrapPad (srcIdx ei)))⟩] concatenates_S650000x1_S650000x1_S650000x2_d1

/-- The dense weighted adjacency matrix over the padded nodes: the edge weights added up at `(dst, src)` from zero. -/
def adjacency (ei : IVec S2x640000 32) : FVec F S10240x10240 .bf16 :=
  truncf .bf16 (Host.scatterAdd scatter_S10240x10240_S650000x2_S650000_n_01_01_1 (broadcastInDim S10240x10240 ![] bcast_S_S10240x10240 (constant S_ .f32 0x00000000#32)) (pairs ei) (norm (F := F) ei)) bitsLt_bf16_f32

/-- Features times a 128 × 128 weight matrix, then 240 zero rows below. -/
def feat128 (x : FVec F S10000x128 .f32) (W : FVec F S128x128 .f32) : FVec F S10240x128 .bf16 :=
  pad S10240x128 ![0, 0] ![240, 0] ![0, 0] (truncf .bf16 (Host.dotGeneral dot_S10000x128_S128x128_S10000x128_1_0_0_1_n_n none (truncf .bf16 x bitsLt_bf16_f32) (truncf .bf16 W bitsLt_bf16_f32)) bitsLt_bf16_f32) (sitofp .bf16 (constantI S_ 32 0#32)) pads_S10000x128_S10240x128_02400_000 h_S_

/-- Features times a 128 × 64 weight matrix, then 240 zero rows below. -/
def feat64 (x : FVec F S10000x128 .f32) (W : FVec F S128x64 .f32) : FVec F S10240x64 .bf16 :=
  pad S10240x64 ![0, 0] ![240, 0] ![0, 0] (truncf .bf16 (Host.dotGeneral dot_S10000x128_S128x64_S10000x64_1_0_0_1_n_n none (truncf .bf16 x bitsLt_bf16_f32) (truncf .bf16 W bitsLt_bf16_f32)) bitsLt_bf16_f32) (sitofp .bf16 (constantI S_ 32 0#32)) pads_S10000x64_S10240x64_02400_000 h_S_

/-- A bias vector as a one-row matrix. -/
def biasRow128 (b : FVec F S128 .f32) : FVec F S1x128 .f32 := shapeCast _ b shapeCasts_S128_S1x128
/-- A bias vector as a one-row matrix. -/
def biasRow64 (b : FVec F S64 .f32) : FVec F S1x64 .f32 := shapeCast _ b shapeCasts_S64_S1x64

/-- The first 10000 rows of a launch's result. -/
def rows128 (y : FVec F S10240x128 .f32) : FVec F S10000x128 .f32 :=
  extractStridedSlice S10000x128 ![0, 0] y slices_S10240x128_S10000x128_0_0
/-- The first 10000 rows of a launch's result. -/
def rows64 (y : FVec F S10240x64 .f32) : FVec F S10000x64 .f32 :=
  extractStridedSlice S10000x64 ![0, 0] y slices_S10240x64_S10000x64_0_0

end Cert.KernelIdeal.Spec

end
-- ==== Proof.KernelFold.lean ====
/-
  The idealized kernel's buffers at the boundaries of its run, as the named pieces of the arguments. At the entry of each launch
  its three operand arrays hold the dense adjacency matrix of the edge list, the padded features of the layer (the previous
  launch's first 10000 result rows times the layer's weights) and the bias as a row; the program's result is the first 10000
  rows of what the third launch leaves. Host stretches are read operation by operation; a launch replaces its output array by
  what its grid points wrote back and leaves every other buffer as it was.
-/
import proofs.«129397_j61830349193499_1_alg».proof.Proof.Gen.KernelIdeal.Frame
import proofs.«129397_j61830349193499_1_alg».proof.Proof.KernelSpec

set_option maxRecDepth 16384

noncomputable section

namespace Cert.KernelIdeal.Fold

open Cert.KernelIdeal Cert.KernelIdeal.Gen Cert.KernelIdeal.Spec
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first launch's operands -/

set_option maxHeartbeats 4000000 in
/-- The matrix operand of every launch is the dense adjacency matrix of the edge list. -/
theorem entry0_adjacency (c : Dev nD) : W5 m ρ c (Proc.devRef .tc main_v47) = adjacency (F := F) (m ((c : Thread nD τ).loc main_arg1)) := by
  dsimp only [W5, W4, W3, W2, W1, W0, hostOps0, hostOps0_1, hostOps0_2, hostOps0_3, hostOps0_4]
  after_results_simp
  unfold adjacency pairs norm invSqrt deg wrap wrapPad srcIdx dstIdx
  rfl

/-- The first launch's features: the input features times the first weight matrix, padded. -/
theorem entry0_features (c : Dev nD) : W5 m ρ c (Proc.devRef .tc main_v52) = feat128 (F := F) (m ((c : Thread nD τ).loc main_arg0)) (m ((c : Thread nD τ).loc main_arg2)) := by
  dsimp only [W5, W4, W3, W2, W1, W0, hostOps0, hostOps0_1, hostOps0_2, hostOps0_3, hostOps0_4]
  after_results_simp
  rfl

/-- The first launch's bias row. -/
theorem entry0_bias (c : Dev nD) : W5 m ρ c (Proc.devRef .tc main_v53) = biasRow128 (F := F) (m ((c : Thread nD τ).loc main_arg3)) := by
  dsimp only [W5, W4, W3, W2, W1, W0, hostOps0, hostOps0_1, hostOps0_2, hostOps0_3, hostOps0_4]
  after_results_simp
  rfl

/-! ## Across the first launch, and the second launch's operands -/

/-- The first launch leaves its output array at what its grid points wrote back. -/
theorem exit0_result (c : Dev nD) : W6 m ρ c (Proc.devRef .tc main_v54) = (dat0 (V5 m ρ) c).arrAt 3 cfg0.N :=
  W6_arr m ρ c 3

/-- A launch reads the adjacency matrix and does not write it. -/
theorem exit0_adjacency (c : Dev nD) : W6 m ρ c (Proc.devRef .tc main_v47) = W5 m ρ c (Proc.devRef .tc main_v47) :=
  (W6_arr m ρ c 0).trans (((dat0 (V5 m ρ) c).arrAt_in 0 rfl cfg0.N).trans (A_eq0 (V5 m ρ) c 0))

theorem entry1_adjacency (c : Dev nD) : W9 m ρ c (Proc.devRef .tc main_v47) = adjacency (F := F) (m ((c : Thread nD τ).loc main_arg1)) := by
  have h : W9 m ρ c (Proc.devRef .tc main_v47) = W6 m ρ c (Proc.devRef .tc main_v47) := by
    dsimp only [W9, W8, W7, hostOps1, hostOps1_1, hostOps1_2]
    after_results_simp
  rw [h, exit0_adjacency, entry0_adjacency]

/-- The second launch's features: the first launch's first 10000 result rows times the second weight matrix, padded. -/
theorem entry1_features (c : Dev nD) : W9 m ρ c (Proc.devRef .tc main_v60)
    = feat128 (F := F) (rows128 ((dat0 (V5 m ρ) c).arrAt 3 cfg0.N)) (m ((c : Thread nD τ).loc main_arg4)) := by
  have h : W9 m ρ c (Proc.devRef .tc main_v60)
      = feat128 (F := F) (rows128 (W6 m ρ c (Proc.devRef .tc main_v54))) (W6 m ρ c (Proc.devRef .tc main_arg4)) := by
    dsimp only [W9, W8, W7, hostOps1, hostOps1_1, hostOps1_2]
    after_results_simp
    rfl
  rw [h, exit0_result, W6_of_ne m ρ c main_arg4 (by decide)]
  congr 1

/-- The second launch's bias row. -/
theorem entry1_bias (c : Dev nD) : W9 m ρ c (Proc.devRef .tc main_v61) = biasRow128 (F := F) (m ((c : Thread nD τ).loc main_arg5)) := by
  have h : W9 m ρ c (Proc.devRef .tc main_v61) = biasRow128 (F := F) (W6 m ρ c (Proc.devRef .tc main_arg5)) := by
    dsimp only [W9, W8, W7, hostOps1, hostOps1_1, hostOps1_2]
    after_results_simp
    rfl
  rw [h, W6_of_ne m ρ c main_arg5 (by decide)]
  congr 1

/-! ## Across the second launch, and the third launch's operands -/

theorem exit1_result (c : Dev nD) : W10 m ρ c (Proc.devRef .tc main_v62) = (dat1 (V9 m ρ) c).arrAt 3 cfg1.N :=
  W10_arr m ρ c 3

theorem exit1_adjacency (c : Dev nD) : W10 m ρ c (Proc.devRef .tc main_v47) = W9 m ρ c (Proc.devRef .tc main_v47) :=
  (W10_arr m ρ c 0).trans (((dat1 (V9 m ρ) c).arrAt_in 0 rfl cfg1.N).trans (A_eq1 (V9 m ρ) c 0))

theorem entry2_adjacency (c : Dev nD) : W13 m ρ c (Proc.devRef .tc main_v47) = adjacency (F := F) (m ((c : Thread nD τ).loc main_arg1)) := by
  have h : W13 m ρ c (Proc.devRef .tc main_v47) = W10 m ρ c (Proc.devRef .tc main_v47) := by
    dsimp only [W13, W12, W11, hostOps2, hostOps2_1, hostOps2_2]
    after_results_simp
  rw [h, exit1_adjacency, entry1_adjacency]

/-- The third launch's features: the second launch's first 10000 result rows times the third weight matrix, padded. -/
theorem entry2_features (c : Dev nD) : W13 m ρ c (Proc.devRef .tc main_v68)
    = feat64 (F := F) (rows128 ((dat1 (V9 m ρ) c).arrAt 3 cfg1.N)) (m ((c : Thread nD τ).loc main_arg6)) := by
  have h : W13 m ρ c (Proc.devRef .tc main_v68)
      = feat64 (F := F) (rows128 (W10 m ρ c (Proc.devRef .tc main_v62))) (W10 m ρ c (Proc.devRef .tc main_arg6)) := by
    dsimp only [W13, W12, W11, hostOps2, hostOps2_1, hostOps2_2]
    after_results_simp
    rfl
  rw [h, exit1_result, W10_of_ne m ρ c main_arg6 (by decide)]
  congr 1

/-- The third launch's bias row. -/
theorem entry2_bias (c : Dev nD) : W13 m ρ c (Proc.devRef .tc main_v69) = biasRow64 (F := F) (m ((c : Thread nD τ).loc main_arg7)) := by
  have h : W13 m ρ c (Proc.devRef .tc main_v69) = biasRow64 (F := F) (W10 m ρ c (Proc.devRef .tc main_arg7)) := by
    dsimp only [W13, W12, W11, hostOps2, hostOps2_1, hostOps2_2]
    after_results_simp
    rfl
  rw [h, W10_of_ne m ρ c main_arg7 (by decide)]
  congr 1

/-! ## The result -/

/-- The program's result: the first 10000 rows of what the third launch leaves in its output array. -/
theorem result (c : Dev nD) : W15 m ρ c (Proc.devRef .tc main_v71) = rows64 (F := F) ((dat2 (V13 m ρ) c).arrAt 3 cfg2.N) := by
  have h : W15 m ρ c (Proc.devRef .tc main_v71) = rows64 (F := F) (W14 m ρ c (Proc.devRef .tc main_v70)) := by
    dsimp only [W15, hostOps3]
    after_results_simp
    rfl
  rw [h, show W14 m ρ c (Proc.devRef .tc main_v70) = (dat2 (V13 m ρ) c).arrAt 3 cfg2.N from W14_arr m ρ c 3]

end Cert.KernelIdeal.Fold

end
-- ==== Proof.RegionArrays.lean ====
/-
  FROM BLOCKS TO THE ARRAY, for the three launches of the aggregation kernel (built on the generated frame modules).

  Each launch runs its body at 20 grid points. At point `t` the body is given rows `512·t … 512·t + 511` (all 10240 columns)
  of a `[10240, 10240]` matrix and two small operands WHOLE (a `[10240, C]` matrix and a `[1, C]` row; `C` = 128, 128, 64),
  and its result, a `[512, C]` block, is written back as rows `512·t …` of the `[10240, C]` output array. So after the
  launch entry `(r, q)` of the output array is the body's result — left opaque here — on the 512 rows of the first operand
  that contain row `r` and on the two whole small operands, read at row `r mod 512` and column `q`: `arrayK_apply`, for ANY
  contents `V` of the arrays when the launch is entered. The whole-array form is `arrayK_eq`, with that right-hand side
  named `GK`. The steps, per launch: the printed index maps decided over the 20 points (`idx_factsK`); each input block
  read where the output's rectangle says (`iblkK_0_apply`, `iblkK_1_eq`, `iblkK_2_eq`); so what a point writes back is its
  block of `GK` (`GK_block`, `flushedK_eq`); the blocks cover the output array, row `r` in block `r / 512` (`mem_blkK`,
  `coverK`); hence the array (`arrayK_eq`).
-/
import proofs.«129397_j61830349193499_1_alg».proof.Proof.Gen.KernelIdeal.Frame
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Equal indices, equal entries (stated over a plain function so that no window's term is unified through). -/
theorem apply_congr {ι α : Type} (f : ι → α) {p q : ι} (h : p = q) : f p = f q := h ▸ rfl

/-! ## Region 0: the first aggregation launch

Operands: the `[10240, 10240]` matrix (`main_v47`), cut into 20 blocks of 512 rows, all columns; a `[10240, 128]` matrix
(`main_v52`) and a `[1, 128]` row (`main_v53`), both whole at every point. Output: the `[10240, 128]` matrix `main_v54`, written
back at every point in blocks of 512 rows, all 128 columns. -/

/-- The printed index maps of the first launch, decided over its 20 points: the first operand's and the output's block
    index on the row axis is the point itself, every other block index is 0 (the two small operands are whole at every
    point; no window is cut along the columns). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's result is a function of its three blocks and the index: equal arguments, equal results. -/
theorem out0_3_congr {x0 x0' : Vec Ideal S512x10240 .bf16} {x1 x1' : Vec Ideal S10240x128 .bf16}
    {x2 x2' : Vec Ideal S1x128 .f32} {j j' : S512x128.Idx} (h0 : x0 = x0') (h1 : x1 = x1') (h2 : x2 = x2') (hj : j = j') :
    out0_3 (F := Ideal) x0 x1 x2 j = out0_3 (F := Ideal) x0' x1' x2' j' := by
  subst h0 h1 h2 hj; rfl

/-- WHAT THE OUTPUT ARRAY ENDS HOLDING, as one function of the three operand arrays: entry `(r, q)` is the body's result
    on the 512 rows of the first operand that contain row `r` (rows `512·(r/512) … 512·(r/512) + 511`, all columns) and on
    the two whole small operands, read at row `r mod 512` and column `q`. -/
def G0 (a : S10240x10240.Idx → Elt Ideal .bf16) (h : S10240x128.Idx → Elt Ideal .bf16) (b : S1x128.Idx → Elt Ideal .f32) :
    S10240x128.Idx → Elt Ideal .f32 :=
  fun i => out0_3 (F := Ideal)
    (fun y => a (ix2 (⟨512 * ((i 0).val / 512) + (y 0).val, by have := idx2_lt0 i; have := idx2_lt0 y; omega⟩ : Fin 10240) (y 1)))
    h b (ix2 (⟨(i 0).val % 512, Nat.mod_lt _ (by decide)⟩ : Fin 512) (i 1))

/-- ONE BLOCK OF `G0`. At an entry `i` of the output array that sits in block `n` at the block index `j` (row
    `512·n + j₀`, column `j₁`), `G0` is the body's result at `j` on any blocks that are: block `n` of the first operand
    (rows `512·n …`, every column) and the two small operands whole. For the rows that contain row `512·n + j₀` start
    at `512·n`, and that row is the `j₀`-th of them. -/
theorem G0_block (a : S10240x10240.Idx → Elt Ideal .bf16) (h : S10240x128.Idx → Elt Ideal .bf16)
    (b : S1x128.Idx → Elt Ideal .f32) (n : Nat) (x0 : Vec Ideal S512x10240 .bf16) (x1 : Vec Ideal S10240x128 .bf16)
    (x2 : Vec Ideal S1x128 .f32) (j : S512x128.Idx) (i : S10240x128.Idx)
    (hi0 : (i 0).val = n * 512 + (j 0).val) (hi1 : (i 1).val = (j 1).val)
    (hx0 : ∀ (y : S512x10240.Idx) (k : S10240x10240.Idx), (k 0).val = n * 512 + (y 0).val → (k 1).val = (y 1).val → x0 y = a k)
    (hx1 : x1 = h) (hx2 : x2 = b) :
    out0_3 (F := Ideal) x0 x1 x2 j = G0 a h b i := by
  have hj0 : (j 0).val < 512 := idx2_lt0 j
  unfold G0
  refine out0_3_congr ?_ hx1 hx2 ?_
  · funext y
    refine hx0 y _ ?_ rfl
    show 512 * ((i 0).val / 512) + (y 0).val = n * 512 + (y 0).val
    omega
  · funext d; apply Fin.ext
    match d with
    | ⟨0, _⟩ => show (j 0).val = (i 0).val % 512; omega
    | ⟨1, _⟩ => show (j 1).val = (i 1).val; omega

/-- The first operand's block at point `t` is its rows `512·t … 512·t + 511`, every column: block entry `y` is the
    array's entry at any index `k` with row `512·t + y₀` and column `y₁`. -/
theorem iblk0_0_apply (c : Dev nD) (t : Fin cfg0.N) (y : S512x10240.Idx) (k : S10240x10240.Idx)
    (hk0 : (k 0).val = t.val * 512 + (y 0).val) (hk1 : (k 1).val = (y 1).val) :
    (iblk0 (F := Ideal) V c 0 t : Vec Ideal S512x10240 .bf16) y = V c main_v47 k := by
  obtain ⟨e00, e01, -⟩ := idx_facts0 t
  show V c main_v47 (((cfg0.win 0).blk t).view.emb y) = V c main_v47 k
  refine apply_congr (V c main_v47) ?_
  funext a; apply Fin.ext
  match a with
  | ⟨0, _⟩ => show win0_0.index t (0 : Fin 2) * 512 + 1 * (y 0).val = (k 0).val; omega
  | ⟨1, _⟩ => show win0_0.index t (1 : Fin 2) * 10240 + 1 * (y 1).val = (k 1).val; omega

/-- The second operand's block at every point is the whole array (its block index is 0 on both axes). -/
theorem iblk0_1_eq (c : Dev nD) (t : Fin cfg0.N) :
    (iblk0 (F := Ideal) V c 1 t : Vec Ideal S10240x128 .bf16) = V c main_v52 := by
  obtain ⟨-, -, e10, e11, -⟩ := idx_facts0 t
  funext y
  show V c main_v52 (((cfg0.win 1).blk t).view.emb y) = V c main_v52 y
  refine apply_congr (V c main_v52) ?_
  funext a; apply Fin.ext
  match a with
  | ⟨0, _⟩ => show win0_1.index t (0 : Fin 2) * 10240 + 1 * (y 0).val = (y 0).val; omega
  | ⟨1, _⟩ => show win0_1.index t (1 : Fin 2) * 128 + 1 * (y 1).val = (y 1).val; omega

/-- The third operand's block at every point is the whole array (its block index is 0 on both axes). -/
theorem iblk0_2_eq (c : Dev nD) (t : Fin cfg0.N) :
    (iblk0 (F := Ideal) V c 2 t : Vec Ideal S1x128 .f32) = V c main_v53 := by
  obtain ⟨-, -, -, -, e20, e21, -⟩ := idx_facts0 t
  funext y
  show V c main_v53 (((cfg0.win 2).blk t).view.emb y) = V c main_v53 y
  refine apply_congr (V c main_v53) ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- WHAT POINT `t` WRITES BACK is block `t` of `G0` of the operand arrays as the launch finds them: inside block `t` the
    row is `512·t + j₀`; the first operand's block at `t` is its rows `512·t …`, every column; and the two small operands'
    blocks are the whole arrays (`G0_block`). -/
theorem flushed0_eq (c : Dev nD) (t : Fin cfg0.N) :
    (dat0 (F := Ideal) V c).flushed 3 t
      = ((cfg0.win 3).blk t).view.read (Elt Ideal) (G0 (V c main_v47) (V c main_v52) (V c main_v53)) := by
  show (cfg0.win 3).cut (grid0.coords t) ((dat0 V c).after 3 t) = _
  rw [after0_3]
  obtain ⟨-, -, -, -, -, -, e30, e31⟩ := idx_facts0 t
  funext j
  show out0_3 (F := Ideal) (iblk0 V c 0 t) (iblk0 V c 1 t) (iblk0 V c 2 t) j
    = G0 (V c main_v47) (V c main_v52) (V c main_v53) (((cfg0.win 3).blk t).view.emb j)
  refine G0_block _ _ _ t.val _ _ _ j _ ?_ ?_ (iblk0_0_apply V c t) (iblk0_1_eq V c t) (iblk0_2_eq V c t)
  · show win0_3.index t (0 : Fin 2) * 512 + 1 * (j 0).val = t.val * 512 + (j 0).val
    omega
  · show win0_3.index t (1 : Fin 2) * 128 + 1 * (j 1).val = (j 1).val
    omega

/-- An entry of the output array is in point `t`'s block iff each coordinate is in the block's range on its axis. -/
theorem mem_blk0 (t : Fin cfg0.N) (i : S10240x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v54).slice (win0_3.rect t)).set ↔ _
  rw [View.set_slice_whole, Rect.mem_set_unit]
  exact Iff.rfl

/-- THE BLOCKS COVER THE OUTPUT ARRAY: row `r` is in the block of point `r / 512` (20 blocks of 512 rows are the 10240
    rows), and every block has all 128 columns; every point writes its block back. -/
theorem cover0 (i : S10240x128.Idx) :
    ∃ t : Fin cfg0.N, (cfg0.win 3).flush t = true ∧ i ∈ ((cfg0.win 3).blk t).view.set := by
  have hi0 : (i 0).val < 10240 := idx2_lt0 i
  have hi1 : (i 1).val < 128 := idx2_lt1 i
  obtain ⟨t, ht⟩ : ∃ t : Fin cfg0.N, t.val = (i 0).val / 512 :=
    ⟨⟨(i 0).val / 512, by rw [show cfg0.N = 20 from N_0]; omega⟩, rfl⟩
  obtain ⟨e00, e01, e10, e11, e20, e21, e30, e31⟩ := idx_facts0 t
  refine ⟨t, flush0_3 t, ?_⟩
  rw [mem_blk0]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 128 ≤ (i 1).val ∧ (i 1).val < win0_3.index t (1 : Fin 2) * 128 + 128
    omega

/-- THE OUTPUT ARRAY AFTER THE FIRST LAUNCH is `G0` of the three operand arrays as the launch finds them: every point
    writes back its block of `G0` (`flushed0_eq`) and the blocks cover the array (`cover0`). -/
theorem array0_eq (c : Dev nD) :
    (dat0 (F := Ideal) V c).arrAt 3 cfg0.N = G0 (V c main_v47) (V c main_v52) (V c main_v53) :=
  (dat0 (F := Ideal) V c).arrAt_eq_of_cover 3 (G0 (V c main_v47) (V c main_v52) (V c main_v53))
    (fun t _ => flushed0_eq V c t) cover0

/-- THE OUTPUT ARRAY AFTER THE FIRST LAUNCH, AT AN ENTRY: entry `(r, q)` is the body's result on the 512 rows of the
    first operand that contain row `r` and on the two whole small operands, at row `r mod 512` and column `q`. -/
theorem array0_apply (c : Dev nD) (r : Fin 10240) (q : Fin 128) :
    (dat0 (F := Ideal) V c).arrAt 3 cfg0.N (ix2 r q)
      = out0_3 (F := Ideal)
          (fun y => V c main_v47 (ix2 (⟨512 * (r.val / 512) + (y 0).val, by have := idx2_lt0 y; omega⟩ : Fin 10240) (y 1)))
          (V c main_v52) (V c main_v53) (ix2 (⟨r.val % 512, Nat.mod_lt _ (by decide)⟩ : Fin 512) q) :=
  congrFun (array0_eq V c) (ix2 r q)

/-! ## Region 1: the second aggregation launch

Operands: the `[10240, 10240]` matrix (`main_v47`), cut into 20 blocks of 512 rows, all columns; a `[10240, 128]` matrix
(`main_v60`) and a `[1, 128]` row (`main_v61`), both whole at every point. Output: the `[10240, 128]` matrix `main_v62`, written
back at every point in blocks of 512 rows, all 128 columns. -/

/-- The printed index maps of the second launch, decided over its 20 points: the first operand's and the output's block
    index on the row axis is the point itself, every other block index is 0 (the two small operands are whole at every
    point; no window is cut along the columns). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's result is a function of its three blocks and the index: equal arguments, equal results. -/
theorem out1_3_congr {x0 x0' : Vec Ideal S512x10240 .bf16} {x1 x1' : Vec Ideal S10240x128 .bf16}
    {x2 x2' : Vec Ideal S1x128 .f32} {j j' : S512x128.Idx} (h0 : x0 = x0') (h1 : x1 = x1') (h2 : x2 = x2') (hj : j = j') :
    out1_3 (F := Ideal) x0 x1 x2 j = out1_3 (F := Ideal) x0' x1' x2' j' := by
  subst h0 h1 h2 hj; rfl

/-- WHAT THE OUTPUT ARRAY ENDS HOLDING, as one function of the three operand arrays: entry `(r, q)` is the body's result
    on the 512 rows of the first operand that contain row `r` (rows `512·(r/512) … 512·(r/512) + 511`, all columns) and on
    the two whole small operands, read at row `r mod 512` and column `q`. -/
def G1 (a : S10240x10240.Idx → Elt Ideal .bf16) (h : S10240x128.Idx → Elt Ideal .bf16) (b : S1x128.Idx → Elt Ideal .f32) :
    S10240x128.Idx → Elt Ideal .f32 :=
  fun i => out1_3 (F := Ideal)
    (fun y => a (ix2 (⟨512 * ((i 0).val / 512) + (y 0).val, by have := idx2_lt0 i; have := idx2_lt0 y; omega⟩ : Fin 10240) (y 1)))
    h b (ix2 (⟨(i 0).val % 512, Nat.mod_lt _ (by decide)⟩ : Fin 512) (i 1))

/-- ONE BLOCK OF `G1`. At an entry `i` of the output array that sits in block `n` at the block index `j` (row
    `512·n + j₀`, column `j₁`), `G1` is the body's result at `j` on any blocks that are: block `n` of the first operand
    (rows `512·n …`, every column) and the two small operands whole. For the rows that contain row `512·n + j₀` start
    at `512·n`, and that row is the `j₀`-th of them. -/
theorem G1_block (a : S10240x10240.Idx → Elt Ideal .bf16) (h : S10240x128.Idx → Elt Ideal .bf16)
    (b : S1x128.Idx → Elt Ideal .f32) (n : Nat) (x0 : Vec Ideal S512x10240 .bf16) (x1 : Vec Ideal S10240x128 .bf16)
    (x2 : Vec Ideal S1x128 .f32) (j : S512x128.Idx) (i : S10240x128.Idx)
    (hi0 : (i 0).val = n * 512 + (j 0).val) (hi1 : (i 1).val = (j 1).val)
    (hx0 : ∀ (y : S512x10240.Idx) (k : S10240x10240.Idx), (k 0).val = n * 512 + (y 0).val → (k 1).val = (y 1).val → x0 y = a k)
    (hx1 : x1 = h) (hx2 : x2 = b) :
    out1_3 (F := Ideal) x0 x1 x2 j = G1 a h b i := by
  have hj0 : (j 0).val < 512 := idx2_lt0 j
  unfold G1
  refine out1_3_congr ?_ hx1 hx2 ?_
  · funext y
    refine hx0 y _ ?_ rfl
    show 512 * ((i 0).val / 512) + (y 0).val = n * 512 + (y 0).val
    omega
  · funext d; apply Fin.ext
    match d with
    | ⟨0, _⟩ => show (j 0).val = (i 0).val % 512; omega
    | ⟨1, _⟩ => show (j 1).val = (i 1).val; omega

/-- The first operand's block at point `t` is its rows `512·t … 512·t + 511`, every column: block entry `y` is the
    array's entry at any index `k` with row `512·t + y₀` and column `y₁`. -/
theorem iblk1_0_apply (c : Dev nD) (t : Fin cfg1.N) (y : S512x10240.Idx) (k : S10240x10240.Idx)
    (hk0 : (k 0).val = t.val * 512 + (y 0).val) (hk1 : (k 1).val = (y 1).val) :
    (iblk1 (F := Ideal) V c 0 t : Vec Ideal S512x10240 .bf16) y = V c main_v47 k := by
  obtain ⟨e00, e01, -⟩ := idx_facts1 t
  show V c main_v47 (((cfg1.win 0).blk t).view.emb y) = V c main_v47 k
  refine apply_congr (V c main_v47) ?_
  funext a; apply Fin.ext
  match a with
  | ⟨0, _⟩ => show win1_0.index t (0 : Fin 2) * 512 + 1 * (y 0).val = (k 0).val; omega
  | ⟨1, _⟩ => show win1_0.index t (1 : Fin 2) * 10240 + 1 * (y 1).val = (k 1).val; omega

/-- The second operand's block at every point is the whole array (its block index is 0 on both axes). -/
theorem iblk1_1_eq (c : Dev nD) (t : Fin cfg1.N) :
    (iblk1 (F := Ideal) V c 1 t : Vec Ideal S10240x128 .bf16) = V c main_v60 := by
  obtain ⟨-, -, e10, e11, -⟩ := idx_facts1 t
  funext y
  show V c main_v60 (((cfg1.win 1).blk t).view.emb y) = V c main_v60 y
  refine apply_congr (V c main_v60) ?_
  funext a; apply Fin.ext
  match a with
  | ⟨0, _⟩ => show win1_1.index t (0 : Fin 2) * 10240 + 1 * (y 0).val = (y 0).val; omega
  | ⟨1, _⟩ => show win1_1.index t (1 : Fin 2) * 128 + 1 * (y 1).val = (y 1).val; omega

/-- The third operand's block at every point is the whole array (its block index is 0 on both axes). -/
theorem iblk1_2_eq (c : Dev nD) (t : Fin cfg1.N) :
    (iblk1 (F := Ideal) V c 2 t : Vec Ideal S1x128 .f32) = V c main_v61 := by
  obtain ⟨-, -, -, -, e20, e21, -⟩ := idx_facts1 t
  funext y
  show V c main_v61 (((cfg1.win 2).blk t).view.emb y) = V c main_v61 y
  refine apply_congr (V c main_v61) ?_
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- WHAT POINT `t` WRITES BACK is block `t` of `G1` of the operand arrays as the launch finds them: inside block `t` the
    row is `512·t + j₀`; the first operand's block at `t` is its rows `512·t …`, every column; and the two small operands'
    blocks are the whole arrays (`G1_block`). -/
theorem flushed1_eq (c : Dev nD) (t : Fin cfg1.N) :
    (dat1 (F := Ideal) V c).flushed 3 t
      = ((cfg1.win 3).blk t).view.read (Elt Ideal) (G1 (V c main_v47) (V c main_v60) (V c main_v61)) := by
  show (cfg1.win 3).cut (grid1.coords t) ((dat1 V c).after 3 t) = _
  rw [after1_3]
  obtain ⟨-, -, -, -, -, -, e30, e31⟩ := idx_facts1 t
  funext j
  show out1_3 (F := Ideal) (iblk1 V c 0 t) (iblk1 V c 1 t) (iblk1 V c 2 t) j
    = G1 (V c main_v47) (V c main_v60) (V c main_v61) (((cfg1.win 3).blk t).view.emb j)
  refine G1_block _ _ _ t.val _ _ _ j _ ?_ ?_ (iblk1_0_apply V c t) (iblk1_1_eq V c t) (iblk1_2_eq V c t)
  · show win1_3.index t (0 : Fin 2) * 512 + 1 * (j 0).val = t.val * 512 + (j 0).val
    omega
  · show win1_3.index t (1 : Fin 2) * 128 + 1 * (j 1).val = (j 1).val
    omega

/-- An entry of the output array is in point `t`'s block iff each coordinate is in the block's range on its axis. -/
theorem mem_blk1 (t : Fin cfg1.N) (i : S10240x128.Idx) :
    i ∈ ((cfg1.win 3).blk t).view.set ↔ ∀ a : Fin 2, win1_3.index t a * S512x128.size a ≤ (i a).val
      ∧ (i a).val < win1_3.index t a * S512x128.size a + S512x128.size a := by
  show i ∈ ((View.whole main_v62).slice (win1_3.rect t)).set ↔ _
  rw [View.set_slice_whole, Rect.mem_set_unit]
  exact Iff.rfl

/-- THE BLOCKS COVER THE OUTPUT ARRAY: row `r` is in the block of point `r / 512` (20 blocks of 512 rows are the 10240
    rows), and every block has all 128 columns; every point writes its block back. -/
theorem cover1 (i : S10240x128.Idx) :
    ∃ t : Fin cfg1.N, (cfg1.win 3).flush t = true ∧ i ∈ ((cfg1.win 3).blk t).view.set := by
  have hi0 : (i 0).val < 10240 := idx2_lt0 i
  have hi1 : (i 1).val < 128 := idx2_lt1 i
  obtain ⟨t, ht⟩ : ∃ t : Fin cfg1.N, t.val = (i 0).val / 512 :=
    ⟨⟨(i 0).val / 512, by rw [show cfg1.N = 20 from N_1]; omega⟩, rfl⟩
  obtain ⟨e00, e01, e10, e11, e20, e21, e30, e31⟩ := idx_facts1 t
  refine ⟨t, flush1_3 t, ?_⟩
  rw [mem_blk1]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 128 ≤ (i 1).val ∧ (i 1).val < win1_3.index t (1 : Fin 2) * 128 + 128
    omega

/-- THE OUTPUT ARRAY AFTER THE SECOND LAUNCH is `G1` of the three operand arrays as the launch finds them: every point
    writes back its block of `G1` (`flushed1_eq`) and the blocks cover the array (`cover1`). -/
theorem array1_eq (c : Dev nD) :
    (dat1 (F := Ideal) V c).arrAt 3 cfg1.N = G1 (V c main_v47) (V c main_v60) (V c main_v61) :=
  (dat1 (F := Ideal) V c).arrAt_eq_of_cover 3 (G1 (V c main_v47) (V c main_v60) (V c main_v61))
    (fun t _ => flushed1_eq V c t) cover1

/-- THE OUTPUT ARRAY AFTER THE SECOND LAUNCH, AT AN ENTRY: entry `(r, q)` is the body's result on the 512 rows of the
    first operand that contain row `r` and on the two whole small operands, at row `r mod 512` and column `q`. -/
theorem array1_apply (c : Dev nD) (r : Fin 10240) (q : Fin 128) :
    (dat1 (F := Ideal) V c).arrAt 3 cfg1.N (ix2 r q)
      = out1_3 (F := Ideal)
          (fun y => V c main_v47 (ix2 (⟨512 * (r.val / 512) + (y 0).val, by have := idx2_lt0 y; omega⟩ : Fin 10240) (y 1)))
          (V c main_v60) (V c main_v61) (ix2 (⟨r.val % 512, Nat.mod_lt _ (by decide)⟩ : Fin 512) q) :=
  congrFun (array1_eq V c) (ix2 r q)

/-! ## Region 2: the third aggregation launch

Operands: the `[10240, 10240]` matrix (`main_v47`), cut into 20 blocks of 512 rows, all columns; a `[10240, 64]` matrix
(`main_v68`) and a `[1, 64]` row (`main_v69`), both whole at every point. Output: the `[10240, 64]` matrix `main_v70`, written
back at every point in blocks of 512 rows, all 64 columns. -/

/-- The printed index maps of the third launch, decided over its 20 points: the first operand's and the output's block
    index on the row axis is the point itself, every other block index is 0 (the two small operands are whole at every
    point; no window is cut along the columns). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's result is a function of its three blocks and the index: equal arguments, equal results. -/
theorem out2_3_congr {x0 x0' : Vec Ideal S512x10240 .bf16} {x1 x1' : Vec Ideal S10240x64 .bf16}
    {x2 x2' : Vec Ideal S1x64 .f32} {j j' : S512x64.Idx} (h0 : x0 = x0') (h1 : x1 = x1') (h2 : x2 = x2') (hj : j = j') :
    out2_3 (F := Ideal) x0 x1 x2 j = out2_3 (F := Ideal) x0' x1' x2' j' := by
  subst h0 h1 h2 hj; rfl

/-- WHAT THE OUTPUT ARRAY ENDS HOLDING, as one function of the three operand arrays: entry `(r, q)` is the body's result
    on the 512 rows of the first operand that contain row `r` (rows `512·(r/512) … 512·(r/512) + 511`, all columns) and on
    the two whole small operands, read at row `r mod 512` and column `q`. -/
def G2 (a : S10240x10240.Idx → Elt Ideal .bf16) (h : S10240x64.Idx → Elt Ideal .bf16) (b : S1x64.Idx → Elt Ideal .f32) :
    S10240x64.Idx → Elt Ideal .f32 :=
  fun i => out2_3 (F := Ideal)
    (fun y => a (ix2 (⟨512 * ((i 0).val / 512) + (y 0).val, by have := idx2_lt0 i; have := idx2_lt0 y; omega⟩ : Fin 10240) (y 1)))
    h b (ix2 (⟨(i 0).val % 512, Nat.mod_lt _ (by decide)⟩ : Fin 512) (i 1))

/-- ONE BLOCK OF `G2`. At an entry `i` of the output array that sits in block `n` at the block index `j` (row
    `512·n + j₀`, column `j₁`), `G2` is the body's result at `j` on any blocks that are: block `n` of the first operand
    (rows `512·n …`, every column) and the two small operands whole. For the rows that contain row `512·n + j₀` start
    at `512·n`, and that row is the `j₀`-th of them. -/
theorem G2_block (a : S10240x10240.Idx → Elt Ideal .bf16) (h : S10240x64.Idx → Elt Ideal .bf16)
    (b : S1x64.Idx → Elt Ideal .f32) (n : Nat) (x0 : Vec Ideal S512x10240 .bf16) (x1 : Vec Ideal S10240x64 .bf16)
    (x2 : Vec Ideal S1x64 .f32) (j : S512x64.Idx) (i : S10240x64.Idx)
    (hi0 : (i 0).val = n * 512 + (j 0).val) (hi1 : (i 1).val = (j 1).val)
    (hx0 : ∀ (y : S512x10240.Idx) (k : S10240x10240.Idx), (k 0).val = n * 512 + (y 0).val → (k 1).val = (y 1).val → x0 y = a k)
    (hx1 : x1 = h) (hx2 : x2 = b) :
    out2_3 (F := Ideal) x0 x1 x2 j = G2 a h b i := by
  have hj0 : (j 0).val < 512 := idx2_lt0 j
  unfold G2
  refine out2_3_congr ?_ hx1 hx2 ?_
  · funext y
    refine hx0 y _ ?_ rfl
    show 512 * ((i 0).val / 512) + (y 0).val = n * 512 + (y 0).val
    omega
  · funext d; apply Fin.ext
    match d with
    | ⟨0, _⟩ => show (j 0).val = (i 0).val % 512; omega
    | ⟨1, _⟩ => show (j 1).val = (i 1).val; omega

/-- The first operand's block at point `t` is its rows `512·t … 512·t + 511`, every column: block entry `y` is the
    array's entry at any index `k` with row `512·t + y₀` and column `y₁`. -/
theorem iblk2_0_apply (c : Dev nD) (t : Fin cfg2.N) (y : S512x10240.Idx) (k : S10240x10240.Idx)
    (hk0 : (k 0).val = t.val * 512 + (y 0).val) (hk1 : (k 1).val = (y 1).val) :
    (iblk2 (F := Ideal) V c 0 t : Vec Ideal S512x10240 .bf16) y = V c main_v47 k := by
  obtain ⟨e00, e01, -⟩ := idx_facts2 t
  show V c main_v47 (((cfg2.win 0).blk t).view.emb y) = V c main_v47 k
  refine apply_congr (V c main_v47) ?_
  funext a; apply Fin.ext
  match a with
  | ⟨0, _⟩ => show win2_0.index t (0 : Fin 2) * 512 + 1 * (y 0).val = (k 0).val; omega
  | ⟨1, _⟩ => show win2_0.index t (1 : Fin 2) * 10240 + 1 * (y 1).val = (k 1).val; omega

/-- The second operand's block at every point is the whole array (its block index is 0 on both axes). -/
theorem iblk2_1_eq (c : Dev nD) (t : Fin cfg2.N) :
    (iblk2 (F := Ideal) V c 1 t : Vec Ideal S10240x64 .bf16) = V c main_v68 := by
  obtain ⟨-, -, e10, e11, -⟩ := idx_facts2 t
  funext y
  show V c main_v68 (((cfg2.win 1).blk t).view.emb y) = V c main_v68 y
  refine apply_congr (V c main_v68) ?_
  funext a; apply Fin.ext
  match a with
  | ⟨0, _⟩ => show win2_1.index t (0 : Fin 2) * 10240 + 1 * (y 0).val = (y 0).val; omega
  | ⟨1, _⟩ => show win2_1.index t (1 : Fin 2) * 64 + 1 * (y 1).val = (y 1).val; omega

/-- The third operand's block at every point is the whole array (its block index is 0 on both axes). -/
theorem iblk2_2_eq (c : Dev nD) (t : Fin cfg2.N) :
    (iblk2 (F := Ideal) V c 2 t : Vec Ideal S1x64 .f32) = V c main_v69 := by
  obtain ⟨-, -, -, -, e20, e21, -⟩ := idx_facts2 t
  funext y
  show V c main_v69 (((cfg2.win 2).blk t).view.emb y) = V c main_v69 y
  refine apply_congr (V c main_v69) ?_
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- WHAT POINT `t` WRITES BACK is block `t` of `G2` of the operand arrays as the launch finds them: inside block `t` the
    row is `512·t + j₀`; the first operand's block at `t` is its rows `512·t …`, every column; and the two small operands'
    blocks are the whole arrays (`G2_block`). -/
theorem flushed2_eq (c : Dev nD) (t : Fin cfg2.N) :
    (dat2 (F := Ideal) V c).flushed 3 t
      = ((cfg2.win 3).blk t).view.read (Elt Ideal) (G2 (V c main_v47) (V c main_v68) (V c main_v69)) := by
  show (cfg2.win 3).cut (grid2.coords t) ((dat2 V c).after 3 t) = _
  rw [after2_3]
  obtain ⟨-, -, -, -, -, -, e30, e31⟩ := idx_facts2 t
  funext j
  show out2_3 (F := Ideal) (iblk2 V c 0 t) (iblk2 V c 1 t) (iblk2 V c 2 t) j
    = G2 (V c main_v47) (V c main_v68) (V c main_v69) (((cfg2.win 3).blk t).view.emb j)
  refine G2_block _ _ _ t.val _ _ _ j _ ?_ ?_ (iblk2_0_apply V c t) (iblk2_1_eq V c t) (iblk2_2_eq V c t)
  · show win2_3.index t (0 : Fin 2) * 512 + 1 * (j 0).val = t.val * 512 + (j 0).val
    omega
  · show win2_3.index t (1 : Fin 2) * 64 + 1 * (j 1).val = (j 1).val
    omega

/-- An entry of the output array is in point `t`'s block iff each coordinate is in the block's range on its axis. -/
theorem mem_blk2 (t : Fin cfg2.N) (i : S10240x64.Idx) :
    i ∈ ((cfg2.win 3).blk t).view.set ↔ ∀ a : Fin 2, win2_3.index t a * S512x64.size a ≤ (i a).val
      ∧ (i a).val < win2_3.index t a * S512x64.size a + S512x64.size a := by
  show i ∈ ((View.whole main_v70).slice (win2_3.rect t)).set ↔ _
  rw [View.set_slice_whole, Rect.mem_set_unit]
  exact Iff.rfl

/-- THE BLOCKS COVER THE OUTPUT ARRAY: row `r` is in the block of point `r / 512` (20 blocks of 512 rows are the 10240
    rows), and every block has all 64 columns; every point writes its block back. -/
theorem cover2 (i : S10240x64.Idx) :
    ∃ t : Fin cfg2.N, (cfg2.win 3).flush t = true ∧ i ∈ ((cfg2.win 3).blk t).view.set := by
  have hi0 : (i 0).val < 10240 := idx2_lt0 i
  have hi1 : (i 1).val < 64 := idx2_lt1 i
  obtain ⟨t, ht⟩ : ∃ t : Fin cfg2.N, t.val = (i 0).val / 512 :=
    ⟨⟨(i 0).val / 512, by rw [show cfg2.N = 20 from N_2]; omega⟩, rfl⟩
  obtain ⟨e00, e01, e10, e11, e20, e21, e30, e31⟩ := idx_facts2 t
  refine ⟨t, flush2_3 t, ?_⟩
  rw [mem_blk2]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 64 ≤ (i 1).val ∧ (i 1).val < win2_3.index t (1 : Fin 2) * 64 + 64
    omega

/-- THE OUTPUT ARRAY AFTER THE THIRD LAUNCH is `G2` of the three operand arrays as the launch finds them: every point
    writes back its block of `G2` (`flushed2_eq`) and the blocks cover the array (`cover2`). -/
theorem array2_eq (c : Dev nD) :
    (dat2 (F := Ideal) V c).arrAt 3 cfg2.N = G2 (V c main_v47) (V c main_v68) (V c main_v69) :=
  (dat2 (F := Ideal) V c).arrAt_eq_of_cover 3 (G2 (V c main_v47) (V c main_v68) (V c main_v69))
    (fun t _ => flushed2_eq V c t) cover2

/-- THE OUTPUT ARRAY AFTER THE THIRD LAUNCH, AT AN ENTRY: entry `(r, q)` is the body's result on the 512 rows of the
    first operand that contain row `r` and on the two whole small operands, at row `r mod 512` and column `q`. -/
theorem array2_apply (c : Dev nD) (r : Fin 10240) (q : Fin 64) :
    (dat2 (F := Ideal) V c).arrAt 3 cfg2.N (ix2 r q)
      = out2_3 (F := Ideal)
          (fun y => V c main_v47 (ix2 (⟨512 * (r.val / 512) + (y 0).val, by have := idx2_lt0 y; omega⟩ : Fin 10240) (y 1)))
          (V c main_v68) (V c main_v69) (ix2 (⟨r.val % 512, Nat.mod_lt _ (by decide)⟩ : Fin 512) q) :=
  congrFun (array2_eq V c) (ix2 r q)

end Cert.KernelIdeal.Arrays

end
-- ==== Proof.KernelBlocks.lean ====
/-
  THE KERNEL BODIES' RESULTS, ENTRY BY ENTRY. Each of the three kernel bodies stores one block: the product of a
  512×10240 block by a 10240×C block accumulated from zero, plus a 1×C bias row copied down the 512 rows, and in the
  first two bodies the maximum of that with 0. At the ideal values the product read at (p, q) is the sum over the
  contracted coordinate k of left(p, k) · right(k, q): the contraction index of a dot with one contracted axis is that
  axis's coordinate, the left operand index at (p, q), k is (p, k) and the right one (k, q).
-/
import proofs.«129397_j61830349193499_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.ValueIdx
open scoped BigOperators

/-- The zero offset of a rank-2 access. -/
theorem hz : (![0, 0] : Fin 2 → Nat) = fun _ => 0 := funext fun a => by fin_cases a <;> rfl

/-- An m×k by k×n product (left axis 1 contracted with right axis 0) accumulated from the zero splat, read at (a, b):
    the sum over the contracted coordinate of the products of the entries. At the ideal values. -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The first body's payload at (p, q). -/
theorem pay0_apply (v0 : Vec Ideal S512x10240 .bf16) (v2 : Vec Ideal S10240x128 .bf16) (v5 : Vec Ideal S1x128 .f32)
    (p : Fin 512) (q : Fin 128) :
    k0_pay1 (F := Ideal) v0 v2 v5 (ix2 p q)
      = max ((∑ k : Fin 10240, v0 (ix2 p k) * v2 (ix2 k q)) + v5 (ix2 0 q)) 0 := by
  unfold k0_pay1
  simp only [shapeCast_self]
  rw [maximumf_apply, addf_apply, broadcast_apply, broadcastTo_1b_ab_apply]
  show max (FloatOps.matmul dot_S512x10240_S10240x128_S512x128_1_0_0_1_n_n none v0 v2
      (constant (F := Ideal) S512x128 .f32 0x00000000#32) (ix2 p q) + v5 (ix2 0 q)) (Ideal.ofBits .f32 0x00000000#32) = _
  rw [Ideal.ofBits_zero_f32]
  exact congrArg (fun t => max (t + v5 (ix2 0 q)) 0)
    (matmul_plain_zero_apply dot_S512x10240_S10240x128_S512x128_1_0_0_1_n_n.wf none v0 v2 p q)

theorem out0_apply (x0 : Vec Ideal S512x10240 .bf16) (x1 : Vec Ideal S10240x128 .bf16) (x2 : Vec Ideal S1x128 .f32)
    (p : Fin 512) (q : Fin 128) :
    out0_3 (F := Ideal) x0 x1 x2 (ix2 p q)
      = max ((∑ k : Fin 10240, x0 (ix2 p k) * x1 (ix2 k q)) + x2 (ix2 0 q)) 0 := by
  unfold out0_3
  rw [View.canon_unit_zero hz]
  simp only [View.ld_unit_zero (S := S512x10240) hz, View.ld_unit_zero (S := S10240x128) hz, View.ld_unit_zero (S := S1x128) hz]
  exact pay0_apply x0 x1 x2 p q

/-- The second body's payload at (p, q): the same operations as the first's. -/
theorem pay1_apply (v0 : Vec Ideal S512x10240 .bf16) (v2 : Vec Ideal S10240x128 .bf16) (v5 : Vec Ideal S1x128 .f32)
    (p : Fin 512) (q : Fin 128) :
    k1_pay1 (F := Ideal) v0 v2 v5 (ix2 p q)
      = max ((∑ k : Fin 10240, v0 (ix2 p k) * v2 (ix2 k q)) + v5 (ix2 0 q)) 0 := by
  unfold k1_pay1
  simp only [shapeCast_self]
  rw [maximumf_apply, addf_apply, broadcast_apply, broadcastTo_1b_ab_apply]
  show max (FloatOps.matmul dot_S512x10240_S10240x128_S512x128_1_0_0_1_n_n none v0 v2
      (constant (F := Ideal) S512x128 .f32 0x00000000#32) (ix2 p q) + v5 (ix2 0 q)) (Ideal.ofBits .f32 0x00000000#32) = _
  rw [Ideal.ofBits_zero_f32]
  exact congrArg (fun t => max (t + v5 (ix2 0 q)) 0)
    (matmul_plain_zero_apply dot_S512x10240_S10240x128_S512x128_1_0_0_1_n_n.wf none v0 v2 p q)

theorem out1_apply (x0 : Vec Ideal S512x10240 .bf16) (x1 : Vec Ideal S10240x128 .bf16) (x2 : Vec Ideal S1x128 .f32)
    (p : Fin 512) (q : Fin 128) :
    out1_3 (F := Ideal) x0 x1 x2 (ix2 p q)
      = max ((∑ k : Fin 10240, x0 (ix2 p k) * x1 (ix2 k q)) + x2 (ix2 0 q)) 0 := by
  unfold out1_3
  rw [View.canon_unit_zero hz]
  simp only [View.ld_unit_zero (S := S512x10240) hz, View.ld_unit_zero (S := S10240x128) hz, View.ld_unit_zero (S := S1x128) hz]
  exact pay1_apply x0 x1 x2 p q

/-- The third body's payload at (p, q): the product plus the bias, with no maximum. -/
theorem pay2_apply (v0 : Vec Ideal S512x10240 .bf16) (v2 : Vec Ideal S10240x64 .bf16) (v5 : Vec Ideal S1x64 .f32)
    (p : Fin 512) (q : Fin 64) :
    k2_pay1 (F := Ideal) v0 v2 v5 (ix2 p q)
      = (∑ k : Fin 10240, v0 (ix2 p k) * v2 (ix2 k q)) + v5 (ix2 0 q) := by
  unfold k2_pay1
  simp only [shapeCast_self]
  rw [addf_apply, broadcastTo_1b_ab_apply]
  exact congrArg (fun t => t + v5 (ix2 0 q))
    (matmul_plain_zero_apply dot_S512x10240_S10240x64_S512x64_1_0_0_1_n_n.wf none v0 v2 p q)

theorem out2_apply (x0 : Vec Ideal S512x10240 .bf16) (x1 : Vec Ideal S10240x64 .bf16) (x2 : Vec Ideal S1x64 .f32)
    (p : Fin 512) (q : Fin 64) :
    out2_3 (F := Ideal) x0 x1 x2 (ix2 p q)
      = (∑ k : Fin 10240, x0 (ix2 p k) * x1 (ix2 k q)) + x2 (ix2 0 q) := by
  unfold out2_3
  rw [View.canon_unit_zero hz]
  simp only [View.ld_unit_zero (S := S512x10240) hz, View.ld_unit_zero (S := S10240x64) hz, View.ld_unit_zero (S := S1x64) hz]
  exact pay2_apply x0 x1 x2 p q

end Cert.KernelIdeal.Blocks

end
-- ==== Proof.KernelLayout.lean ====
/-
  THE KERNEL'S HOST ARRAYS, ENTRY BY ENTRY. The layout operations of the idealized kernel's host computation read at
  explicit coordinates: the layer's features times a weight matrix with 240 zero rows added below (row s of the padded
  array is row s of the product when s < 10000 and zero otherwise; at the ideal values the format changes are the
  identity and the padding value, the integer 0 converted, is 0), the first 10000 rows of a launch's result, a bias
  vector as a one-row matrix, and the two columns of the array of (destination, source) pairs.
-/
import proofs.«129397_j61830349193499_1_alg».proof.Proof.KernelSpec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal

noncomputable section

namespace Cert.KernelIdeal.Layout

open Cert.KernelIdeal Cert.KernelIdeal.Gen Cert.KernelIdeal.Spec Idealize.ShloMosaic Idealize.ShloMosaic.ValueIdx

/-! ## General readings -/

section General
variable {α : Type}

/-- An m-row matrix padded below (no padding elsewhere, none between the entries) to M rows reads, at row s, the
    operand's row s when s < m and the padding value otherwise. -/
theorem pad_rows_below_apply {m M n : Nat} (hi : Fin 2 → Nat) (x : (⟨2, ![m, n]⟩ : Shape).Idx → α) {u : Shape} (v : u.Idx → α)
    (h : (⟨2, ![m, n]⟩ : Shape).Pads ![0, 0] hi ![0, 0] ⟨2, ![M, n]⟩) (hu : 0 < u.numel) (s : Fin M) (c : Fin n) :
    pad ⟨2, ![M, n]⟩ ![0, 0] hi ![0, 0] x v h hu (ix2 s c)
      = if hs : s.val < m then x (ix2 ⟨s.val, hs⟩ c) else v (Shape.Idx.first hu) := by
  by_cases hs : s.val < m
  · rw [dif_pos hs]
    refine pad_apply_of_inside _ _ _ x v h hu _ (ix2 ⟨s.val, hs⟩ c) fun a => ?_
    match a with
    | ⟨0, _⟩ => show s.val = 0 + s.val * (0 + 1); omega
    | ⟨1, _⟩ => show c.val = 0 + c.val * (0 + 1); omega
  · rw [dif_neg hs]
    refine pad_apply_of_not_inside _ _ _ x v h hu _ ⟨0, Nat.two_pos⟩ fun hin => hs ?_
    have h3 : (s.val - 0) / (0 + 1) < m := hin.2.2
    simpa using h3

/-- The first m rows of an M-row matrix: row d of the slice is row d of the operand. -/
theorem slice_rows_apply {m M n : Nat} (y : (⟨2, ![M, n]⟩ : Shape).Idx → α)
    (h : (⟨2, ![M, n]⟩ : Shape).Slices ![0, 0] ⟨2, ![m, n]⟩) (d : Fin m) (hd : d.val < M) (c : Fin n) :
    extractStridedSlice ⟨2, ![m, n]⟩ ![0, 0] y h (ix2 d c) = y (ix2 ⟨d.val, hd⟩ c) := by
  refine extractStridedSlice_apply _ y h _ (ix2 ⟨d.val, hd⟩ c) fun a => ?_
  match a with
  | ⟨0, _⟩ => show d.val = 0 + d.val; omega
  | ⟨1, _⟩ => show c.val = 0 + c.val; omega

/-- A vector of N entries copied into the one column of an N×1 matrix. -/
theorem column_apply {N : Nat} (v : (⟨1, ![N]⟩ : Shape).Idx → α) (hN : N ≠ 1)
    (h : (⟨1, ![N]⟩ : Shape).BroadcastsInDim ⟨2, ![N, 1]⟩ ![0]) (e : Fin N) (z : Fin 1) :
    broadcastInDim ⟨2, ![N, 1]⟩ ![0] h v (ix2 e z) = v (ix1 e) := by
  refine broadcastInDim_apply _ h v _ (ix1 e) fun a => ?_
  match a with
  | ⟨0, _⟩ =>
    show e.val = if N = 1 then 0 else e.val
    rw [if_neg hN]

/-- Two N×1 columns set side by side: column 0 of the result is the first, column 1 the second. -/
theorem two_columns_apply0 {N : Nat} (x₁ x₂ : (⟨2, ![N, 1]⟩ : Shape).Idx → α)
    (h : Shape.Concatenates [(⟨2, ![N, 1]⟩ : Shape), ⟨2, ![N, 1]⟩] ⟨2, ![N, 2]⟩ 1) (e : Fin N) :
    concatenate ⟨2, ![N, 2]⟩ 1 [⟨⟨2, ![N, 1]⟩, x₁⟩, ⟨⟨2, ![N, 1]⟩, x₂⟩] h (ix2 e 0) = x₁ (ix2 e 0) := by
  refine concatenate_pair_apply_left _ x₁ x₂ h _ rfl (ix2 e 0) fun b => ?_
  match b with
  | ⟨0, _⟩ => rfl
  | ⟨1, _⟩ => rfl

theorem two_columns_apply1 {N : Nat} (x₁ x₂ : (⟨2, ![N, 1]⟩ : Shape).Idx → α)
    (h : Shape.Concatenates [(⟨2, ![N, 1]⟩ : Shape), ⟨2, ![N, 1]⟩] ⟨2, ![N, 2]⟩ 1) (e : Fin N) :
    concatenate ⟨2, ![N, 2]⟩ 1 [⟨⟨2, ![N, 1]⟩, x₁⟩, ⟨⟨2, ![N, 1]⟩, x₂⟩] h (ix2 e 1) = x₂ (ix2 e 0) := by
  refine concatenate_pair_apply_right _ x₁ x₂ h _ rfl rfl (ix2 e 0) (fun b hb => ?_) rfl
  match b with
  | ⟨0, _⟩ => rfl
  | ⟨1, _⟩ => exact absurd rfl hb

end General

/-! ## The kernel's arrays -/

/-- The padding value: the integer 0 converted is 0. -/
theorem pad_value (i : S_.Idx) : (sitofp (F := Ideal) .bf16 (constantI S_ 32 0#32)) i = 0 := by
  show (((0#32 : BitVec 32).toInt : ℝ) : EReal) = 0
  rw [show (0#32 : BitVec 32).toInt = 0 from by decide]
  simp

theorem feat128_apply (x : FVec Ideal S10000x128 .f32) (W : FVec Ideal S128x128 .f32) (s : Fin 10240) (c : Fin 128) :
    feat128 (F := Ideal) x W (ix2 s c)
      = if h : s.val < 10000 then Host.dotGeneral (F := Ideal) dot_S10000x128_S128x128_S10000x128_1_0_0_1_n_n none x W (ix2 ⟨s.val, h⟩ c) else 0 := by
  unfold feat128
  rw [pad_rows_below_apply, pad_value]
  rfl

theorem feat64_apply (x : FVec Ideal S10000x128 .f32) (W : FVec Ideal S128x64 .f32) (s : Fin 10240) (c : Fin 64) :
    feat64 (F := Ideal) x W (ix2 s c)
      = if h : s.val < 10000 then Host.dotGeneral (F := Ideal) dot_S10000x128_S128x64_S10000x64_1_0_0_1_n_n none x W (ix2 ⟨s.val, h⟩ c) else 0 := by
  unfold feat64
  rw [pad_rows_below_apply, pad_value]
  rfl

theorem rows128_apply (y : FVec Ideal S10240x128 .f32) (d : Fin 10000) (c : Fin 128) :
    rows128 (F := Ideal) y (ix2 d c) = y (ix2 ⟨d.val, by omega⟩ c) :=
  slice_rows_apply y _ d _ c

theorem rows64_apply (y : FVec Ideal S10240x64 .f32) (d : Fin 10000) (c : Fin 64) :
    rows64 (F := Ideal) y (ix2 d c) = y (ix2 ⟨d.val, by omega⟩ c) :=
  slice_rows_apply y _ d _ c

theorem biasRow128_apply (b : FVec Ideal S128 .f32) (c : Fin 128) : biasRow128 (F := Ideal) b (ix2 0 c) = b (ix1 c) :=
  shapeCast_a_1a_apply b _ 0 c

theorem biasRow64_apply (b : FVec Ideal S64 .f32) (c : Fin 64) : biasRow64 (F := Ideal) b (ix2 0 c) = b (ix1 c) :=
  shapeCast_a_1a_apply b _ 0 c

theorem pairs_apply0 (ei : IVec S2x640000 32) (e : Fin 650000) : pairs ei (ix2 e 0) = wrapPad (dstIdx ei) (ix1 e) := by
  unfold pairs
  rw [two_columns_apply0]
  exact column_apply _ (by decide) _ e 0

theorem pairs_apply1 (ei : IVec S2x640000 32) (e : Fin 650000) : pairs ei (ix2 e 1) = wrapPad (srcIdx ei) (ix1 e) := by
  unfold pairs
  rw [two_columns_apply1]
  exact column_apply _ (by decide) _ e 0

end Cert.KernelIdeal.Layout

end
-- ==== Proof.KernelLayerValue.lean ====
/-
  What each launch leaves, row by row. A launch computes its output by blocks of 512 rows: at a grid point the body multiplies
  the point's 512 rows of the matrix operand by the whole feature operand and adds the bias row; the blocks tile the output, so
  entry `(d, q)` of the output is row `d` of the matrix operand contracted with column `q` of the features, plus the bias at `q`.
-/
import proofs.«129397_j61830349193499_1_alg».proof.Proof.RegionArrays
import proofs.«129397_j61830349193499_1_alg».proof.Proof.KernelBlocks
import proofs.«129397_j61830349193499_1_alg».proof.Proof.KernelLayout

set_option maxRecDepth 16384

noncomputable section

namespace Cert.KernelIdeal.LayerValue

open Cert.KernelIdeal Cert.KernelIdeal.Gen Cert.KernelIdeal.Spec Idealize.ShloMosaic Idealize.ShloMosaic.TcCoe Idealize.ShloMosaic.ValueIdx

variable (V : (c : Dev nD) → (b : Ref sig .tc) → Buf (Elt Ideal) ((c : Thread nD τ).loc b))

/-- After launch 0, entry `(d, q)` of the first 10000 rows of its output, for entry contents whose three operand arrays are
    `a`, `h`, `b`: row `d` of `a` contracted with column `q` of `h`, plus `b` at `q`, clamped below at 0 — the block of 512 rows that
    holds row `d` is rows `512·(d / 512) …`, and `d` sits in it at `d mod 512`. -/
theorem rows0_apply (c : Dev nD) (a : Vec Ideal S10240x10240 .bf16) (h : Vec Ideal S10240x128 .bf16) (b : Vec Ideal S1x128 .f32)
    (ha : V c main_v47 = a) (hh : V c main_v52 = h) (hb : V c main_v53 = b) (d : Fin 10000) (q : Fin 128) :
    rows128 (F := Ideal) ((dat0 (F := Ideal) V c).arrAt 3 cfg0.N) (ix2 d q) = max ((∑ k : Fin 10240, a (ix2 (⟨d.val, by omega⟩ : Fin 10240) k) * h (ix2 k q)) + b (ix2 0 q)) 0 := by
  rw [Layout.rows128_apply, Arrays.array0_apply V c ⟨d.val, by omega⟩ q, ha, hh, hb, Blocks.out0_apply]
  refine congrArg (fun t : EReal => max (t + b (ix2 0 q)) 0) ?_
  refine Finset.sum_congr rfl fun k _ => ?_
  refine congrArg (fun t : EReal => t * h (ix2 k q)) ?_
  refine Arrays.apply_congr a ?_
  refine congrArg (fun r : Fin 10240 => ix2 r k) (Fin.ext ?_)
  show 512 * (d.val / 512) + d.val % 512 = d.val
  exact Nat.div_add_mod d.val 512

/-- After launch 1, entry `(d, q)` of the first 10000 rows of its output, for entry contents whose three operand arrays are
    `a`, `h`, `b`: row `d` of `a` contracted with column `q` of `h`, plus `b` at `q`, clamped below at 0 — the block of 512 rows that
    holds row `d` is rows `512·(d / 512) …`, and `d` sits in it at `d mod 512`. -/
theorem rows1_apply (c : Dev nD) (a : Vec Ideal S10240x10240 .bf16) (h : Vec Ideal S10240x128 .bf16) (b : Vec Ideal S1x128 .f32)
    (ha : V c main_v47 = a) (hh : V c main_v60 = h) (hb : V c main_v61 = b) (d : Fin 10000) (q : Fin 128) :
    rows128 (F := Ideal) ((dat1 (F := Ideal) V c).arrAt 3 cfg1.N) (ix2 d q) = max ((∑ k : Fin 10240, a (ix2 (⟨d.val, by omega⟩ : Fin 10240) k) * h (ix2 k q)) + b (ix2 0 q)) 0 := by
  rw [Layout.rows128_apply, Arrays.array1_apply V c ⟨d.val, by omega⟩ q, ha, hh, hb, Blocks.out1_apply]
  refine congrArg (fun t : EReal => max (t + b (ix2 0 q)) 0) ?_
  refine Finset.sum_congr rfl fun k _ => ?_
  refine congrArg (fun t : EReal => t * h (ix2 k q)) ?_
  refine Arrays.apply_congr a ?_
  refine congrArg (fun r : Fin 10240 => ix2 r k) (Fin.ext ?_)
  show 512 * (d.val / 512) + d.val % 512 = d.val
  exact Nat.div_add_mod d.val 512

/-- After launch 2, entry `(d, q)` of the first 10000 rows of its output, for entry contents whose three operand arrays are
    `a`, `h`, `b`: row `d` of `a` contracted with column `q` of `h`, plus `b` at `q` — the block of 512 rows that
    holds row `d` is rows `512·(d / 512) …`, and `d` sits in it at `d mod 512`. -/
theorem rows2_apply (c : Dev nD) (a : Vec Ideal S10240x10240 .bf16) (h : Vec Ideal S10240x64 .bf16) (b : Vec Ideal S1x64 .f32)
    (ha : V c main_v47 = a) (hh : V c main_v68 = h) (hb : V c main_v69 = b) (d : Fin 10000) (q : Fin 64) :
    rows64 (F := Ideal) ((dat2 (F := Ideal) V c).arrAt 3 cfg2.N) (ix2 d q) = (∑ k : Fin 10240, a (ix2 (⟨d.val, by omega⟩ : Fin 10240) k) * h (ix2 k q)) + b (ix2 0 q) := by
  rw [Layout.rows64_apply, Arrays.array2_apply V c ⟨d.val, by omega⟩ q, ha, hh, hb, Blocks.out2_apply]
  refine congrArg (fun t : EReal => t + b (ix2 0 q)) ?_
  refine Finset.sum_congr rfl fun k _ => ?_
  refine congrArg (fun t : EReal => t * h (ix2 k q)) ?_
  refine Arrays.apply_congr a ?_
  refine congrArg (fun r : Fin 10240 => ix2 r k) (Fin.ext ?_)
  show 512 * (d.val / 512) + d.val % 512 = d.val
  exact Nat.div_add_mod d.val 512

end Cert.KernelIdeal.LayerValue

end
-- ==== Proof.LibEdgeIndexOps.lean ====
/-
  THREE STABLEHLO INDEX OPERATIONS READ AT AN INDEX, over natural-number extents.

  A gather of whole rows of a matrix (`rowGatherDims`, `rowGather_apply`): result row `e` is the operand's row at the
  start index of `e`, read signed and clamped into `[0, N − 1]`. A scatter of whole rows (`rowScatterDims`), a scatter of
  single points of a matrix (`pointScatterDims`) and a scatter of single points of a flat array (`flatScatterDims`): an
  update lands on an operand element exactly when its start index, read signed and NOT clamped, names that element (and,
  for rows, the columns agree). The three scatter statements all come from one general fact (`resultIdx?_eq_some_iff`):
  an update lands on `i` exactly when, on every operand axis, start plus window coordinate is `i`'s coordinate.
-/
import Idealize.ShloMosaic.Lib.ValueIdx
import Idealize.ShloMosaic.PureOps.Ideal

noncomputable section

namespace Idealize.ShloMosaic.EdgeIdx

open Idealize.ShloMosaic Idealize.ShloMosaic.ValueIdx

/-! ## A gather of rows: operand `[N, C]`, start indices `[E, 1]`, result `[E, C]`

What `x[idx]` of a matrix `x : [N, C]` at a column of row numbers lowers to: offset_dims `[1]`, collapsed_slice_dims
`[0]`, start_index_map `[0]`, slice_sizes `[1, C]`, index_vector_dim 1. Result element `(e, c)` is `x` at row
`idx[e, 0]` (read signed, clamped into `[0, N − 1]`) and column `c`. -/

section RowGather
variable {α : Type}

/-- The row gather's dimension numbers for an operand `[N, C]`, start indices `[E, 1]` and result `[E, C]`; their
    conditions `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at the row the start index `idx[e, 0]` names, read signed and clamped
    into `[0, N − 1]`, and at column `c`. On the row axis the slice has one row, so the clamp's upper end is `N − 1`, and
    that axis is collapsed (no offset); the column axis is not in the start index map (start `0`) and its offset is the
    result's column. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    unfold GatherDims.start
    rw [dif_neg (show (1 : Fin 2) ∉ (rowGatherDims N E C wf).startIndexMap from
      (by decide : (1 : Fin 2) ∉ ([0] : List (Fin 2))))]
    unfold GatherDims.offCoord
    rw [dif_pos (show (1 : Fin 2) ∈ (rowGatherDims N E C wf).sKept from (GatherDims.mem_sKept _ _).mpr
      ⟨(by decide : (1 : Fin 2) ∉ ([0] : List (Fin 2))), List.not_mem_nil⟩)]
    simp only [Nat.zero_add, Nat.add_zero]
    rfl

end RowGather

/-! ## Where a scatter's update lands, axis by axis -/

section General

/-- An update lands on the operand element `i` exactly when, on every operand axis, the start (read signed, not clamped)
    plus the window coordinate is `i`'s coordinate: then the sum is inside the operand on every axis, and it is `i`;
    and if the update is dropped, or lands elsewhere, some axis disagrees. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro heq a
      have h1 := congrArg (fun f => (f a).val) heq
      simp only at h1
      have h2 := h a
      omega
    · intro hall
      funext a
      refine Fin.ext ?_
      have h1 := hall a
      simp only
      omega
  · rename_i h
    constructor
    · intro h'
      exact absurd h' (by simp)
    · intro hall
      exfalso
      apply h
      intro a
      have h1 := hall a
      have h2 := (i a).isLt
      omega

end General

/-! ## A scatter of rows: operand `[N, C]`, scatter indices `[E, 1]`, updates `[E, C]`

What `x.at[idx].add(upd)` of a matrix at a column of row numbers lowers to: update_window_dims `[1]`,
inserted_window_dims `[0]`, scatter_dims_to_operand_dims `[0]`, index_vector_dim 1. -/

section RowScatter

/-- The row scatter's dimension numbers for an operand `[N, C]`, scatter indices `[E, 1]` and updates `[E, C]`; their
    conditions `wf` are decided on a program's literal shapes. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the row scatter's start is the scatter index `idx[e, 0]` read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx ⟨0, Nat.zero_lt_two⟩ = (idx (ix2 e ⟨0, Nat.one_pos⟩)).toInt := by
  unfold ScatterDims.start
  rw [dif_pos (show (⟨0, Nat.zero_lt_two⟩ : Fin 2) ∈ (rowScatterDims N E C wf).scatterDimsToOperandDims from
    List.mem_singleton.mpr rfl)]
  have hsi : (rowScatterDims N E C wf).siIdx (ix2 e c')
      ⟨List.idxOf (⟨0, Nat.zero_lt_two⟩ : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The column axis is not scattered: its start is `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx ⟨1, Nat.one_lt_two⟩ = 0 := by
  unfold ScatterDims.start
  rw [dif_neg (show (⟨1, Nat.one_lt_two⟩ : Fin 2) ∉ (rowScatterDims N E C wf).scatterDimsToOperandDims from
    (by decide : (⟨1, Nat.one_lt_two⟩ : Fin 2) ∉ ([0] : List (Fin 2))))]

/-- The row axis is an inserted window axis: its window coordinate is `0`. -/
theorem rowScatter_window0 {N E C : Nat} (wf : ScatterDims.WF ⟨2, ![N, C]⟩ ⟨2, ![E, 1]⟩ ⟨2, ![E, C]⟩ [1] [0] [0] 1)
    (e : Fin E) (c' : Fin C) : (rowScatterDims N E C wf).window (ix2 e c') ⟨0, Nat.zero_lt_two⟩ = 0 := by
  unfold ScatterDims.window
  rw [dif_neg (show (⟨0, Nat.zero_lt_two⟩ : Fin 2) ∉ (rowScatterDims N E C wf).sKept from
    (by decide : (⟨0, Nat.zero_lt_two⟩ : Fin 2) ∉ (List.finRange 2).filter (· ∉ ([0] : List (Fin 2)))))]

/-- On the column axis the window coordinate is the update's column. -/
theorem rowScatter_window1 {N E C : Nat} (wf : ScatterDims.WF ⟨2, ![N, C]⟩ ⟨2, ![E, 1]⟩ ⟨2, ![E, C]⟩ [1] [0] [0] 1)
    (e : Fin E) (c' : Fin C) : (rowScatterDims N E C wf).window (ix2 e c') ⟨1, Nat.one_lt_two⟩ = c'.val := by
  unfold ScatterDims.window
  rw [dif_pos (show (⟨1, Nat.one_lt_two⟩ : Fin 2) ∈ (rowScatterDims N E C wf).sKept from
    (by decide : (⟨1, Nat.one_lt_two⟩ : Fin 2) ∈ (List.finRange 2).filter (· ∉ ([0] : List (Fin 2)))))]
  rfl

/-- WHERE A ROW UPDATE LANDS: update `(e, c')` lands on `(d, c)` exactly when its scatter index `idx[e, 0]`, read signed
    and not clamped, is `d`, and the columns agree. -/
theorem rowScatter_resultIdx_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (d : Fin N) (c : Fin C) :
    (rowScatterDims N E C wf).resultIdx? (ix2 e c') idx = some (ix2 d c) ↔
      (idx (ix2 e ⟨0, Nat.one_pos⟩)).toInt = (d.val : Int) ∧ c' = c := by
  rw [resultIdx?_eq_some_iff]
  constructor
  · intro h
    have h0 : (rowScatterDims N E C wf).start (ix2 e c') idx ⟨0, Nat.zero_lt_two⟩
        + ((rowScatterDims N E C wf).window (ix2 e c') ⟨0, Nat.zero_lt_two⟩ : Int) = (d.val : Int) := h ⟨0, Nat.zero_lt_two⟩
    have h1 : (rowScatterDims N E C wf).start (ix2 e c') idx ⟨1, Nat.one_lt_two⟩
        + ((rowScatterDims N E C wf).window (ix2 e c') ⟨1, Nat.one_lt_two⟩ : Int) = (c.val : Int) := h ⟨1, Nat.one_lt_two⟩
    rw [rowScatter_start0, rowScatter_window0] at h0
    rw [rowScatter_start1, rowScatter_window1] at h1
    exact ⟨by omega, Fin.ext (by omega)⟩
  · rintro ⟨h0, rfl⟩ a
    match a with
    | ⟨0, _⟩ =>
      show (rowScatterDims N E C wf).start (ix2 e c') idx ⟨0, Nat.zero_lt_two⟩
        + ((rowScatterDims N E C wf).window (ix2 e c') ⟨0, Nat.zero_lt_two⟩ : Int) = (d.val : Int)
      rw [rowScatter_start0, rowScatter_window0]
      omega
    | ⟨1, _⟩ =>
      show (rowScatterDims N E C wf).start (ix2 e c') idx ⟨1, Nat.one_lt_two⟩
        + ((rowScatterDims N E C wf).window (ix2 e c') ⟨1, Nat.one_lt_two⟩ : Int) = (c'.val : Int)
      rw [rowScatter_start1, rowScatter_window1]
      omega

end RowScatter

/-! ## A scatter of points of a matrix: operand `[N, M]`, scatter indices `[E, 2]`, updates `[E]`

What `x.at[rows, cols].add(upd)` of a matrix at a list of (row, column) pairs lowers to: no update window axes, both
operand axes inserted, scatter_dims_to_operand_dims `[0, 1]`, index_vector_dim 1. -/

section PointScatter

/-- The point scatter's dimension numbers for an operand `[N, M]`, scatter indices `[E, 2]` and updates `[E]`; their
    conditions `wf` are decided on a program's literal shapes. -/
abbrev pointScatterDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- On the row axis the point scatter's start is the first component `idx[e, 0]` of the scatter index, read signed. -/
theorem pointScatter_start0 {N M E w : Nat} (wf : ScatterDims.WF ⟨2, ![N, M]⟩ ⟨2, ![E, 2]⟩ ⟨1, ![E]⟩ [] [0, 1] [0, 1] 1)
    (idx : IVec ⟨2, ![E, 2]⟩ w) (e : Fin E) :
    (pointScatterDims N M E wf).start (ix1 e) idx ⟨0, Nat.zero_lt_two⟩
      = (idx (ix2 e (⟨0, Nat.zero_lt_two⟩ : Fin 2))).toInt := by
  have hmem : (⟨0, Nat.zero_lt_two⟩ : Fin 2) ∈ (pointScatterDims N M E wf).scatterDimsToOperandDims :=
    (by decide : (⟨0, Nat.zero_lt_two⟩ : Fin 2) ∈ ([0, 1] : List (Fin 2)))
  unfold ScatterDims.start
  rw [dif_pos hmem]
  have hsi : (pointScatterDims N M E wf).siIdx (ix1 e)
      ⟨List.idxOf (⟨0, Nat.zero_lt_two⟩ : Fin 2) (pointScatterDims N M E wf).scatterDimsToOperandDims,
        List.idxOf_lt_length_iff.2 hmem⟩ = ix2 e (⟨0, Nat.zero_lt_two⟩ : Fin 2) := by
    funext b; refine Fin.ext ?_
    match b with
    | ⟨0, _⟩ => rfl
    | ⟨1, _⟩ => rfl
  rw [hsi]

/-- On the column axis the point scatter's start is the second component `idx[e, 1]`, read signed. -/
theorem pointScatter_start1 {N M E w : Nat} (wf : ScatterDims.WF ⟨2, ![N, M]⟩ ⟨2, ![E, 2]⟩ ⟨1, ![E]⟩ [] [0, 1] [0, 1] 1)
    (idx : IVec ⟨2, ![E, 2]⟩ w) (e : Fin E) :
    (pointScatterDims N M E wf).start (ix1 e) idx ⟨1, Nat.one_lt_two⟩
      = (idx (ix2 e (⟨1, Nat.one_lt_two⟩ : Fin 2))).toInt := by
  have hmem : (⟨1, Nat.one_lt_two⟩ : Fin 2) ∈ (pointScatterDims N M E wf).scatterDimsToOperandDims :=
    (by decide : (⟨1, Nat.one_lt_two⟩ : Fin 2) ∈ ([0, 1] : List (Fin 2)))
  unfold ScatterDims.start
  rw [dif_pos hmem]
  have hsi : (pointScatterDims N M E wf).siIdx (ix1 e)
      ⟨List.idxOf (⟨1, Nat.one_lt_two⟩ : Fin 2) (pointScatterDims N M E wf).scatterDimsToOperandDims,
        List.idxOf_lt_length_iff.2 hmem⟩ = ix2 e (⟨1, Nat.one_lt_two⟩ : Fin 2) := by
    funext b; refine Fin.ext ?_
    match b with
    | ⟨0, _⟩ => rfl
    | ⟨1, _⟩ => rfl
  rw [hsi]

/-- Both operand axes are inserted window axes: every window coordinate is `0`. -/
theorem pointScatter_window {N M E : Nat} (wf : ScatterDims.WF ⟨2, ![N, M]⟩ ⟨2, ![E, 2]⟩ ⟨1, ![E]⟩ [] [0, 1] [0, 1] 1)
    (e : Fin E) (a : Fin 2) : (pointScatterDims N M E wf).window (ix1 e) a = 0 := by
  unfold ScatterDims.window
  rw [dif_neg (show a ∉ (pointScatterDims N M E wf).sKept from
    (by revert a; decide : ∀ a : Fin 2, a ∉ (List.finRange 2).filter (· ∉ ([0, 1] : List (Fin 2)))) a)]

/-- WHERE A POINT UPDATE LANDS: update `e` lands on `(d, s)` exactly when its scatter index `(idx[e, 0], idx[e, 1])`,
    read signed and not clamped, is `(d, s)`. -/
theorem pointScatter_resultIdx_eq_some_iff {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) (d : Fin N) (s : Fin M) :
    (pointScatterDims N M E wf).resultIdx? (ix1 e) idx = some (ix2 d s) ↔
      (idx (ix2 e (⟨0, Nat.zero_lt_two⟩ : Fin 2))).toInt = (d.val : Int)
        ∧ (idx (ix2 e (⟨1, Nat.one_lt_two⟩ : Fin 2))).toInt = (s.val : Int) := by
  rw [resultIdx?_eq_some_iff]
  constructor
  · intro h
    have h0 : (pointScatterDims N M E wf).start (ix1 e) idx ⟨0, Nat.zero_lt_two⟩
        + ((pointScatterDims N M E wf).window (ix1 e) ⟨0, Nat.zero_lt_two⟩ : Int) = (d.val : Int) := h ⟨0, Nat.zero_lt_two⟩
    have h1 : (pointScatterDims N M E wf).start (ix1 e) idx ⟨1, Nat.one_lt_two⟩
        + ((pointScatterDims N M E wf).window (ix1 e) ⟨1, Nat.one_lt_two⟩ : Int) = (s.val : Int) := h ⟨1, Nat.one_lt_two⟩
    rw [pointScatter_start0, pointScatter_window] at h0
    rw [pointScatter_start1, pointScatter_window] at h1
    exact ⟨by omega, by omega⟩
  · rintro ⟨h0, h1⟩ a
    match a with
    | ⟨0, _⟩ =>
      show (pointScatterDims N M E wf).start (ix1 e) idx ⟨0, Nat.zero_lt_two⟩
        + ((pointScatterDims N M E wf).window (ix1 e) ⟨0, Nat.zero_lt_two⟩ : Int) = (d.val : Int)
      rw [pointScatter_start0, pointScatter_window]
      omega
    | ⟨1, _⟩ =>
      show (pointScatterDims N M E wf).start (ix1 e) idx ⟨1, Nat.one_lt_two⟩
        + ((pointScatterDims N M E wf).window (ix1 e) ⟨1, Nat.one_lt_two⟩ : Int) = (s.val : Int)
      rw [pointScatter_start1, pointScatter_window]
      omega

end PointScatter

/-! ## A scatter of points of a flat array: operand `[N]`, scatter indices `[E, 1]`, updates `[E]`

What `x.at[idx].add(upd)` of a flat array lowers to: no update window axes, the operand's one axis inserted,
scatter_dims_to_operand_dims `[0]`, index_vector_dim 1. -/

section FlatScatter

/-- The flat scatter's dimension numbers for an operand `[N]`, scatter indices `[E, 1]` and updates `[E]`; their
    conditions `wf` are decided on a program's literal shapes. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The flat scatter's start on the operand's one axis is the scatter index `idx[e, 0]` read signed. -/
theorem flatScatter_start {N E w : Nat} (wf : ScatterDims.WF ⟨1, ![N]⟩ ⟨2, ![E, 1]⟩ ⟨1, ![E]⟩ [] [0] [0] 1)
    (idx : IVec ⟨2, ![E, 1]⟩ w) (e : Fin E) :
    (flatScatterDims N E wf).start (ix1 e) idx ⟨0, Nat.one_pos⟩ = (idx (ix2 e ⟨0, Nat.one_pos⟩)).toInt := by
  unfold ScatterDims.start
  rw [dif_pos (show (⟨0, Nat.one_pos⟩ : Fin 1) ∈ (flatScatterDims N E wf).scatterDimsToOperandDims from
    List.mem_singleton.mpr rfl)]
  have hsi : (flatScatterDims N E wf).siIdx (ix1 e)
      ⟨List.idxOf (⟨0, Nat.one_pos⟩ : Fin 1) (flatScatterDims N E wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's one axis is an inserted window axis: its window coordinate is `0`. -/
theorem flatScatter_window {N E : Nat} (wf : ScatterDims.WF ⟨1, ![N]⟩ ⟨2, ![E, 1]⟩ ⟨1, ![E]⟩ [] [0] [0] 1)
    (e : Fin E) : (flatScatterDims N E wf).window (ix1 e) ⟨0, Nat.one_pos⟩ = 0 := by
  unfold ScatterDims.window
  rw [dif_neg (show (⟨0, Nat.one_pos⟩ : Fin 1) ∉ (flatScatterDims N E wf).sKept from
    (by decide : (⟨0, Nat.one_pos⟩ : Fin 1) ∉ (List.finRange 1).filter (· ∉ ([0] : List (Fin 1)))))]

/-- WHERE A FLAT UPDATE LANDS: update `e` lands on element `d` exactly when its scatter index `idx[e, 0]`, read signed
    and not clamped, is `d`. -/
theorem flatScatter_resultIdx_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (d : Fin N) :
    (flatScatterDims N E wf).resultIdx? (ix1 e) idx = some (ix1 d) ↔
      (idx (ix2 e ⟨0, Nat.one_pos⟩)).toInt = (d.val : Int) := by
  rw [resultIdx?_eq_some_iff]
  constructor
  · intro h
    have h0 : (flatScatterDims N E wf).start (ix1 e) idx ⟨0, Nat.one_pos⟩
        + ((flatScatterDims N E wf).window (ix1 e) ⟨0, Nat.one_pos⟩ : Int) = (d.val : Int) := h ⟨0, Nat.one_pos⟩
    rw [flatScatter_start, flatScatter_window] at h0
    omega
  · intro h0 a
    match a with
    | ⟨0, _⟩ =>
      show (flatScatterDims N E wf).start (ix1 e) idx ⟨0, Nat.one_pos⟩
        + ((flatScatterDims N E wf).window (ix1 e) ⟨0, Nat.one_pos⟩ : Int) = (d.val : Int)
      rw [flatScatter_start, flatScatter_window]
      omega

end FlatScatter

end Idealize.ShloMosaic.EdgeIdx

end
-- ==== Proof.ReferenceLayer.lean ====
/-
  THE REFERENCE'S AGGREGATION, ENTRY BY ENTRY. One aggregation of the reference gathers the rows of the features at the
  edges' sources, scales row e by the edge weight, adds the rows up at the edges' destinations starting from zero, and
  adds the bias. Read at (d, c): an update (e, c') lands on (d, c) exactly when the destination of e, read signed, is d
  and c' = c, so the sum over the updates is the sum over the edges e into d of the update's entry (e, c); that entry is
  the features at (source of e, c) times the weight of e, the source being in range (the gather's clamp and the shift of
  negative indices do nothing on an index in [0, 10000)).
-/
import proofs.«129397_j61830349193499_1_alg».proof.Proof.ReferenceSpec
import proofs.«129397_j61830349193499_1_alg».proof.Proof.LibEdgeIndexOps
import Idealize.ShloMosaic.Lib.ValueIdx
import Idealize.ShloMosaic.Lib.Pipeline.Value
import Idealize.ShloMosaic.Lib.Affine
import Idealize.ShloMosaic.PureOps.Ideal
import Idealize.ShloMosaic.PureOps.Ideal.Laws

noncomputable section

namespace Cert.ReferenceIdeal.Layer

open Cert.ReferenceIdeal Cert.ReferenceIdeal.Gen Cert.ReferenceIdeal.Spec
open Idealize.ShloMosaic Idealize.ShloMosaic.ValueIdx Idealize.ShloMosaic.EdgeIdx
open scoped BigOperators

/-! ## General readings -/

section General
variable {α : Type}

/-- A vector of N entries copied into the one column of an N×1 matrix. -/
theorem column_apply {N : Nat} (v : (⟨1, ![N]⟩ : Shape).Idx → α) (hN : N ≠ 1)
    (h : (⟨1, ![N]⟩ : Shape).BroadcastsInDim ⟨2, ![N, 1]⟩ ![0]) (e : Fin N) (z : Fin 1) :
    broadcastInDim ⟨2, ![N, 1]⟩ ![0] h v (ix2 e z) = v (ix1 e) := by
  refine broadcastInDim_apply _ h v _ (ix1 e) fun a => ?_
  match a with
  | ⟨0, _⟩ =>
    show e.val = if N = 1 then 0 else e.val
    rw [if_neg hN]

/-- An N×1 column copied into every one of C columns. -/
theorem spread_column_apply {N C : Nat} (v : (⟨2, ![N, 1]⟩ : Shape).Idx → α) (hN : N ≠ 1)
    (h : (⟨2, ![N, 1]⟩ : Shape).BroadcastsInDim ⟨2, ![N, C]⟩ ![0, 1]) (e : Fin N) (c : Fin C) :
    broadcastInDim ⟨2, ![N, C]⟩ ![0, 1] h v (ix2 e c) = v (ix2 e 0) := by
  refine broadcastInDim_apply _ h v _ (ix2 e 0) fun a => ?_
  match a with
  | ⟨0, _⟩ =>
    show e.val = if N = 1 then 0 else e.val
    rw [if_neg hN]
  | ⟨1, _⟩ => rfl

/-- A vector of C entries as a 1×C row. -/
theorem row_apply {C : Nat} (v : (⟨1, ![C]⟩ : Shape).Idx → α) (hC : C ≠ 1)
    (h : (⟨1, ![C]⟩ : Shape).BroadcastsInDim ⟨2, ![1, C]⟩ ![1]) (z : Fin 1) (c : Fin C) :
    broadcastInDim ⟨2, ![1, C]⟩ ![1] h v (ix2 z c) = v (ix1 c) := by
  refine broadcastInDim_apply _ h v _ (ix1 c) fun a => ?_
  match a with
  | ⟨0, _⟩ =>
    show c.val = if C = 1 then 0 else c.val
    rw [if_neg hC]

/-- A 1×C row copied into every one of N rows. -/
theorem spread_row_apply {N C : Nat} (v : (⟨2, ![1, C]⟩ : Shape).Idx → α) (hC : C ≠ 1)
    (h : (⟨2, ![1, C]⟩ : Shape).BroadcastsInDim ⟨2, ![N, C]⟩ ![0, 1]) (d : Fin N) (c : Fin C) :
    broadcastInDim ⟨2, ![N, C]⟩ ![0, 1] h v (ix2 d c) = v (ix2 0 c) := by
  refine broadcastInDim_apply _ h v _ (ix2 0 c) fun a => ?_
  match a with
  | ⟨0, _⟩ => rfl
  | ⟨1, _⟩ =>
    show c.val = if C = 1 then 0 else c.val
    rw [if_neg hC]

/-- A row gather whose start index at e, read signed, is the row number r: the clamp does nothing. -/
theorem rowGather_apply_of_eq {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) (r : Fin N)
    (hr : (idx (ix2 e ⟨0, Nat.one_pos⟩)).toInt = (r.val : Int)) :
    Host.gather (rowGatherDims N E C wf) x idx (ix2 e c) = x (ix2 r c) := by
  rw [rowGather_apply (Nat.lt_of_le_of_lt (Nat.zero_le _) r.isLt) wf]
  refine congrArg (fun q => x (ix2 q c)) (Fin.ext ?_)
  show min (idx (ix2 e ⟨0, Nat.one_pos⟩)).toInt.toNat (N - 1) = r.val
  have := r.isLt
  omega

end General

/-- A scatter-add of rows at the ideal values, read at (d, c): the operand there plus the sum, over the updates' rows e
    whose scatter index read signed is d, of the update's entry (e, c). -/
theorem rowScatterAdd_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (d : Fin N) (c : Fin C) :
    Host.scatterAdd (rowScatterDims N E C wf) x idx upd (ix2 d c)
      = x (ix2 d c) + ∑ e ∈ Finset.univ.filter (fun e : Fin E => (idx (ix2 e ⟨0, Nat.one_pos⟩)).toInt = (d.val : Int)),
          upd (ix2 e c) := by
  change Ideal.hostScatterAdd (rowScatterDims N E C wf) x idx upd (ix2 d c) = _
  unfold Ideal.hostScatterAdd
  refine congrArg (x (ix2 d c) + ·) ?_
  rw [Finset.sum_filter, sum_idx2, Finset.sum_filter]
  refine Finset.sum_congr rfl fun e _ => ?_
  by_cases hq : (idx (ix2 e ⟨0, Nat.one_pos⟩)).toInt = (d.val : Int)
  · rw [if_pos hq, Finset.sum_eq_single c]
    · rw [if_pos ((rowScatter_resultIdx_eq_some_iff wf idx e c d c).2 ⟨hq, rfl⟩)]
    · intro c' _ hne
      exact if_neg fun h => hne ((rowScatter_resultIdx_eq_some_iff wf idx e c' d c).1 h).2
    · intro h
      exact absurd (Finset.mem_univ c) h
  · rw [if_neg hq]
    exact Finset.sum_eq_zero fun c' _ => if_neg fun h => hq ((rowScatter_resultIdx_eq_some_iff wf idx e c' d c).1 h).1

/-! ## The reference's arrays -/

/-- The shift of negative node indices does nothing on a non-negative index. -/
theorem wrap_of_nonneg (v : IVec S650000 32) (i : S650000.Idx) (h : 0 ≤ (v i).toInt) : wrap v i = v i := by
  unfold wrap
  rw [select_apply]
  have hc : cmpi .slt v (broadcastInDim S650000 ![] bcast_S_S650000 (constantI S_ 32 0#32)) i = 0#1 := by
    refine eq_zero_of_ne_one fun h1 => ?_
    have h2 : (v i).toInt < (0#32 : BitVec 32).toInt := IntOp.cmpi_slt.1 h1
    rw [show (0#32 : BitVec 32).toInt = 0 from by decide] at h2
    omega
  rw [hc, select_zero]

theorem agg128_apply (ei : IVec S2x640000 32) (H : FVec Ideal S10000x128 .f32) (bias : FVec Ideal S128 .f32)
    (hd : ∀ e : Fin 650000, 0 ≤ (dstIdx ei (ix1 e)).toInt)
    (hs : ∀ e : Fin 650000, 0 ≤ (srcIdx ei (ix1 e)).toInt ∧ (srcIdx ei (ix1 e)).toInt < 10000)
    (d : Fin 10000) (c : Fin 128) :
    agg128 (F := Ideal) ei H bias (ix2 d c)
      = ((0 : EReal) + ∑ e ∈ Finset.univ.filter (fun e : Fin 650000 => (dstIdx ei (ix1 e)).toInt.toNat = d.val),
          H (ix2 ⟨(srcIdx ei (ix1 e)).toInt.toNat, by have := hs e; omega⟩ c) * norm (F := Ideal) ei (ix1 e))
        + bias (ix1 c) := by
  unfold agg128
  rw [addf_apply]
  have key : ∀ (X : FVec Ideal S10000x128 .f32) (I : IVec S650000x1 32) (U : FVec Ideal S650000x128 .f32),
      Host.scatterAdd scatter_S10000x128_S650000x1_S650000x128_1_0_0_1 X I U (ix2 d c)
        = X (ix2 d c) + ∑ e ∈ Finset.univ.filter (fun e : Fin 650000 => (I (ix2 e ⟨0, Nat.one_pos⟩)).toInt = (d.val : Int)),
            U (ix2 e c) :=
    fun X I U => rowScatterAdd_apply scatter_S10000x128_S650000x1_S650000x128_1_0_0_1.wf X I U d c
  rw [key]
  rw [spread_row_apply _ (by decide), row_apply _ (by decide)]
  refine congrArg (· + bias (ix1 c)) ?_
  refine congrArg₂ (· + ·) Ideal.ofBits_zero_f32 ?_
  have hfil : (Finset.univ.filter fun e : Fin 650000 =>
        (broadcastInDim S650000x1 ![0] bcast_S650000_S650000x1_0 (dstIdx ei) (ix2 e ⟨0, Nat.one_pos⟩)).toInt = (d.val : Int))
      = Finset.univ.filter fun e : Fin 650000 => (dstIdx ei (ix1 e)).toInt.toNat = d.val := by
    refine Finset.filter_congr fun e _ => ?_
    rw [column_apply _ (by decide)]
    have := hd e
    omega
  rw [hfil]
  refine Finset.sum_congr rfl fun e _ => ?_
  rw [mulf_apply, spread_column_apply _ (by decide), column_apply _ (by decide)]
  refine congrArg (· * norm (F := Ideal) ei (ix1 e)) ?_
  refine rowGather_apply_of_eq gather_S10000x128_S650000x1_S650000x128_1_0_n_n_0_1_1128.wf H _ e c _ ?_
  rw [column_apply _ (by decide), wrap_of_nonneg _ _ (hs e).1]
  show (srcIdx ei (ix1 e)).toInt = (((srcIdx ei (ix1 e)).toInt.toNat : Nat) : Int)
  have := (hs e).1
  omega

theorem agg64_apply (ei : IVec S2x640000 32) (H : FVec Ideal S10000x64 .f32) (bias : FVec Ideal S64 .f32)
    (hd : ∀ e : Fin 650000, 0 ≤ (dstIdx ei (ix1 e)).toInt)
    (hs : ∀ e : Fin 650000, 0 ≤ (srcIdx ei (ix1 e)).toInt ∧ (srcIdx ei (ix1 e)).toInt < 10000)
    (d : Fin 10000) (c : Fin 64) :
    agg64 (F := Ideal) ei H bias (ix2 d c)
      = ((0 : EReal) + ∑ e ∈ Finset.univ.filter (fun e : Fin 650000 => (dstIdx ei (ix1 e)).toInt.toNat = d.val),
          H (ix2 ⟨(srcIdx ei (ix1 e)).toInt.toNat, by have := hs e; omega⟩ c) * norm (F := Ideal) ei (ix1 e))
        + bias (ix1 c) := by
  unfold agg64
  rw [addf_apply]
  have key : ∀ (X : FVec Ideal S10000x64 .f32) (I : IVec S650000x1 32) (U : FVec Ideal S650000x64 .f32),
      Host.scatterAdd scatter_S10000x64_S650000x1_S650000x64_1_0_0_1 X I U (ix2 d c)
        = X (ix2 d c) + ∑ e ∈ Finset.univ.filter (fun e : Fin 650000 => (I (ix2 e ⟨0, Nat.one_pos⟩)).toInt = (d.val : Int)),
            U (ix2 e c) :=
    fun X I U => rowScatterAdd_apply scatter_S10000x64_S650000x1_S650000x64_1_0_0_1.wf X I U d c
  rw [key]
  rw [spread_row_apply _ (by decide), row_apply _ (by decide)]
  refine congrArg (· + bias (ix1 c)) ?_
  refine congrArg₂ (· + ·) Ideal.ofBits_zero_f32 ?_
  have hfil : (Finset.univ.filter fun e : Fin 650000 =>
        (broadcastInDim S650000x1 ![0] bcast_S650000_S650000x1_0 (dstIdx ei) (ix2 e ⟨0, Nat.one_pos⟩)).toInt = (d.val : Int))
      = Finset.univ.filter fun e : Fin 650000 => (dstIdx ei (ix1 e)).toInt.toNat = d.val := by
    refine Finset.filter_congr fun e _ => ?_
    rw [column_apply _ (by decide)]
    have := hd e
    omega
  rw [hfil]
  refine Finset.sum_congr rfl fun e _ => ?_
  rw [mulf_apply, spread_column_apply _ (by decide), column_apply _ (by decide)]
  refine congrArg (· * norm (F := Ideal) ei (ix1 e)) ?_
  refine rowGather_apply_of_eq gather_S10000x64_S650000x1_S650000x64_1_0_n_n_0_1_164.wf H _ e c _ ?_
  rw [column_apply _ (by decide), wrap_of_nonneg _ _ (hs e).1]
  show (srcIdx ei (ix1 e)).toInt = (((srcIdx ei (ix1 e)).toInt.toNat : Nat) : Int)
  have := (hs e).1
  omega

end Cert.ReferenceIdeal.Layer

end
-- ==== Proof.LibAggregationLaw.lean ====
import Mathlib.Data.EReal.Operations
import Mathlib.Algebra.BigOperators.Group.Finset.Basic
import Mathlib.Algebra.BigOperators.Ring.Finset

/-!
# Dense aggregation equals gather–scale–scatter, over the extended reals

For a finite set of weighted edges `e` with destination `dst e`, source `src e` and real
weight `ν e`, the dense matrix `A` with entries `A d s = ∑ {e | dst e = d ∧ src e = s}, ν e`
applied to a real feature column `hp` gives, in row `d`,
`∑ s, A d s * hp s = ∑ {e | dst e = d}, hp (src e) * ν e`.

On the extended reals multiplication does not distribute over sums at the infinities, so the
law is proved in `ℝ` and transported along the coercion `ℝ → EReal`, which preserves zero,
sums and products of real numbers.
-/

namespace Idealize.ShloMosaic.AggregationLaw

open Finset

/-- The coercion `ℝ → EReal` commutes with finite sums:
`↑(∑ i ∈ t, g i) = ∑ i ∈ t, ↑(g i)`. -/
theorem coe_finset_sum {ι : Type*} (t : Finset ι) (g : ι → ℝ) :
    ((∑ i ∈ t, g i : ℝ) : EReal) = ∑ i ∈ t, ((g i : ℝ) : EReal) := by
  classical
  induction t using Finset.induction_on with
  | empty => simp
  | insert a s ha ih => rw [Finset.sum_insert ha, Finset.sum_insert ha, EReal.coe_add, ih]

/-- The coercion `ℝ → EReal` commutes with binary maxima: `↑(max x y) = max ↑x ↑y`. -/
theorem coe_max (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

/-- The aggregation law over `ℝ`. Row `d` of the dense matrix whose entry `(d, s)` is the sum
of the weights of the edges from `s` to `d`, contracted with the column `hp`, equals the sum over
the edges into `d` of the source's feature times the edge's weight: distribute `hp s` into the
inner sum, replace `hp s` by `hp (src e)` on the fibre `src e = s`, and regroup the edges into
`d` by their source. -/
theorem real_dense_eq_scatter {E S : Type*} [Fintype E] [Fintype S] [DecidableEq S]
    (dst : E → ℕ) (src : E → S) (ν : E → ℝ) (hp : S → ℝ) (d : ℕ) :
    ∑ s : S, (∑ e ∈ Finset.univ.filter (fun e => dst e = d ∧ src e = s), ν e) * hp s
      = ∑ e ∈ Finset.univ.filter (fun e => dst e = d), hp (src e) * ν e := by
  have h1 : ∀ s : S,
      (∑ e ∈ Finset.univ.filter (fun e => dst e = d ∧ src e = s), ν e) * hp s
        = ∑ e ∈ (Finset.univ.filter (fun e => dst e = d)).filter (fun e => src e = s),
            hp (src e) * ν e := by
    intro s
    rw [Finset.sum_mul, Finset.filter_filter]
    refine Finset.sum_congr rfl ?_
    intro e he
    rw [(Finset.mem_filter.1 he).2.2, mul_comm]
  simp_rw [h1]
  exact Finset.sum_fiberwise _ _ _

/-- The aggregation law over `EReal` for real data. With `ν` and `hp` real-valued, every term
on both sides is the coercion of a real number, so both sides are coercions of the two sides of
`real_dense_eq_scatter`; the leading `0 +` terms are absorbed by `zero_add`. -/
theorem dense_eq_scatter {E S : Type*} [Fintype E] [Fintype S] [DecidableEq S]
    (dst : E → ℕ) (src : E → S) (ν : E → ℝ) (hp : S → ℝ) (d : ℕ) :
    ∑ s : S, ((0 : EReal) + ∑ e ∈ Finset.univ.filter (fun e => dst e = d ∧ src e = s),
        ((ν e : ℝ) : EReal)) * ((hp s : ℝ) : EReal)
      = (0 : EReal) + ∑ e ∈ Finset.univ.filter (fun e => dst e = d),
          ((hp (src e) : ℝ) : EReal) * ((ν e : ℝ) : EReal) := by
  simp only [zero_add, ← coe_finset_sum, ← EReal.coe_mul]
  exact congrArg _ (real_dense_eq_scatter dst src ν hp d)

/-- The aggregation law over `EReal` for extended-real-valued data that are pointwise real:
choose the real witnesses, rewrite both functions as coercions, and apply `dense_eq_scatter`. -/
theorem dense_eq_scatter_of_real {E S : Type*} [Fintype E] [Fintype S] [DecidableEq S]
    (dst : E → ℕ) (src : E → S) (n : E → EReal) (h : S → EReal)
    (hn : ∀ e, ∃ r : ℝ, n e = (r : EReal)) (hh : ∀ s, ∃ r : ℝ, h s = (r : EReal)) (d : ℕ) :
    ∑ s : S, ((0 : EReal) + ∑ e ∈ Finset.univ.filter (fun e => dst e = d ∧ src e = s), n e) * h s
      = (0 : EReal) + ∑ e ∈ Finset.univ.filter (fun e => dst e = d), h (src e) * n e := by
  choose ν hν using hn
  choose hp hhp using hh
  obtain rfl : n = fun e => ((ν e : ℝ) : EReal) := funext hν
  obtain rfl : h = fun s => ((hp s : ℝ) : EReal) := funext hhp
  exact dense_eq_scatter dst src ν hp d

/-- The sum of two real extended reals is real. -/
theorem real_add {a b : EReal} (ha : ∃ r : ℝ, a = r) (hb : ∃ r : ℝ, b = r) :
    ∃ r : ℝ, a + b = r := by
  obtain ⟨x, rfl⟩ := ha
  obtain ⟨y, rfl⟩ := hb
  exact ⟨x + y, (EReal.coe_add x y).symm⟩

/-- The product of two real extended reals is real. -/
theorem real_mul {a b : EReal} (ha : ∃ r : ℝ, a = r) (hb : ∃ r : ℝ, b = r) :
    ∃ r : ℝ, a * b = r := by
  obtain ⟨x, rfl⟩ := ha
  obtain ⟨y, rfl⟩ := hb
  exact ⟨x * y, (EReal.coe_mul x y).symm⟩

/-- The maximum of two real extended reals is real. -/
theorem real_max {a b : EReal} (ha : ∃ r : ℝ, a = r) (hb : ∃ r : ℝ, b = r) :
    ∃ r : ℝ, max a b = r := by
  obtain ⟨x, rfl⟩ := ha
  obtain ⟨y, rfl⟩ := hb
  exact ⟨max x y, (coe_max x y).symm⟩

/-- A finite sum of real extended reals is real (induction on the index set, using `real_add`). -/
theorem real_sum {ι : Type*} (t : Finset ι) (f : ι → EReal)
    (hf : ∀ i ∈ t, ∃ r : ℝ, f i = (r : EReal)) : ∃ r : ℝ, ∑ i ∈ t, f i = (r : EReal) := by
  classical
  induction t using Finset.induction_on with
  | empty => exact ⟨0, by simp⟩
  | insert a s ha ih =>
    rw [Finset.sum_insert ha]
    exact real_add (hf a (Finset.mem_insert_self a s))
      (ih fun i hi => hf i (Finset.mem_insert_of_mem hi))

end Idealize.ShloMosaic.AggregationLaw
-- ==== Proof.EdgeFacts.lean ====
/-
  Facts about the edge arrays of the idealized kernel's host computation, for an edge list whose entries are node
  numbers in `[0, 10000)`: the source and destination of every edge (the edge list's rows followed by the self loops) are
  again node numbers in that range; on such numbers the "negative index" correction is the identity; and every edge weight is
  a real number, whatever the edge list.
-/
import proofs.«129397_j61830349193499_1_alg».proof.Proof.KernelSpec
import proofs.«129397_j61830349193499_1_alg».proof.Proof.LibAggregationLaw
import Idealize.ShloMosaic.Lib.ValueIdx
import Idealize.ShloMosaic.Lib.ValueLayout
import Idealize.ShloMosaic.Lib.IdealHost
import Idealize.ShloMosaic.Lib.DynamicIndex
import Idealize.ShloMosaic.Lib.Pipeline.Value
import Idealize.ShloMosaic.PureOps.Ideal

noncomputable section

namespace Cert.KernelIdeal.EdgeFacts

open Cert.KernelIdeal Cert.KernelIdeal.Gen Cert.KernelIdeal.Spec Idealize.ShloMosaic Idealize.ShloMosaic.ValueIdx
open Idealize.ShloMosaic.AggregationLaw

/-! ## The two ends of an edge -/

/-- Row `r` of the edge list followed by the numbers `0, …, 9999` (the common form of the source and destination
    arrays), read at a position `e` below 640000: entry `(r, e)` of the edge list. -/
theorem rowThenIota_apply_lt (ei : IVec S2x640000 32) (r : Fin 2)
    (hs : S2x640000.Slices ![r.val, 0] S1x640000) (e : Fin 650000) (h : e.val < 640000) :
    concatenate S650000 0 [⟨S640000, shapeCast _ (extractStridedSlice S1x640000 ![r.val, 0] ei hs) shapeCasts_S1x640000_S640000⟩,
      ⟨S10000, iotaInDim S10000 32 0⟩] concatenates_S640000_S10000_S650000_d0 (ix1 e) = ei (ix2 r ⟨e.val, h⟩) := by
  rw [concatenate_pair_apply_left (t := S650000) (s₁ := S640000) (s₂ := S10000) (0 : Fin 1) _ _ _ (ix1 e) (by rfl)
    (ix1 (⟨e.val, h⟩ : Fin 640000)) (fun b => by match b with | ⟨0, _⟩ => rfl)]
  rw [shapeCast_1a_a_apply]
  exact slice2_axis0_apply r.val ei hs (0 : Fin 1) ⟨e.val, h⟩ r (by simp)

/-- The same array read at a position `e` from 640000 on: the number `e − 640000`, as a 32-bit word. -/
theorem rowThenIota_apply_ge (ei : IVec S2x640000 32) (r : Fin 2)
    (hs : S2x640000.Slices ![r.val, 0] S1x640000) (e : Fin 650000) (h : 640000 ≤ e.val) :
    concatenate S650000 0 [⟨S640000, shapeCast _ (extractStridedSlice S1x640000 ![r.val, 0] ei hs) shapeCasts_S1x640000_S640000⟩,
      ⟨S10000, iotaInDim S10000 32 0⟩] concatenates_S640000_S10000_S650000_d0 (ix1 e) = BitVec.ofNat 32 (e.val - 640000) := by
  have hlt : e.val - 640000 < 10000 := by have := e.isLt; omega
  rw [concatenate_pair_apply_right (t := S650000) (s₁ := S640000) (s₂ := S10000) (0 : Fin 1) _ _ _ (ix1 e) (by rfl) (by rfl)
    (ix1 (⟨e.val - 640000, hlt⟩ : Fin 10000))
    (fun b hb => (hb (Subsingleton.elim (α := Fin 1) _ _)).elim)
    (by show e.val - 640000 + 640000 = e.val; omega)]
  rfl

/-- Every entry of such an array is a node number in `[0, 10000)`, read signed, when every entry of the edge list is:
    an entry below position 640000 is an entry of the edge list, a later one is a number below 10000. -/
theorem rowThenIota_range (ei : IVec S2x640000 32) (hr : ∀ i, 0 ≤ (ei i).toInt ∧ (ei i).toInt < 10000) (r : Fin 2)
    (hs : S2x640000.Slices ![r.val, 0] S1x640000) (e : Fin 650000) :
    0 ≤ (concatenate S650000 0 [⟨S640000, shapeCast _ (extractStridedSlice S1x640000 ![r.val, 0] ei hs) shapeCasts_S1x640000_S640000⟩,
      ⟨S10000, iotaInDim S10000 32 0⟩] concatenates_S640000_S10000_S650000_d0 (ix1 e)).toInt ∧
    (concatenate S650000 0 [⟨S640000, shapeCast _ (extractStridedSlice S1x640000 ![r.val, 0] ei hs) shapeCasts_S1x640000_S640000⟩,
      ⟨S10000, iotaInDim S10000 32 0⟩] concatenates_S640000_S10000_S650000_d0 (ix1 e)).toInt < 10000 := by
  rcases Nat.lt_or_ge e.val 640000 with h | h
  · rw [rowThenIota_apply_lt ei r hs e h]; exact hr _
  · rw [rowThenIota_apply_ge ei r hs e h]
    have hlt : e.val - 640000 < 10000 := by have := e.isLt; omega
    have h31 : e.val - 640000 < 2 ^ 31 := lt_trans hlt (by norm_num)
    rw [toInt_ofNat_of_lt h31]
    omega

/-- The source of edge `e`, for `e` below 640000: entry `(0, e)` of the edge list. -/
theorem srcIdx_apply_lt (ei : IVec S2x640000 32) (e : Fin 650000) (h : e.val < 640000) :
    srcIdx ei (ix1 e) = ei (ix2 (0 : Fin 2) ⟨e.val, h⟩) :=
  rowThenIota_apply_lt ei 0 slices_S2x640000_S1x640000_0_0 e h

/-- The source of edge `e`, for `e` from 640000 on (a self loop): the node `e − 640000`. -/
theorem srcIdx_apply_ge (ei : IVec S2x640000 32) (e : Fin 650000) (h : 640000 ≤ e.val) :
    srcIdx ei (ix1 e) = BitVec.ofNat 32 (e.val - 640000) :=
  rowThenIota_apply_ge ei 0 slices_S2x640000_S1x640000_0_0 e h

/-- The destination of edge `e`, for `e` below 640000: entry `(1, e)` of the edge list. -/
theorem dstIdx_apply_lt (ei : IVec S2x640000 32) (e : Fin 650000) (h : e.val < 640000) :
    dstIdx ei (ix1 e) = ei (ix2 (1 : Fin 2) ⟨e.val, h⟩) :=
  rowThenIota_apply_lt ei 1 slices_S2x640000_S1x640000_1_0 e h

/-- The destination of edge `e`, for `e` from 640000 on (a self loop): the node `e − 640000`. -/
theorem dstIdx_apply_ge (ei : IVec S2x640000 32) (e : Fin 650000) (h : 640000 ≤ e.val) :
    dstIdx ei (ix1 e) = BitVec.ofNat 32 (e.val - 640000) :=
  rowThenIota_apply_ge ei 1 slices_S2x640000_S1x640000_1_0 e h

/-- Every edge's source is a node number in `[0, 10000)`. -/
theorem src_range (ei : IVec S2x640000 32) (hr : ∀ i, 0 ≤ (ei i).toInt ∧ (ei i).toInt < 10000) :
    ∀ e : Fin 650000, 0 ≤ (srcIdx ei (ix1 e)).toInt ∧ (srcIdx ei (ix1 e)).toInt < 10000 :=
  fun e => rowThenIota_range ei hr 0 slices_S2x640000_S1x640000_0_0 e

/-- Every edge's destination is a node number in `[0, 10000)`. -/
theorem dst_range (ei : IVec S2x640000 32) (hr : ∀ i, 0 ≤ (ei i).toInt ∧ (ei i).toInt < 10000) :
    ∀ e : Fin 650000, 0 ≤ (dstIdx ei (ix1 e)).toInt ∧ (dstIdx ei (ix1 e)).toInt < 10000 :=
  fun e => rowThenIota_range ei hr 1 slices_S2x640000_S1x640000_1_0 e

/-- `src_range` at an index not written by its coordinate. -/
theorem src_range_idx (ei : IVec S2x640000 32) (hr : ∀ i, 0 ≤ (ei i).toInt ∧ (ei i).toInt < 10000) (i : S650000.Idx) :
    0 ≤ (srcIdx ei i).toInt ∧ (srcIdx ei i).toInt < 10000 := by
  obtain ⟨e, rfl⟩ : ∃ e : Fin 650000, i = ix1 e := ⟨i 0, eq_ix1 i⟩
  exact src_range ei hr e

/-- `dst_range` at an index not written by its coordinate. -/
theorem dst_range_idx (ei : IVec S2x640000 32) (hr : ∀ i, 0 ≤ (ei i).toInt ∧ (ei i).toInt < 10000) (i : S650000.Idx) :
    0 ≤ (dstIdx ei i).toInt ∧ (dstIdx ei i).toInt < 10000 := by
  obtain ⟨e, rfl⟩ : ∃ e : Fin 650000, i = ix1 e := ⟨i 0, eq_ix1 i⟩
  exact dst_range ei hr e

/-! ## The negative-index correction on a non-negative index -/

/-- At an entry that is not negative, read signed, `wrap` returns the entry. -/
theorem wrap_eq (v : IVec S650000 32) (i : S650000.Idx) (h : 0 ≤ (v i).toInt) : wrap v i = v i := by
  unfold wrap
  exact select_slt_zero_of_nonneg v _ v i h

/-- At an entry that is not negative, read signed, `wrapPad` returns the entry. -/
theorem wrapPad_eq (v : IVec S650000 32) (i : S650000.Idx) (h : 0 ≤ (v i).toInt) : wrapPad v i = v i := by
  unfold wrapPad
  exact select_slt_zero_of_nonneg v _ v i h

/-- On the sources of an edge list of node numbers, `wrap` is the identity. -/
theorem wrap_srcIdx (ei : IVec S2x640000 32) (hr : ∀ i, 0 ≤ (ei i).toInt ∧ (ei i).toInt < 10000) :
    wrap (srcIdx ei) = srcIdx ei := funext fun i => wrap_eq _ i (src_range_idx ei hr i).1

/-- On the destinations of an edge list of node numbers, `wrap` is the identity. -/
theorem wrap_dstIdx (ei : IVec S2x640000 32) (hr : ∀ i, 0 ≤ (ei i).toInt ∧ (ei i).toInt < 10000) :
    wrap (dstIdx ei) = dstIdx ei := funext fun i => wrap_eq _ i (dst_range_idx ei hr i).1

/-- On the sources of an edge list of node numbers, `wrapPad` is the identity. -/
theorem wrapPad_srcIdx (ei : IVec S2x640000 32) (hr : ∀ i, 0 ≤ (ei i).toInt ∧ (ei i).toInt < 10000) :
    wrapPad (srcIdx ei) = srcIdx ei := funext fun i => wrapPad_eq _ i (src_range_idx ei hr i).1

/-- On the destinations of an edge list of node numbers, `wrapPad` is the identity. -/
theorem wrapPad_dstIdx (ei : IVec S2x640000 32) (hr : ∀ i, 0 ≤ (ei i).toInt ∧ (ei i).toInt < 10000) :
    wrapPad (dstIdx ei) = dstIdx ei := funext fun i => wrapPad_eq _ i (dst_range_idx ei hr i).1

/-! ## The edge weights are real numbers -/

/-- The f32 pattern `0x2B8CBCCC` denotes the positive real `9223372 · 2⁻⁶³` (about `10⁻¹²`): sign 0, exponent field 87,
    significand field 834764, so `(2²³ + 834764) · 2^(87 − 127 − 23)`. -/
theorem eps_eq : Ideal.ofBits .f32 0x2B8CBCCC#32 = (((9223372 : ℝ) * (2 : ℝ) ^ (-63 : ℤ) : ℝ) : EReal) := by
  simp [Ideal.ofBits, Ideal.ieee]

/-- The reciprocal square root of an extended real that is at least a positive real `ε` is a real number: at `⊤` it is
    `0`, and at a real `r ≥ ε > 0` it is `(√r)⁻¹`. -/
theorem rsqrt_real_of_pos_le {ε : ℝ} (hε : 0 < ε) {y : EReal} (hy : (ε : EReal) ≤ y) :
    ∃ r : ℝ, Ideal.rsqrt y = (r : EReal) := by
  induction y using EReal.rec with
  | bot => simp at hy
  | top => exact ⟨0, by simp⟩
  | coe r =>
    have hr : ε ≤ r := EReal.coe_le_coe_iff.1 hy
    rw [Ideal.rsqrt_coe, if_neg (by linarith), if_neg (by intro h0; linarith)]
    exact ⟨_, rfl⟩

/-- A select between two real numbers is a real number, whatever the condition. -/
theorem select_real {c : BitVec 1} {a b : EReal} (ha : ∃ r : ℝ, a = (r : EReal)) (hb : ∃ r : ℝ, b = (r : EReal)) :
    ∃ r : ℝ, Scalar.select c a b = (r : EReal) := by
  unfold Scalar.select
  split
  · exact ha
  · exact hb

/-- Every entry of `invSqrt` is a real number, whatever the degree is: where the degree is not positive the entry is the
    constant `0`; elsewhere it is the reciprocal square root of `max (degree) ε ≥ ε > 0`. -/
theorem invSqrt_real (ei : IVec S2x640000 32) (j : S10000.Idx) :
    ∃ r : ℝ, invSqrt (F := Ideal) ei j = (r : EReal) := by
  have key : ∀ x : FVec Ideal S10000 .f32, Host.rsqrt x j = Ideal.rsqrt (x j) := fun _ => rfl
  unfold invSqrt
  rw [select_apply]
  refine select_real ?_ ?_
  · rw [key, maximumf_apply, broadcastInDim_scalar_apply, constant_apply, eps_eq]
    exact rsqrt_real_of_pos_le (by positivity) (le_max_right _ _)
  · rw [broadcastInDim_scalar_apply, id, constant_apply]
    exact ⟨0, Ideal.ofBits_zero_f32⟩

/-- Every edge weight is a real number: it is the product of two entries of `invSqrt` (a gather's entry is an entry of
    its operand). No hypothesis on the edge list is needed. -/
theorem norm_real (ei : IVec S2x640000 32) (i : S650000.Idx) :
    ∃ r : ℝ, Spec.norm (F := Ideal) ei i = (r : EReal) := by
  unfold Spec.norm
  rw [mulf_apply]
  exact real_mul (invSqrt_real ei _) (invSqrt_real ei _)

end Cert.KernelIdeal.EdgeFacts

end
-- ==== Proof.KernelAdjacency.lean ====
/-
  THE DENSE ADJACENCY MATRIX READ AT AN ENTRY. The idealized kernel builds the matrix by adding every edge's weight, from
  zero, at the pair (destination, source) of the edge. For an edge list of node numbers in `[0, 10000)` the pair of edge
  `e` is `(dst e, src e)` itself (the negative-index correction is the identity there), an update lands on entry `(d, s)`
  exactly when its pair, read signed and not clamped, is `(d, s)`, and at the ideal values the narrowing format change is
  the identity: entry `(d, s)` is `0` plus the sum of the weights of the edges from `s` to `d`.
-/
import proofs.«129397_j61830349193499_1_alg».proof.Proof.KernelSpec
import proofs.«129397_j61830349193499_1_alg».proof.Proof.KernelLayout
import proofs.«129397_j61830349193499_1_alg».proof.Proof.LibEdgeIndexOps
import proofs.«129397_j61830349193499_1_alg».proof.Proof.EdgeFacts
import Idealize.ShloMosaic.Lib.ValueIdx
import Idealize.ShloMosaic.Lib.IdealHost
import Idealize.ShloMosaic.PureOps.Ideal

noncomputable section

namespace Cert.KernelIdeal.Adjacency

open Cert.KernelIdeal Cert.KernelIdeal.Gen Cert.KernelIdeal.Spec Cert.KernelIdeal.Layout Cert.KernelIdeal.EdgeFacts
open Idealize.ShloMosaic Idealize.ShloMosaic.ValueIdx Idealize.ShloMosaic.EdgeIdx

/-- A rank-1 index set is its coordinate's range: `e ↦ ix1 e`, with inverse `j ↦ j 0`. -/
def idx1Equiv (n : Nat) : Fin n ≃ (⟨1, ![n]⟩ : Shape).Idx where
  toFun := ix1
  invFun j := j 0
  left_inv _ := rfl
  right_inv j := (eq_ix1 j).symm

/-- Where edge `e`'s weight lands: on entry `(d, s)` of the matrix exactly when `e` goes from `s` to `d`. The pair of
    `e` is `(dst e, src e)`, both non-negative, so "the signed reading is the number `d`" is "its natural-number
    reading is `d`". -/
theorem lands_iff (ei : IVec S2x640000 32) (hr : ∀ i, 0 ≤ (ei i).toInt ∧ (ei i).toInt < 10000)
    (e : Fin 650000) (d s : Fin 10240) :
    scatter_S10240x10240_S650000x2_S650000_n_01_01_1.resultIdx? (ix1 e) (pairs ei) = some (ix2 d s) ↔
      (dstIdx ei (ix1 e)).toInt.toNat = d.val ∧ (srcIdx ei (ix1 e)).toInt.toNat = s.val := by
  have key := pointScatter_resultIdx_eq_some_iff scatter_S10240x10240_S650000x2_S650000_n_01_01_1.wf (pairs ei) e d s
  have p0 : pairs ei (ix2 e (⟨0, Nat.zero_lt_two⟩ : Fin 2)) = dstIdx ei (ix1 e) :=
    (pairs_apply0 ei e).trans (wrapPad_eq _ _ (dst_range ei hr e).1)
  have p1 : pairs ei (ix2 e (⟨1, Nat.one_lt_two⟩ : Fin 2)) = srcIdx ei (ix1 e) :=
    (pairs_apply1 ei e).trans (wrapPad_eq _ _ (src_range ei hr e).1)
  rw [p0, p1] at key
  have hd := (dst_range ei hr e).1
  have hs := (src_range ei hr e).1
  refine Iff.trans key ?_
  constructor
  · rintro ⟨h0, h1⟩
    constructor <;> omega
  · rintro ⟨h0, h1⟩
    constructor <;> omega

/-- The dense matrix is the scatter-add of the edge weights, from the zero matrix, at the pairs: at the ideal values the
    narrowing format change around it is the identity. -/
theorem adjacency_eq_scatterAdd (ei : IVec S2x640000 32) (i : S10240x10240.Idx) :
    adjacency (F := Ideal) ei i = Host.scatterAdd (F := Ideal) scatter_S10240x10240_S650000x2_S650000_n_01_01_1
      (broadcastInDim S10240x10240 ![] bcast_S_S10240x10240 (constant (F := Ideal) S_ .f32 0x00000000#32)) (pairs ei)
      (Spec.norm (F := Ideal) ei) i := by
  unfold adjacency
  rw [truncf_apply]

/-- At the ideal values the host's scatter-add is the exact one. -/
theorem scatterAdd_eq_ideal (x : FVec Ideal S10240x10240 .f32) (idx : IVec S650000x2 32) (upd : FVec Ideal S650000 .f32)
    (i : S10240x10240.Idx) :
    Host.scatterAdd (F := Ideal) scatter_S10240x10240_S650000x2_S650000_n_01_01_1 x idx upd i
      = Ideal.hostScatterAdd scatter_S10240x10240_S650000x2_S650000_n_01_01_1 x idx upd i := by
  unfold Host.scatterAdd
  rw [Ideal.hostScatterAdd_def]

/-- The exact scatter-add at an entry: the operand's entry plus the sum of the updates that land on it. -/
theorem ideal_scatterAdd_apply (x : FVec Ideal S10240x10240 .f32) (idx : IVec S650000x2 32) (upd : FVec Ideal S650000 .f32)
    (i : S10240x10240.Idx)
    [DecidablePred fun j : S650000.Idx => scatter_S10240x10240_S650000x2_S650000_n_01_01_1.resultIdx? j idx = some i] :
    Ideal.hostScatterAdd scatter_S10240x10240_S650000x2_S650000_n_01_01_1 x idx upd i
      = x i + ∑ j ∈ Finset.univ.filter (fun j : S650000.Idx =>
          scatter_S10240x10240_S650000x2_S650000_n_01_01_1.resultIdx? j idx = some i), upd j := by
  unfold Ideal.hostScatterAdd
  congr!

/-- The weights that land on entry `(d, s)`, summed over the update indices, are the weights of the edges from `s` to
    `d`, summed over the edge numbers: re-index along `e ↦ ix1 e` and use `lands_iff`. -/
theorem sum_landing (ei : IVec S2x640000 32) (hr : ∀ i, 0 ≤ (ei i).toInt ∧ (ei i).toInt < 10000) (d s : Fin 10240)
    [DecidablePred fun j : S650000.Idx => scatter_S10240x10240_S650000x2_S650000_n_01_01_1.resultIdx? j (pairs ei) = some (ix2 d s)] :
    ∑ j ∈ Finset.univ.filter (fun j : S650000.Idx =>
        scatter_S10240x10240_S650000x2_S650000_n_01_01_1.resultIdx? j (pairs ei) = some (ix2 d s)), Spec.norm (F := Ideal) ei j
      = ∑ e ∈ Finset.univ.filter (fun e : Fin 650000 =>
        (dstIdx ei (ix1 e)).toInt.toNat = d.val ∧ (srcIdx ei (ix1 e)).toInt.toNat = s.val), Spec.norm (F := Ideal) ei (ix1 e) := by
  refine (Finset.sum_equiv (idx1Equiv 650000) (fun e => ?_) (fun e _ => rfl)).symm
  rw [Finset.mem_filter, Finset.mem_filter]
  simp only [Finset.mem_univ, true_and]
  exact (lands_iff ei hr e d s).symm

/-- Entry `(d, s)` of the dense matrix is `0` plus the sum of the weights of the edges from `s` to `d`. -/
theorem adjacency_apply (ei : IVec S2x640000 32) (hr : ∀ i, 0 ≤ (ei i).toInt ∧ (ei i).toInt < 10000) (d s : Fin 10240) :
    adjacency (F := Ideal) ei (ix2 d s) = (0 : EReal) + ∑ e ∈ Finset.univ.filter (fun e : Fin 650000 =>
      (dstIdx ei (ix1 e)).toInt.toNat = d.val ∧ (srcIdx ei (ix1 e)).toInt.toNat = s.val), Spec.norm (F := Ideal) ei (ix1 e) := by
  rw [adjacency_eq_scatterAdd, scatterAdd_eq_ideal, ideal_scatterAdd_apply, broadcastInDim_scalar_apply, constant_apply,
    Ideal.ofBits_zero_f32, sum_landing ei hr d s]

end Cert.KernelIdeal.Adjacency

end
-- ==== Proof.LayerBridge.lean ====
/-
  One graph convolution layer, the kernel's way against the reference's. The kernel contracts the dense weighted adjacency matrix
  with the layer's padded features; the reference gathers each edge's source features, scales them by the edge weight and adds
  them up at the edge's destination. With `A[d, s] = 0 + Σ over the edges e from s to d of norm e`, the law is
      Σ over s of A[d, s] · h[s]  =  0 + Σ over the edges e into d of h[src e] · norm e,
  an exchange of two finite sums and distributivity, valid because the weights and the features are real numbers (on the extended
  reals a product does not distribute over a sum at the infinities).
-/
import proofs.«129397_j61830349193499_1_alg».proof.Proof.KernelSpec
import proofs.«129397_j61830349193499_1_alg».proof.Proof.ReferenceSpec
import proofs.«129397_j61830349193499_1_alg».proof.Proof.KernelLayout
import proofs.«129397_j61830349193499_1_alg».proof.Proof.ReferenceLayer
import proofs.«129397_j61830349193499_1_alg».proof.Proof.KernelAdjacency
import proofs.«129397_j61830349193499_1_alg».proof.Proof.EdgeFacts
import proofs.«129397_j61830349193499_1_alg».proof.Proof.LibAggregationLaw

set_option maxRecDepth 16384

noncomputable section

namespace Cert.Bridge.Layer

open Idealize.ShloMosaic Idealize.ShloMosaic.ValueIdx Idealize.ShloMosaic.AggregationLaw

/-- One layer over 128 columns at a row below 10000: the dense adjacency row times the padded features, plus the bias row, is the
    reference's gather–scale–scatter-add plus bias. The adjacency entry `(d, s)` is `0 + Σ` of the weights of the edges from `s`
    to `d`; contracting it with the feature column and exchanging the two sums (all data real) leaves, for each edge into `d`, the
    feature of its source times its weight; a source is a node below 10000, where the padded features are the features. -/
theorem layer128 (ei : IVec Cert.KernelIdeal.S2x640000 32) (hr : ∀ i, 0 ≤ (ei i).toInt ∧ (ei i).toInt < 10000)
    (X : FVec Ideal Cert.KernelIdeal.S10000x128 .f32) (W : FVec Ideal Cert.KernelIdeal.S128x128 .f32) (b : FVec Ideal Cert.KernelIdeal.S128 .f32)
    (hL : ∀ i, ∃ r : ℝ, Cert.ReferenceIdeal.Spec.lin128 (F := Ideal) X W i = (r : EReal)) (d : Fin 10000) (c : Fin 128) :
    (∑ k : Fin 10240, Cert.KernelIdeal.Spec.adjacency (F := Ideal) ei (ix2 (⟨d.val, by omega⟩ : Fin 10240) k) * Cert.KernelIdeal.Spec.feat128 (F := Ideal) X W (ix2 k c))
        + Cert.KernelIdeal.Spec.biasRow128 (F := Ideal) b (ix2 0 c)
      = Cert.ReferenceIdeal.Spec.agg128 (F := Ideal) ei (Cert.ReferenceIdeal.Spec.lin128 (F := Ideal) X W) b (ix2 d c) := by
  have hs := Cert.KernelIdeal.EdgeFacts.src_range ei hr
  have hd := Cert.KernelIdeal.EdgeFacts.dst_range ei hr
  have hn : ∀ e : Fin 650000, ∃ r : ℝ, Cert.KernelIdeal.Spec.norm (F := Ideal) ei (ix1 e) = (r : EReal) := fun e => Cert.KernelIdeal.EdgeFacts.norm_real ei _
  have hfeat : ∀ (s : Fin 10240) (h : s.val < 10000), Cert.KernelIdeal.Spec.feat128 (F := Ideal) X W (ix2 s c) = Cert.ReferenceIdeal.Spec.lin128 (F := Ideal) X W (ix2 ⟨s.val, h⟩ c) := by
    intro s h
    rw [Cert.KernelIdeal.Layout.feat128_apply, dif_pos h]
    rfl
  have hh : ∀ s : Fin 10240, ∃ r : ℝ, Cert.KernelIdeal.Spec.feat128 (F := Ideal) X W (ix2 s c) = (r : EReal) := by
    intro s
    by_cases h : s.val < 10000
    · rw [hfeat s h]; exact hL _
    · rw [Cert.KernelIdeal.Layout.feat128_apply, dif_neg h]; exact ⟨0, rfl⟩
  have law := dense_eq_scatter_of_real (E := Fin 650000) (S := Fin 10240)
    (fun e => (Cert.KernelIdeal.Spec.dstIdx ei (ix1 e)).toInt.toNat)
    (fun e => (⟨(Cert.KernelIdeal.Spec.srcIdx ei (ix1 e)).toInt.toNat, by have := hs e; omega⟩ : Fin 10240))
    (fun e => Cert.KernelIdeal.Spec.norm (F := Ideal) ei (ix1 e)) (fun s => Cert.KernelIdeal.Spec.feat128 (F := Ideal) X W (ix2 s c)) hn hh d.val
  have hagg := Cert.ReferenceIdeal.Layer.agg128_apply ei (Cert.ReferenceIdeal.Spec.lin128 (F := Ideal) X W) b (fun e => (hd e).1) hs d c
  rw [hagg, Cert.KernelIdeal.Layout.biasRow128_apply]
  refine congrArg (· + b (ix1 c)) ?_
  refine Eq.trans ?_ (law.trans ?_)
  · refine Finset.sum_congr rfl fun s _ => ?_
    rw [Cert.KernelIdeal.Adjacency.adjacency_apply ei hr ⟨d.val, by omega⟩ s]
    refine congrArg (fun t => ((0 : EReal) + t) * Cert.KernelIdeal.Spec.feat128 (F := Ideal) X W (ix2 s c)) ?_
    refine Finset.sum_congr (Finset.filter_congr fun e _ => ?_) fun _ _ => rfl
    exact and_congr_right' (Fin.ext_iff (a := (⟨(Cert.KernelIdeal.Spec.srcIdx ei (ix1 e)).toInt.toNat, by have := hs e; omega⟩ : Fin 10240)) (b := s)).symm
  · refine congrArg ((0 : EReal) + ·) ?_
    refine Finset.sum_congr rfl fun e _ => ?_
    refine congrArg (· * Cert.KernelIdeal.Spec.norm (F := Ideal) ei (ix1 e)) ?_
    exact hfeat ⟨(Cert.KernelIdeal.Spec.srcIdx ei (ix1 e)).toInt.toNat, by have := hs e; omega⟩ (by have := hs e; show (Cert.KernelIdeal.Spec.srcIdx ei (ix1 e)).toInt.toNat < 10000; omega)

/-- One layer over 64 columns at a row below 10000: the dense adjacency row times the padded features, plus the bias row, is the
    reference's gather–scale–scatter-add plus bias. The adjacency entry `(d, s)` is `0 + Σ` of the weights of the edges from `s`
    to `d`; contracting it with the feature column and exchanging the two sums (all data real) leaves, for each edge into `d`, the
    feature of its source times its weight; a source is a node below 10000, where the padded features are the features. -/
theorem layer64 (ei : IVec Cert.KernelIdeal.S2x640000 32) (hr : ∀ i, 0 ≤ (ei i).toInt ∧ (ei i).toInt < 10000)
    (X : FVec Ideal Cert.KernelIdeal.S10000x128 .f32) (W : FVec Ideal Cert.KernelIdeal.S128x64 .f32) (b : FVec Ideal Cert.KernelIdeal.S64 .f32)
    (hL : ∀ i, ∃ r : ℝ, Cert.ReferenceIdeal.Spec.lin64 (F := Ideal) X W i = (r : EReal)) (d : Fin 10000) (c : Fin 64) :
    (∑ k : Fin 10240, Cert.KernelIdeal.Spec.adjacency (F := Ideal) ei (ix2 (⟨d.val, by omega⟩ : Fin 10240) k) * Cert.KernelIdeal.Spec.feat64 (F := Ideal) X W (ix2 k c))
        + Cert.KernelIdeal.Spec.biasRow64 (F := Ideal) b (ix2 0 c)
      = Cert.ReferenceIdeal.Spec.agg64 (F := Ideal) ei (Cert.ReferenceIdeal.Spec.lin64 (F := Ideal) X W) b (ix2 d c) := by
  have hs := Cert.KernelIdeal.EdgeFacts.src_range ei hr
  have hd := Cert.KernelIdeal.EdgeFacts.dst_range ei hr
  have hn : ∀ e : Fin 650000, ∃ r : ℝ, Cert.KernelIdeal.Spec.norm (F := Ideal) ei (ix1 e) = (r : EReal) := fun e => Cert.KernelIdeal.EdgeFacts.norm_real ei _
  have hfeat : ∀ (s : Fin 10240) (h : s.val < 10000), Cert.KernelIdeal.Spec.feat64 (F := Ideal) X W (ix2 s c) = Cert.ReferenceIdeal.Spec.lin64 (F := Ideal) X W (ix2 ⟨s.val, h⟩ c) := by
    intro s h
    rw [Cert.KernelIdeal.Layout.feat64_apply, dif_pos h]
    rfl
  have hh : ∀ s : Fin 10240, ∃ r : ℝ, Cert.KernelIdeal.Spec.feat64 (F := Ideal) X W (ix2 s c) = (r : EReal) := by
    intro s
    by_cases h : s.val < 10000
    · rw [hfeat s h]; exact hL _
    · rw [Cert.KernelIdeal.Layout.feat64_apply, dif_neg h]; exact ⟨0, rfl⟩
  have law := dense_eq_scatter_of_real (E := Fin 650000) (S := Fin 10240)
    (fun e => (Cert.KernelIdeal.Spec.dstIdx ei (ix1 e)).toInt.toNat)
    (fun e => (⟨(Cert.KernelIdeal.Spec.srcIdx ei (ix1 e)).toInt.toNat, by have := hs e; omega⟩ : Fin 10240))
    (fun e => Cert.KernelIdeal.Spec.norm (F := Ideal) ei (ix1 e)) (fun s => Cert.KernelIdeal.Spec.feat64 (F := Ideal) X W (ix2 s c)) hn hh d.val
  have hagg := Cert.ReferenceIdeal.Layer.agg64_apply ei (Cert.ReferenceIdeal.Spec.lin64 (F := Ideal) X W) b (fun e => (hd e).1) hs d c
  rw [hagg, Cert.KernelIdeal.Layout.biasRow64_apply]
  refine congrArg (· + b (ix1 c)) ?_
  refine Eq.trans ?_ (law.trans ?_)
  · refine Finset.sum_congr rfl fun s _ => ?_
    rw [Cert.KernelIdeal.Adjacency.adjacency_apply ei hr ⟨d.val, by omega⟩ s]
    refine congrArg (fun t => ((0 : EReal) + t) * Cert.KernelIdeal.Spec.feat64 (F := Ideal) X W (ix2 s c)) ?_
    refine Finset.sum_congr (Finset.filter_congr fun e _ => ?_) fun _ _ => rfl
    exact and_congr_right' (Fin.ext_iff (a := (⟨(Cert.KernelIdeal.Spec.srcIdx ei (ix1 e)).toInt.toNat, by have := hs e; omega⟩ : Fin 10240)) (b := s)).symm
  · refine congrArg ((0 : EReal) + ·) ?_
    refine Finset.sum_congr rfl fun e _ => ?_
    refine congrArg (· * Cert.KernelIdeal.Spec.norm (F := Ideal) ei (ix1 e)) ?_
    exact hfeat ⟨(Cert.KernelIdeal.Spec.srcIdx ei (ix1 e)).toInt.toNat, by have := hs e; omega⟩ (by have := hs e; show (Cert.KernelIdeal.Spec.srcIdx ei (ix1 e)).toInt.toNat < 10000; omega)

end Cert.Bridge.Layer

end
-- ==== Proof.ReferenceReal.lean ====
/-
  THE REFERENCE'S LAYERS ARE REAL-VALUED ON REAL DATA. An entry of features times a weight matrix is a finite sum of
  products of entries, so it is a real number when all entries are. An entry of an aggregation is zero plus a finite sum
  of products (a feature entry times an edge weight) plus a bias entry, and the maximum of that with zero: real when the
  features, the edge weights and the bias are.
-/
import proofs.«129397_j61830349193499_1_alg».proof.Proof.ReferenceSpec
import proofs.«129397_j61830349193499_1_alg».proof.Proof.ReferenceLayer
import proofs.«129397_j61830349193499_1_alg».proof.Proof.LibAggregationLaw
import Idealize.ShloMosaic.Lib.ValueIdx
import Idealize.ShloMosaic.PureOps.Ideal
import Idealize.ShloMosaic.PureOps.Ideal.Laws

noncomputable section

namespace Cert.ReferenceIdeal.Real

open Cert.ReferenceIdeal Cert.ReferenceIdeal.Gen Cert.ReferenceIdeal.Spec Cert.ReferenceIdeal.Layer
open Idealize.ShloMosaic Idealize.ShloMosaic.ValueIdx Idealize.ShloMosaic.AggregationLaw
open scoped BigOperators

/-- Zero is a real number. -/
theorem real_zero : ∃ r : ℝ, (0 : EReal) = (r : EReal) := ⟨0, EReal.coe_zero.symm⟩

/-- The zero word of the f32 format denotes a real number. -/
theorem real_zero_word : ∃ r : ℝ, Ideal.ofBits .f32 0x00000000#32 = (r : EReal) := by
  rw [Ideal.ofBits_zero_f32]; exact real_zero

theorem lin128_real (x : FVec Ideal S10000x128 .f32) (W : FVec Ideal S128x128 .f32)
    (hx : ∀ i, ∃ r : ℝ, x i = (r : EReal)) (hW : ∀ i, ∃ r : ℝ, W i = (r : EReal)) :
    ∀ i, ∃ r : ℝ, lin128 (F := Ideal) x W i = (r : EReal) := by
  intro i
  have e := Ideal.dotGeneral_apply dot_S10000x128_S128x128_S10000x128_1_0_0_1_n_n none HostSchedule.single x W i
  have e' : lin128 (F := Ideal) x W i = _ := e
  rw [e']
  exact real_sum _ _ fun k _ => real_mul (hx _) (hW _)

theorem lin64_real (x : FVec Ideal S10000x128 .f32) (W : FVec Ideal S128x64 .f32)
    (hx : ∀ i, ∃ r : ℝ, x i = (r : EReal)) (hW : ∀ i, ∃ r : ℝ, W i = (r : EReal)) :
    ∀ i, ∃ r : ℝ, lin64 (F := Ideal) x W i = (r : EReal) := by
  intro i
  have e := Ideal.dotGeneral_apply dot_S10000x128_S128x64_S10000x64_1_0_0_1_n_n none HostSchedule.single x W i
  have e' : lin64 (F := Ideal) x W i = _ := e
  rw [e']
  exact real_sum _ _ fun k _ => real_mul (hx _) (hW _)

/-- An aggregation over 128 columns is real-valued on real data. -/
theorem agg128_real (ei : IVec S2x640000 32) (H : FVec Ideal S10000x128 .f32) (bias : FVec Ideal S128 .f32)
    (hd : ∀ e : Fin 650000, 0 ≤ (dstIdx ei (ix1 e)).toInt)
    (hs : ∀ e : Fin 650000, 0 ≤ (srcIdx ei (ix1 e)).toInt ∧ (srcIdx ei (ix1 e)).toInt < 10000)
    (hn : ∀ i, ∃ r : ℝ, Spec.norm (F := Ideal) ei i = (r : EReal))
    (hH : ∀ i, ∃ r : ℝ, H i = (r : EReal)) (hb : ∀ i, ∃ r : ℝ, bias i = (r : EReal)) :
    ∀ i, ∃ r : ℝ, agg128 (F := Ideal) ei H bias i = (r : EReal) := by
  intro i
  obtain ⟨p, q, rfl⟩ : ∃ (p : Fin 10000) (q : Fin 128), i = ix2 p q := ⟨i 0, i 1, eq_ix2 i⟩
  rw [agg128_apply ei H bias hd hs]
  exact real_add (real_add real_zero (real_sum _ _ fun e _ => real_mul (hH _) (hn _))) (hb _)

/-- An aggregation over 64 columns is real-valued on real data. -/
theorem agg64_real (ei : IVec S2x640000 32) (H : FVec Ideal S10000x64 .f32) (bias : FVec Ideal S64 .f32)
    (hd : ∀ e : Fin 650000, 0 ≤ (dstIdx ei (ix1 e)).toInt)
    (hs : ∀ e : Fin 650000, 0 ≤ (srcIdx ei (ix1 e)).toInt ∧ (srcIdx ei (ix1 e)).toInt < 10000)
    (hn : ∀ i, ∃ r : ℝ, Spec.norm (F := Ideal) ei i = (r : EReal))
    (hH : ∀ i, ∃ r : ℝ, H i = (r : EReal)) (hb : ∀ i, ∃ r : ℝ, bias i = (r : EReal)) :
    ∀ i, ∃ r : ℝ, agg64 (F := Ideal) ei H bias i = (r : EReal) := by
  intro i
  obtain ⟨p, q, rfl⟩ : ∃ (p : Fin 10000) (q : Fin 64), i = ix2 p q := ⟨i 0, i 1, eq_ix2 i⟩
  rw [agg64_apply ei H bias hd hs]
  exact real_add (real_add real_zero (real_sum _ _ fun e _ => real_mul (hH _) (hn _))) (hb _)

/-- The maximum with zero of a real-valued array is real-valued. -/
theorem relu128_real (y : FVec Ideal S10000x128 .f32) (hy : ∀ i, ∃ r : ℝ, y i = (r : EReal)) :
    ∀ i, ∃ r : ℝ, relu128 (F := Ideal) y i = (r : EReal) := by
  intro i
  unfold relu128
  rw [maximumf_apply]
  exact real_max (hy i) real_zero_word

theorem relu_agg128_real (ei : IVec S2x640000 32) (H : FVec Ideal S10000x128 .f32) (bias : FVec Ideal S128 .f32)
    (hd : ∀ e : Fin 650000, 0 ≤ (dstIdx ei (ix1 e)).toInt)
    (hs : ∀ e : Fin 650000, 0 ≤ (srcIdx ei (ix1 e)).toInt ∧ (srcIdx ei (ix1 e)).toInt < 10000)
    (hn : ∀ i, ∃ r : ℝ, Spec.norm (F := Ideal) ei i = (r : EReal))
    (hH : ∀ i, ∃ r : ℝ, H i = (r : EReal)) (hb : ∀ i, ∃ r : ℝ, bias i = (r : EReal)) :
    ∀ i, ∃ r : ℝ, relu128 (F := Ideal) (agg128 (F := Ideal) ei H bias) i = (r : EReal) :=
  relu128_real _ (agg128_real ei H bias hd hs hn hH hb)

end Cert.ReferenceIdeal.Real

end
-- ==== Proof.PreFacts.lean ====
/-
  THE PRECONDITION READ BACK. The generated function `Cert.Pre_finite_inputs.fn` is one bit: the
  conjunction (a chain of one-bit `and`s) of eight reductions by `and` over all axes, from the constant 1. Seven
  of them reduce the array of bits `|a[i]| < +∞` of a float array `a`; the last reduces the array of bits
  `(0 ≤ e[i]) ∧ (e[i] < 10000)`, signed, of the 32-bit integer array. When the bit is 1:

  • every conjunct is 1 (`IntOp.andi_eq_one`), so every element of every reduced array is 1 (`Host.reduce_andi_all`);
  • at the ideal instance a float is an extended real, `|x| = max x (-x)`, the pattern 0x7F800000 denotes `⊤`, and
    `max x (-x) < ⊤` excludes both `x = ⊤` and `x = ⊥`: the element is a real number (`real_of_abs_lt_inf`);
  • the two signed comparisons say `0 ≤ toInt` and `toInt < 10000` of the integer element (`IntOp.cmpi_sge`, `IntOp.cmpi_slt`).
-/
import proofs.«129397_j61830349193499_1_alg».proof.Pre_finite_inputs
import Idealize.ShloMosaic.Lib.ReduceAll
import Idealize.ShloMosaic.Lib.ValueIdx
import Idealize.ShloMosaic.PureOps.Ideal

noncomputable section

namespace Cert.Bridge

open Idealize.ShloMosaic Idealize.ShloMosaic.ValueIdx
open Cert.Pre_finite_inputs

/-- The scalar shape has one index. -/
instance subsingleton_scalar_idx : Subsingleton S_.Idx := ⟨fun a b => funext fun d => d.elim0⟩

/-- The f32 pattern 0x7F800000 denotes `+∞`. -/
theorem inf_pattern : Ideal.ofBits .f32 0x7F800000#32 = ⊤ := by simp [Ideal.ofBits, Ideal.ieee]

/-- An extended real whose absolute value `max x (-x)` is below `+∞` is a real number: `⊤` and `⊥` both have
    absolute value `⊤`. -/
theorem real_of_abs_lt_inf (x : EReal)
    (e : Ideal.cmp .olt (max x (-x)) (Ideal.ofBits .f32 0x7F800000#32) = 1#1) : ∃ r : ℝ, x = (r : EReal) := by
  rw [inf_pattern] at e
  induction x using EReal.rec with
  | bot => simp [Ideal.cmp] at e
  | coe r => exact ⟨r, rfl⟩
  | top => simp [Ideal.cmp] at e

/-- `jnp.all(|a| < +∞)` of a float array, as it is printed, read back: every element is a real number. -/
theorem real_of_all_abs_lt_inf {s : Shape} {axes : List (Fin s.rank)} (hb : S_.BroadcastsInDim s (![] : Fin 0 → Fin s.rank))
    (hr : s.ReducesTo axes S_) (hu : 0 < S_.numel) (a : FVec Ideal s .f32)
    (e : Host.reduce IntOp.andi
          (cmpf .olt (Host.absf a) (broadcastInDim s ![] hb (constant (F := Ideal) S_ .f32 0x7F800000#32)))
          (constantI S_ 1 1#1) hr hu ix0 = 1#1) :
    ∀ i, ∃ r : ℝ, a i = (r : EReal) := fun i =>
  real_of_abs_lt_inf (a i) (Host.reduce_andi_all _ _ hr hu ix0 e i)

variable [Cert.Pre_finite_inputs.Facts]

section
variable (a0 : FVec Ideal S10000x128 .f32) (a1 : IVec S2x640000 32) (a2 : FVec Ideal S128x128 .f32)
  (a3 : FVec Ideal S128 .f32) (a4 : FVec Ideal S128x128 .f32) (a5 : FVec Ideal S128 .f32)
  (a6 : FVec Ideal S128x64 .f32) (a7 : FVec Ideal S64 .f32)

/-- The precondition's bit is 1: all seven float arrays hold real numbers only, and every entry of the integer array is
    in `[0, 10000)`, signed. -/
theorem decode (h : Cert.Pre_finite_inputs.fn (F := Ideal) a0 a1 a2 a3 a4 a5 a6 a7 = (fun _ => 1#1)) :
    (∀ i, ∃ r : ℝ, a0 i = (r : EReal)) ∧ (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧ (∀ i, ∃ r : ℝ, a6 i = (r : EReal)) ∧
    (∀ i, ∃ r : ℝ, a7 i = (r : EReal)) ∧ (∀ i, 0 ≤ (a1 i).toInt ∧ (a1 i).toInt < 10000) := by
  have e := congrFun h ix0
  -- the chain of `and`s, outermost first: the integer conjunct is the last one's right argument
  obtain ⟨e33, e39⟩ := IntOp.andi_eq_one.1 e
  obtain ⟨e28, e32⟩ := IntOp.andi_eq_one.1 e33
  obtain ⟨e23, e27⟩ := IntOp.andi_eq_one.1 e28
  obtain ⟨e18, e22⟩ := IntOp.andi_eq_one.1 e23
  obtain ⟨e13, e17⟩ := IntOp.andi_eq_one.1 e18
  obtain ⟨e8, e12⟩ := IntOp.andi_eq_one.1 e13
  obtain ⟨e3, e7⟩ := IntOp.andi_eq_one.1 e8
  refine ⟨real_of_all_abs_lt_inf _ _ _ a0 e3, real_of_all_abs_lt_inf _ _ _ a2 e7, real_of_all_abs_lt_inf _ _ _ a3 e12,
    real_of_all_abs_lt_inf _ _ _ a4 e17, real_of_all_abs_lt_inf _ _ _ a5 e22, real_of_all_abs_lt_inf _ _ _ a6 e27,
    real_of_all_abs_lt_inf _ _ _ a7 e32, fun i => ?_⟩
  have ei := Host.reduce_andi_all _ _ _ _ ix0 e39 i
  obtain ⟨ge, lt⟩ := IntOp.andi_eq_one.1 ei
  have ge' := IntOp.cmpi_sge.1 ge
  have lt' := IntOp.cmpi_slt.1 lt
  have z : (0#32 : BitVec 32).toInt = 0 := by decide
  have t : (10000#32 : BitVec 32).toInt = 10000 := by decide
  exact ⟨z ▸ ge', t ▸ lt'⟩

theorem real_arg0 (h : Cert.Pre_finite_inputs.fn (F := Ideal) a0 a1 a2 a3 a4 a5 a6 a7 = (fun _ => 1#1)) :
    ∀ i, ∃ r : ℝ, a0 i = (r : EReal) := (decode a0 a1 a2 a3 a4 a5 a6 a7 h).1
theorem real_arg2 (h : Cert.Pre_finite_inputs.fn (F := Ideal) a0 a1 a2 a3 a4 a5 a6 a7 = (fun _ => 1#1)) :
    ∀ i, ∃ r : ℝ, a2 i = (r : EReal) := (decode a0 a1 a2 a3 a4 a5 a6 a7 h).2.1
theorem real_arg3 (h : Cert.Pre_finite_inputs.fn (F := Ideal) a0 a1 a2 a3 a4 a5 a6 a7 = (fun _ => 1#1)) :
    ∀ i, ∃ r : ℝ, a3 i = (r : EReal) := (decode a0 a1 a2 a3 a4 a5 a6 a7 h).2.2.1
theorem real_arg4 (h : Cert.Pre_finite_inputs.fn (F := Ideal) a0 a1 a2 a3 a4 a5 a6 a7 = (fun _ => 1#1)) :
    ∀ i, ∃ r : ℝ, a4 i = (r : EReal) := (decode a0 a1 a2 a3 a4 a5 a6 a7 h).2.2.2.1
theorem real_arg5 (h : Cert.Pre_finite_inputs.fn (F := Ideal) a0 a1 a2 a3 a4 a5 a6 a7 = (fun _ => 1#1)) :
    ∀ i, ∃ r : ℝ, a5 i = (r : EReal) := (decode a0 a1 a2 a3 a4 a5 a6 a7 h).2.2.2.2.1
theorem real_arg6 (h : Cert.Pre_finite_inputs.fn (F := Ideal) a0 a1 a2 a3 a4 a5 a6 a7 = (fun _ => 1#1)) :
    ∀ i, ∃ r : ℝ, a6 i = (r : EReal) := (decode a0 a1 a2 a3 a4 a5 a6 a7 h).2.2.2.2.2.1
theorem real_arg7 (h : Cert.Pre_finite_inputs.fn (F := Ideal) a0 a1 a2 a3 a4 a5 a6 a7 = (fun _ => 1#1)) :
    ∀ i, ∃ r : ℝ, a7 i = (r : EReal) := (decode a0 a1 a2 a3 a4 a5 a6 a7 h).2.2.2.2.2.2.1
theorem index_range (h : Cert.Pre_finite_inputs.fn (F := Ideal) a0 a1 a2 a3 a4 a5 a6 a7 = (fun _ => 1#1)) :
    ∀ i, 0 ≤ (a1 i).toInt ∧ (a1 i).toInt < 10000 := (decode a0 a1 a2 a3 a4 a5 a6 a7 h).2.2.2.2.2.2.2

end

end Cert.Bridge

end
-- ==== Proof.Equivalence.lean ====
/-
  The two programs compute one function. The idealized kernel's result — the first 10000 rows of what its third launch leaves —
  is the reference's three graph convolution layers of the same arguments, under the precondition (every float input finite,
  every edge end a node index): layer by layer, the dense product of a launch is the reference's gather–scale–scatter-add, and
  each layer's output, real-valued because its inputs are, is the next launch's feature operand.
-/
import proofs.«129397_j61830349193499_1_alg».proof.Proof.KernelFold
import proofs.«129397_j61830349193499_1_alg».proof.Proof.KernelLayerValue
import proofs.«129397_j61830349193499_1_alg».proof.Proof.LayerBridge
import proofs.«129397_j61830349193499_1_alg».proof.Proof.ReferenceReal
import proofs.«129397_j61830349193499_1_alg».proof.Proof.PreFacts
import proofs.«129397_j61830349193499_1_alg».proof.Proof.Gen.Pre_finite_inputs
import proofs.«129397_j61830349193499_1_alg».proof.Proof.EdgeFacts
import Idealize.ShloMosaic.Lib.IdealHost

set_option maxRecDepth 16384

noncomputable section

namespace Cert.Bridge.Main

open Cert.KernelIdeal Cert.KernelIdeal.Gen
open Idealize.ShloMosaic Idealize.ShloMosaic.TcCoe Idealize.ShloMosaic.ValueIdx Idealize.SL.Sem

/-- The maximum with zero, read at an index. -/
theorem relu128_apply (y : FVec Ideal Cert.ReferenceIdeal.S10000x128 .f32) (i : Cert.ReferenceIdeal.S10000x128.Idx) :
    Cert.ReferenceIdeal.Spec.relu128 (F := Ideal) y i = max (y i) 0 := by
  unfold Cert.ReferenceIdeal.Spec.relu128
  rw [maximumf_apply, broadcastInDim_scalar_apply, constant_apply, Ideal.ofBits_zero_f32]

variable (m : (ℓ : Loc nD τ sig) → Buf (Elt Ideal) ℓ) (ρ : Dev nD → PrngReg)

set_option maxHeartbeats 2000000 in
/-- Under the precondition, the kernel's result buffer at the end of its run holds the reference's three layers of the
    arguments. -/
theorem result_eq (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (fun _ => 1#1)) :
    W15 m ρ c (Proc.devRef .tc main_v71) = Cert.ReferenceIdeal.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hr := Cert.Bridge.index_range _ _ _ _ _ _ _ _ hpre
  have hx := Cert.Bridge.real_arg0 _ _ _ _ _ _ _ _ hpre
  have hW1 := Cert.Bridge.real_arg2 _ _ _ _ _ _ _ _ hpre
  have hb1 := Cert.Bridge.real_arg3 _ _ _ _ _ _ _ _ hpre
  have hW2 := Cert.Bridge.real_arg4 _ _ _ _ _ _ _ _ hpre
  have hb2 := Cert.Bridge.real_arg5 _ _ _ _ _ _ _ _ hpre
  have hW3 := Cert.Bridge.real_arg6 _ _ _ _ _ _ _ _ hpre
  have hb3 := Cert.Bridge.real_arg7 _ _ _ _ _ _ _ _ hpre
  have hs := EdgeFacts.src_range (m ((c : Thread nD τ).loc main_arg1)) hr
  have hd := EdgeFacts.dst_range (m ((c : Thread nD τ).loc main_arg1)) hr
  have hn := EdgeFacts.norm_real (m ((c : Thread nD τ).loc main_arg1))
  have hL1 := Cert.ReferenceIdeal.Real.lin128_real (m ((c : Thread nD τ).loc main_arg0)) (m ((c : Thread nD τ).loc main_arg2)) hx hW1
  have hH1 : ∀ i, ∃ r : ℝ, (Cert.ReferenceIdeal.Spec.relu128 (F := Ideal) (Cert.ReferenceIdeal.Spec.agg128 (F := Ideal) (m ((c : Thread nD τ).loc main_arg1)) (Cert.ReferenceIdeal.Spec.lin128 (F := Ideal) (m ((c : Thread nD τ).loc main_arg0)) (m ((c : Thread nD τ).loc main_arg2))) (m ((c : Thread nD τ).loc main_arg3)))) i = (r : EReal) :=
    Cert.ReferenceIdeal.Real.relu_agg128_real (m ((c : Thread nD τ).loc main_arg1)) _ (m ((c : Thread nD τ).loc main_arg3)) (fun e => (hd e).1) hs hn hL1 hb1
  have hL2 := Cert.ReferenceIdeal.Real.lin128_real (Cert.ReferenceIdeal.Spec.relu128 (F := Ideal) (Cert.ReferenceIdeal.Spec.agg128 (F := Ideal) (m ((c : Thread nD τ).loc main_arg1)) (Cert.ReferenceIdeal.Spec.lin128 (F := Ideal) (m ((c : Thread nD τ).loc main_arg0)) (m ((c : Thread nD τ).loc main_arg2))) (m ((c : Thread nD τ).loc main_arg3)))) (m ((c : Thread nD τ).loc main_arg4)) hH1 hW2
  have hH2 : ∀ i, ∃ r : ℝ, (Cert.ReferenceIdeal.Spec.relu128 (F := Ideal) (Cert.ReferenceIdeal.Spec.agg128 (F := Ideal) (m ((c : Thread nD τ).loc main_arg1)) (Cert.ReferenceIdeal.Spec.lin128 (F := Ideal) (Cert.ReferenceIdeal.Spec.relu128 (F := Ideal) (Cert.ReferenceIdeal.Spec.agg128 (F := Ideal) (m ((c : Thread nD τ).loc main_arg1)) (Cert.ReferenceIdeal.Spec.lin128 (F := Ideal) (m ((c : Thread nD τ).loc main_arg0)) (m ((c : Thread nD τ).loc main_arg2))) (m ((c : Thread nD τ).loc main_arg3)))) (m ((c : Thread nD τ).loc main_arg4))) (m ((c : Thread nD τ).loc main_arg5)))) i = (r : EReal) :=
    Cert.ReferenceIdeal.Real.relu_agg128_real (m ((c : Thread nD τ).loc main_arg1)) _ (m ((c : Thread nD τ).loc main_arg5)) (fun e => (hd e).1) hs hn hL2 hb2
  have hL3 := Cert.ReferenceIdeal.Real.lin64_real (Cert.ReferenceIdeal.Spec.relu128 (F := Ideal) (Cert.ReferenceIdeal.Spec.agg128 (F := Ideal) (m ((c : Thread nD τ).loc main_arg1)) (Cert.ReferenceIdeal.Spec.lin128 (F := Ideal) (Cert.ReferenceIdeal.Spec.relu128 (F := Ideal) (Cert.ReferenceIdeal.Spec.agg128 (F := Ideal) (m ((c : Thread nD τ).loc main_arg1)) (Cert.ReferenceIdeal.Spec.lin128 (F := Ideal) (m ((c : Thread nD τ).loc main_arg0)) (m ((c : Thread nD τ).loc main_arg2))) (m ((c : Thread nD τ).loc main_arg3)))) (m ((c : Thread nD τ).loc main_arg4))) (m ((c : Thread nD τ).loc main_arg5)))) (m ((c : Thread nD τ).loc main_arg6)) hH2 hW3
  -- the first launch's rows are the first layer
  have L1 : Spec.rows128 (F := Ideal) ((dat0 (F := Ideal) (V5 m ρ) c).arrAt 3 cfg0.N) = (Cert.ReferenceIdeal.Spec.relu128 (F := Ideal) (Cert.ReferenceIdeal.Spec.agg128 (F := Ideal) (m ((c : Thread nD τ).loc main_arg1)) (Cert.ReferenceIdeal.Spec.lin128 (F := Ideal) (m ((c : Thread nD τ).loc main_arg0)) (m ((c : Thread nD τ).loc main_arg2))) (m ((c : Thread nD τ).loc main_arg3)))) := by
    funext i
    obtain ⟨d, q, rfl⟩ : ∃ (d : Fin 10000) (q : Fin 128), i = ix2 d q := ⟨i 0, i 1, eq_ix2 i⟩
    rw [LayerValue.rows0_apply (V5 m ρ) c _ _ _ (Fold.entry0_adjacency m ρ c) (Fold.entry0_features m ρ c) (Fold.entry0_bias m ρ c) d q,
      relu128_apply, Layer.layer128 (m ((c : Thread nD τ).loc main_arg1)) hr (m ((c : Thread nD τ).loc main_arg0)) (m ((c : Thread nD τ).loc main_arg2)) (m ((c : Thread nD τ).loc main_arg3)) hL1 d q]
  -- the second launch's rows are the second layer
  have L2 : Spec.rows128 (F := Ideal) ((dat1 (F := Ideal) (V9 m ρ) c).arrAt 3 cfg1.N) = (Cert.ReferenceIdeal.Spec.relu128 (F := Ideal) (Cert.ReferenceIdeal.Spec.agg128 (F := Ideal) (m ((c : Thread nD τ).loc main_arg1)) (Cert.ReferenceIdeal.Spec.lin128 (F := Ideal) (Cert.ReferenceIdeal.Spec.relu128 (F := Ideal) (Cert.ReferenceIdeal.Spec.agg128 (F := Ideal) (m ((c : Thread nD τ).loc main_arg1)) (Cert.ReferenceIdeal.Spec.lin128 (F := Ideal) (m ((c : Thread nD τ).loc main_arg0)) (m ((c : Thread nD τ).loc main_arg2))) (m ((c : Thread nD τ).loc main_arg3)))) (m ((c : Thread nD τ).loc main_arg4))) (m ((c : Thread nD τ).loc main_arg5)))) := by
    funext i
    obtain ⟨d, q, rfl⟩ : ∃ (d : Fin 10000) (q : Fin 128), i = ix2 d q := ⟨i 0, i 1, eq_ix2 i⟩
    rw [LayerValue.rows1_apply (V9 m ρ) c _ _ _ (Fold.entry1_adjacency m ρ c) (Fold.entry1_features m ρ c) (Fold.entry1_bias m ρ c) d q,
      relu128_apply, L1, Layer.layer128 (m ((c : Thread nD τ).loc main_arg1)) hr (Cert.ReferenceIdeal.Spec.relu128 (F := Ideal) (Cert.ReferenceIdeal.Spec.agg128 (F := Ideal) (m ((c : Thread nD τ).loc main_arg1)) (Cert.ReferenceIdeal.Spec.lin128 (F := Ideal) (m ((c : Thread nD τ).loc main_arg0)) (m ((c : Thread nD τ).loc main_arg2))) (m ((c : Thread nD τ).loc main_arg3)))) (m ((c : Thread nD τ).loc main_arg4)) (m ((c : Thread nD τ).loc main_arg5)) hL2 d q]
  -- the result is the third layer of the second launch's rows
  rw [Fold.result m ρ c]
  funext i
  obtain ⟨d, q, rfl⟩ : ∃ (d : Fin 10000) (q : Fin 64), i = ix2 d q := ⟨i 0, i 1, eq_ix2 i⟩
  rw [LayerValue.rows2_apply (V13 m ρ) c _ _ _ (Fold.entry2_adjacency m ρ c) (Fold.entry2_features m ρ c) (Fold.entry2_bias m ρ c) d q,
    L2, Layer.layer64 (m ((c : Thread nD τ).loc main_arg1)) hr (Cert.ReferenceIdeal.Spec.relu128 (F := Ideal) (Cert.ReferenceIdeal.Spec.agg128 (F := Ideal) (m ((c : Thread nD τ).loc main_arg1)) (Cert.ReferenceIdeal.Spec.lin128 (F := Ideal) (Cert.ReferenceIdeal.Spec.relu128 (F := Ideal) (Cert.ReferenceIdeal.Spec.agg128 (F := Ideal) (m ((c : Thread nD τ).loc main_arg1)) (Cert.ReferenceIdeal.Spec.lin128 (F := Ideal) (m ((c : Thread nD τ).loc main_arg0)) (m ((c : Thread nD τ).loc main_arg2))) (m ((c : Thread nD τ).loc main_arg3)))) (m ((c : Thread nD τ).loc main_arg4))) (m ((c : Thread nD τ).loc main_arg5)))) (m ((c : Thread nD τ).loc main_arg6)) (m ((c : Thread nD τ).loc main_arg7)) hL3 d q]
  rfl

end Cert.Bridge.Main

end
-- ==== Proof.lean ====
/-
  The certificate's five claims for the three-layer graph convolution.
  The aggregation kernel computes each layer as a dense product: the symmetric-normalized adjacency matrix (self loops included)
  is built once on the host as a 10240 × 10240 array, `A[d, s] = Σ over the edges from s to d of 1/sqrt(deg s · deg d)`, and three
  launches compute `A · (X W) + b` by blocks of 512 rows (the first two followed by a maximum with 0). The reference computes
  the same layer edge by edge: gather the source rows of `X W`, scale by the edge weight, add up at the destinations. With
  every float input finite and every edge end a node index `0 ≤ i < 10000`, the two are one function on the extended reals:
  the edge weights and the features are real numbers, so the product distributes over the sum of an adjacency entry, and the two
  finite sums exchange.
  Frames: the two kernels' are generated; the reference's is its run with the result forgotten. The ideal pass rewrote nothing,
  so the idealization claim is trivial.
-/
import proofs.«129397_j61830349193499_1_alg».proof.Defs
import proofs.«129397_j61830349193499_1_alg».proof.Proof.Gen.Kernel
import proofs.«129397_j61830349193499_1_alg».proof.Proof.Gen.Kernel.Skeleton
import proofs.«129397_j61830349193499_1_alg».proof.Proof.Gen.Kernel.Launch
import proofs.«129397_j61830349193499_1_alg».proof.Proof.Gen.Kernel.Points
import proofs.«129397_j61830349193499_1_alg».proof.Proof.Gen.Kernel.Frame
import proofs.«129397_j61830349193499_1_alg».proof.Proof.Gen.KernelIdeal
import proofs.«129397_j61830349193499_1_alg».proof.Proof.Gen.KernelIdeal.Skeleton
import proofs.«129397_j61830349193499_1_alg».proof.Proof.Gen.KernelIdeal.Launch
import proofs.«129397_j61830349193499_1_alg».proof.Proof.Gen.KernelIdeal.Points
import proofs.«129397_j61830349193499_1_alg».proof.Proof.Gen.KernelIdeal.Frame
import proofs.«129397_j61830349193499_1_alg».proof.Proof.Gen.ReferenceIdeal
import proofs.«129397_j61830349193499_1_alg».proof.Proof.Gen.Pre_finite_inputs
import proofs.«129397_j61830349193499_1_alg».proof.Proof.KernelResultRun
import proofs.«129397_j61830349193499_1_alg».proof.Proof.ReferenceRunPatched
import proofs.«129397_j61830349193499_1_alg».proof.Proof.ReferenceRunSpec
import proofs.«129397_j61830349193499_1_alg».proof.Proof.Equivalence
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the same result: the reference's three layers of the (shared) arguments — the kernel's
    run ends there by the layer-by-layer equivalence, the reference's by reading its run back. -/
theorem algebraic : Cert.algebraic_KernelIdeal_ReferenceIdeal := by
  intro m ρ m' ρ' hpre hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Bridge.Main.result_eq m ρ c (hpre c)), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.RunSpec.res_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
